-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x7 : Shape := ⟨2, ![16, 7]⟩
abbrev S7 : Shape := ⟨1, ![7]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x16 : S_.BroadcastsInDim S512x16 (![] : Fin 0 → Fin S512x16.rank)
  reducesTo_S512x16_S_d0_1 : S512x16.ReducesTo [0, 1] S_
  bcast_S_S16 : S_.BroadcastsInDim S16 (![] : Fin 0 → Fin S16.rank)
  reducesTo_S16_S_d0 : S16.ReducesTo [0] S_
  bcast_S_S16x7 : S_.BroadcastsInDim S16x7 (![] : Fin 0 → Fin S16x7.rank)
  reducesTo_S16x7_S_d0_1 : S16x7.ReducesTo [0, 1] S_
  bcast_S_S7 : S_.BroadcastsInDim S7 (![] : Fin 0 → Fin S7.rank)
  reducesTo_S7_S_d0 : S7.ReducesTo [0] S_

variable [Facts]

def fn_part1 {F : FTy → Type} [FloatOps F] (main_arg5 : FVec F S7 .f32) (main_v13 : IVec S_ 1) (main_v16 : IVec S16x7 1) : IVec S_ 1 :=
  let main_c_5 : IVec S_ 1 := constantI S_ 1 1#1
  let main_v17 : IVec S_ 1 := (fun x v => Host.reduce IntOp.andi x v reducesTo_S16x7_S_d0_1 h_S_) main_v16 main_c_5
  let main_v18 : IVec S_ 1 := andi main_v13 main_v17
  let main_v19 : FVec F S7 .f32 := Host.absf main_arg5
  let main_cst_6 : FVec F S_ .f32 := constant S_ .f32 0x7F800000#32
  let main_v20 : FVec F S7 .f32 := broadcastInDim S7 ![] bcast_S_S7 main_cst_6
  let main_v21 : IVec S7 1 := cmpf .olt main_v19 main_v20
  let main_c_7 : IVec S_ 1 := constantI S_ 1 1#1
  let main_v22 : IVec S_ 1 := (fun x v => Host.reduce IntOp.andi x v reducesTo_S7_S_d0 h_S_) main_v21 main_c_7
  let main_v23 : IVec S_ 1 := andi main_v18 main_v22
  main_v23

def fn {F : FTy → Type} [FloatOps F] (main_arg0 : FVec F S100000x512 .f32) (main_arg1 : IVec S2x3200000 32) (main_arg2 : FVec F S512x16 .f32) (main_arg3 : FVec F S16 .f32) (main_arg4 : FVec F S16x7 .f32) (main_arg5 : FVec F S7 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x16 .f32 := Host.absf main_arg2
  let main_cst_0 : FVec F S_ .f32 := constant S_ .f32 0x7F800000#32
  let main_v5 : FVec F S512x16 .f32 := broadcastInDim S512x16 ![] bcast_S_S512x16 main_cst_0
  let main_v6 : IVec S512x16 1 := cmpf .olt main_v4 main_v5
  let main_c_1 : IVec S_ 1 := constantI S_ 1 1#1
  let main_v7 : IVec S_ 1 := (fun x v => Host.reduce IntOp.andi x v reducesTo_S512x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x7 .f32 := Host.absf main_arg4
  let main_cst_4 : FVec F S_ .f32 := constant S_ .f32 0x7F800000#32
  let main_v15 : FVec F S16x7 .f32 := broadcastInDim S16x7 ![] bcast_S_S16x7 main_cst_4
  let main_v16 : IVec S16x7 1 := cmpf .olt main_v14 main_v15
  fn_part1 (F := F) main_arg5 main_v13 main_v16
-- ==== Kernel.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x7 : Shape := ⟨2, ![16, 7]⟩
abbrev S7 : Shape := ⟨1, ![7]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S5000x512 : Shape := ⟨2, ![5000, 512]⟩
abbrev S5000x16 : Shape := ⟨2, ![5000, 16]⟩
abbrev S3300000x16 : Shape := ⟨2, ![3300000, 16]⟩
abbrev S1x16 : Shape := ⟨2, ![1, 16]⟩
abbrev S10000x16 : Shape := ⟨2, ![10000, 16]⟩
abbrev S100000x7 : Shape := ⟨2, ![100000, 7]⟩
abbrev S5000x7 : Shape := ⟨2, ![5000, 7]⟩
abbrev S3300000x7 : Shape := ⟨2, ![3300000, 7]⟩
abbrev S1x7 : Shape := ⟨2, ![1, 7]⟩
abbrev S10000x7 : Shape := ⟨2, ![10000, 7]⟩
abbrev S10000 : Shape := ⟨1, ![10000]⟩
abbrev S10000x1 : Shape := ⟨2, ![10000, 1]⟩

abbrev nBuf : Space → Nat
  | .hbm => 84
  | .vmem => 20
  | .smem => 0
  | _ => 0

abbrev bufTy : (tb : Table) → Fin (tcTables nBuf tb) → BufTy
  | .hbm, ⟨0, _⟩ => ⟨S100000x512, .f32⟩
  | .hbm, ⟨1, _⟩ => ⟨S2x3200000, .i32⟩
  | .hbm, ⟨2, _⟩ => ⟨S512x16, .f32⟩
  | .hbm, ⟨3, _⟩ => ⟨S16, .f32⟩
  | .hbm, ⟨4, _⟩ => ⟨S16x7, .f32⟩
  | .hbm, ⟨5, _⟩ => ⟨S7, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S3300000, .i32⟩
  | .hbm, ⟨29, _⟩ => ⟨S3300000, .i1⟩
  | .hbm, ⟨30, _⟩ => ⟨S_, .i32⟩
  | .hbm, ⟨31, _⟩ => ⟨S3300000, .i32⟩
  | .hbm, ⟨32, _⟩ => ⟨S3300000, .i32⟩
  | .hbm, ⟨33, _⟩ => ⟨S3300000, .i32⟩
  | .hbm, ⟨34, _⟩ => ⟨S3300000x1, .i32⟩
  | .hbm, ⟨35, _⟩ => ⟨S3300000, .f32⟩
  | .hbm, ⟨36, _⟩ => ⟨S_, .i32⟩
  | .hbm, ⟨37, _⟩ => ⟨S3300000, .i32⟩
  | .hbm, ⟨38, _⟩ => ⟨S3300000, .i1⟩
  | .hbm, ⟨39, _⟩ => ⟨S_, .i32⟩
  | .hbm, ⟨40, _⟩ => ⟨S3300000, .i32⟩
  | .hbm, ⟨41, _⟩ => ⟨S3300000, .i32⟩
  | .hbm, ⟨42, _⟩ => ⟨S3300000, .i32⟩
  | .hbm, ⟨43, _⟩ => ⟨S3300000x1, .i32⟩
  | .hbm, ⟨44, _⟩ => ⟨S3300000, .f32⟩
  | .hbm, ⟨45, _⟩ => ⟨S3300000, .f32⟩
  | .hbm, ⟨46, _⟩ => ⟨S100000x16, .f32⟩
  | .hbm, ⟨47, _⟩ => ⟨S_, .i32⟩
  | .hbm, ⟨48, _⟩ => ⟨S3300000, .i32⟩
  | .hbm, ⟨49, _⟩ => ⟨S3300000, .i1⟩
  | .hbm, ⟨50, _⟩ => ⟨S_, .i32⟩
  | .hbm, ⟨51, _⟩ => ⟨S3300000, .i32⟩
  | .hbm, ⟨52, _⟩ => ⟨S3300000, .i32⟩
  | .hbm, ⟨53, _⟩ => ⟨S3300000, .i32⟩
  | .hbm, ⟨54, _⟩ => ⟨S3300000x1, .i32⟩
  | .hbm, ⟨55, _⟩ => ⟨S3300000x16, .f32⟩
  | .hbm, ⟨56, _⟩ => ⟨S3300000x1, .f32⟩
  | .hbm, ⟨57, _⟩ => ⟨S3300000x16, .f32⟩
  | .hbm, ⟨58, _⟩ => ⟨S3300000x16, .f32⟩
  | .hbm, ⟨59, _⟩ => ⟨S_, .f32⟩
  | .hbm, ⟨60, _⟩ => ⟨S100000x16, .f32⟩
  | .hbm, ⟨61, _⟩ => ⟨S3300000x1, .i32⟩
  | .hbm, ⟨62, _⟩ => ⟨S100000x16, .f32⟩
  | .hbm, ⟨63, _⟩ => ⟨S1x16, .f32⟩
  | .hbm, ⟨64, _⟩ => ⟨S100000x16, .f32⟩
  | .hbm, ⟨65, _⟩ => ⟨S100000x7, .f32⟩
  | .hbm, ⟨66, _⟩ => ⟨S_, .i32⟩
  | .hbm, ⟨67, _⟩ => ⟨S3300000, .i32⟩
  | .hbm, ⟨68, _⟩ => ⟨S3300000, .i1⟩
  | .hbm, ⟨69, _⟩ => ⟨S_, .i32⟩
  | .hbm, ⟨70, _⟩ => ⟨S3300000, .i32⟩
  | .hbm, ⟨71, _⟩ => ⟨S3300000, .i32⟩
  | .hbm, ⟨72, _⟩ => ⟨S3300000, .i32⟩
  | .hbm, ⟨73, _⟩ => ⟨S3300000x1, .i32⟩
  | .hbm, ⟨74, _⟩ => ⟨S3300000x7, .f32⟩
  | .hbm, ⟨75, _⟩ => ⟨S3300000x1, .f32⟩
  | .hbm, ⟨76, _⟩ => ⟨S3300000x7, .f32⟩
  | .hbm, ⟨77, _⟩ => ⟨S3300000x7, .f32⟩
  | .hbm, ⟨78, _⟩ => ⟨S_, .f32⟩
  | .hbm, ⟨79, _⟩ => ⟨S100000x7, .f32⟩
  | .hbm, ⟨80, _⟩ => ⟨S3300000x1, .i32⟩
  | .hbm, ⟨81, _⟩ => ⟨S100000x7, .f32⟩
  | .hbm, ⟨82, _⟩ => ⟨S1x7, .f32⟩
  | .hbm, ⟨83, _⟩ => ⟨S100000x7, .f32⟩
  | .local _ .vmem, ⟨0, _⟩ => ⟨S5000x512, .f32⟩
  | .local _ .vmem, ⟨1, _⟩ => ⟨S5000x512, .f32⟩
  | .local _ .vmem, ⟨2, _⟩ => ⟨S512x16, .f32⟩
  | .local _ .vmem, ⟨3, _⟩ => ⟨S5000x16, .f32⟩
  | .local _ .vmem, ⟨4, _⟩ => ⟨S5000x16, .f32⟩
  | .local _ .vmem, ⟨5, _⟩ => ⟨S10000x16, .f32⟩
  | .local _ .vmem, ⟨6, _⟩ => ⟨S10000x16, .f32⟩
  | .local _ .vmem, ⟨7, _⟩ => ⟨S1x16, .f32⟩
  | .local _ .vmem, ⟨8, _⟩ => ⟨S10000x16, .f32⟩
  | .local _ .vmem, ⟨9, _⟩ => ⟨S10000x16, .f32⟩
  | .local _ .vmem, ⟨10, _⟩ => ⟨S5000x16, .f32⟩
  | .local _ .vmem, ⟨11, _⟩ => ⟨S5000x16, .f32⟩
  | .local _ .vmem, ⟨12, _⟩ => ⟨S16x7, .f32⟩
  | .local _ .vmem, ⟨13, _⟩ => ⟨S5000x7, .f32⟩
  | .local _ .vmem, ⟨14, _⟩ => ⟨S5000x7, .f32⟩
  | .local _ .vmem, ⟨15, _⟩ => ⟨S10000x7, .f32⟩
  | .local _ .vmem, ⟨16, _⟩ => ⟨S10000x7, .f32⟩
  | .local _ .vmem, ⟨17, _⟩ => ⟨S1x7, .f32⟩
  | .local _ .vmem, ⟨18, _⟩ => ⟨S10000x7, .f32⟩
  | .local _ .vmem, ⟨19, _⟩ => ⟨S10000x7, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_c_9 : Ref sig .tc := ⟨.hbm, 66, rfl⟩
abbrev main_v47 : Ref sig .tc := ⟨.hbm, 67, rfl⟩
abbrev main_v48 : Ref sig .tc := ⟨.hbm, 68, rfl⟩
abbrev main_c_10 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_11 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S16x7 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x7 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x7 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x7 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x7 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S5000x512_S5000x512_0_0 : ∀ a, (![0, 0] : Fin 2 → Nat) a + S5000x512.size a ≤ S5000x512.size a
  h_S5000x512 : 0 < S5000x512.numel
  bitsLt_bf16_f32 : FTy.bits .bf16 < FTy.bits .f32
  inb_S512x16_S512x16_0_0 : ∀ a, (![0, 0] : Fin 2 → Nat) a + S512x16.size a ≤ S512x16.size a
  h_S512x16 : 0 < S512x16.numel
  inb_S5000x16_S5000x16_0_0 : ∀ a, (![0, 0] : Fin 2 → Nat) a + S5000x16.size a ≤ S5000x16.size a
  h_S5000x16 : 0 < S5000x16.numel
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  shapeCasts_S16_S1x16 : S16.ShapeCasts S1x16
  inb_S10000x16_S10000x16_0_0 : ∀ a, (![0, 0] : Fin 2 → Nat) a + S10000x16.size a ≤ S10000x16.size a
  h_S10000x16 : 0 < S10000x16.numel
  shapeCasts_S10000x16_S10000x16 : S10000x16.ShapeCasts S10000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S10000x16 : S1x16.Broadcasts S10000x16
  shapeCasts_S5000x16_S5000x16 : S5000x16.ShapeCasts S5000x16
  inb_S16x7_S16x7_0_0 : ∀ a, (![0, 0] : Fin 2 → Nat) a + S16x7.size a ≤ S16x7.size a
  h_S16x7 : 0 < S16x7.numel
  inb_S5000x7_S5000x7_0_0 : ∀ a, (![0, 0] : Fin 2 → Nat) a + S5000x7.size a ≤ S5000x7.size a
  h_S5000x7 : 0 < S5000x7.numel
  bcast_S3300000x1_S3300000x7_0_1 : S3300000x1.BroadcastsInDim S3300000x7 (![0, 1] : Fin 2 → Fin S3300000x7.rank)
  bcast_S_S100000x7 : S_.BroadcastsInDim S100000x7 (![] : Fin 0 → Fin S100000x7.rank)
  shapeCasts_S7_S1x7 : S7.ShapeCasts S1x7
  inb_S10000x7_S10000x7_0_0 : ∀ a, (![0, 0] : Fin 2 → Nat) a + S10000x7.size a ≤ S10000x7.size a
  h_S10000x7 : 0 < S10000x7.numel
  shapeCasts_S10000x7_S10000x7 : S10000x7.ShapeCasts S10000x7
  inb_S1x7_S1x7_0_0 : ∀ a, (![0, 0] : Fin 2 → Nat) a + S1x7.size a ≤ S1x7.size a
  h_S1x7 : 0 < S1x7.numel
  shapeCasts_S1x7_S1x7 : S1x7.ShapeCasts S1x7
  broadcasts_S1x7_S10000x7 : S1x7.Broadcasts S10000x7
  reduces_S10000x7_S10000 : S10000x7.Reduces [1] S10000
  shapeCasts_S10000_S10000x1 : S10000.ShapeCasts S10000x1
  broadcasts_S10000x1_S10000x7 : S10000x1.Broadcasts S10000x7
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S5000x512_S512x16_S5000x16_1_0_0_1_n_n_wf : DotDims.WF S5000x512 S512x16 S5000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S5000x16_S16x7_S5000x7_1_0_0_1_n_n_wf : DotDims.WF S5000x16 S16x7 S5000x7 [1] [0] [0] [1] [] []
  gather_S100000x7_S3300000x1_S3300000x7_1_0_n_n_0_1_17_wf : GatherDims.WF S100000x7 S3300000x1 S3300000x7 [1] [0] [] [0] [] 1 ![1, 7]
  scatter_S100000x7_S3300000x1_S3300000x7_1_0_0_1_wf : ScatterDims.WF S100000x7 S3300000x1 S3300000x7 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x512.size a ≤ S100000x512.size a
  hwx0_0 : ∀ i : grid0.Coords, EltTy.bits .f32 = 32 ∨ (Rect.block (s := S100000x512) S5000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x16.size a ≤ S512x16.size a
  hwx0_1 : ∀ i : grid0.Coords, EltTy.bits .f32 = 32 ∨ (Rect.block (s := S512x16) S512x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x16.size a ≤ S100000x16.size a
  hwx0_2 : ∀ i : grid0.Coords, EltTy.bits .f32 = 32 ∨ (Rect.block (s := S100000x16) S5000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x16.size a ≤ S100000x16.size a
  hwx1_0 : ∀ i : grid1.Coords, EltTy.bits .f32 = 32 ∨ (Rect.block (s := S100000x16) S10000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x16.size a ≤ S1x16.size a
  hwx1_1 : ∀ i : grid1.Coords, EltTy.bits .f32 = 32 ∨ (Rect.block (s := S1x16) S1x16.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x16.size a ≤ S100000x16.size a
  hwx1_2 : ∀ i : grid1.Coords, EltTy.bits .f32 = 32 ∨ (Rect.block (s := S100000x16) S10000x16.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x16.size a ≤ S100000x16.size a
  hwx2_0 : ∀ i : grid2.Coords, EltTy.bits .f32 = 32 ∨ (Rect.block (s := S100000x16) S5000x16.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S16x7.size a ≤ S16x7.size a
  hwx2_1 : ∀ i : grid2.Coords, EltTy.bits .f32 = 32 ∨ (Rect.block (s := S16x7) S16x7.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x7.size a ≤ S100000x7.size a
  hwx2_2 : ∀ i : grid2.Coords, EltTy.bits .f32 = 32 ∨ (Rect.block (s := S100000x7) S5000x7.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x7.size a ≤ S100000x7.size a
  hwx3_0 : ∀ i : grid3.Coords, EltTy.bits .f32 = 32 ∨ (Rect.block (s := S100000x7) S10000x7.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x7.size a ≤ S1x7.size a
  hwx3_1 : ∀ i : grid3.Coords, EltTy.bits .f32 = 32 ∨ (Rect.block (s := S1x7) S1x7.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x7.size a ≤ S100000x7.size a
  hwx3_2 : ∀ i : grid3.Coords, EltTy.bits .f32 = 32 ∨ (Rect.block (s := S100000x7) S10000x7.size (cc3_transform_2 i) (hinb3_2 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S5000x512_S512x16_S5000x16_1_0_0_1_n_n : DotDims S5000x512 S512x16 S5000x16 where
  lhsContracting := [1]
  rhsContracting := [0]
  lhsNonContracting := [0]
  rhsNonContracting := [1]
  lhsBatch := []
  rhsBatch := []
  wf := dot_S5000x512_S512x16_S5000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S5000x16_S16x7_S5000x7_1_0_0_1_n_n : DotDims S5000x16 S16x7 S5000x7 where
  lhsContracting := [1]
  rhsContracting := [0]
  lhsNonContracting := [0]
  rhsNonContracting := [1]
  lhsBatch := []
  rhsBatch := []
  wf := dot_S5000x16_S16x7_S5000x7_1_0_0_1_n_n_wf
def gather_S100000x7_S3300000x1_S3300000x7_1_0_n_n_0_1_17 : GatherDims S100000x7 S3300000x1 S3300000x7 where
  offsetDims := [1]
  collapsedSliceDims := [0]
  operandBatchingDims := []
  startIndicesBatchingDims := []
  startIndexMap := [0]
  indexVectorDim := 1
  sliceSizes := ![1, 7]
  wf := gather_S100000x7_S3300000x1_S3300000x7_1_0_n_n_0_1_17_wf
def scatter_S100000x7_S3300000x1_S3300000x7_1_0_0_1 : ScatterDims S100000x7 S3300000x1 S3300000x7 where
  updateWindowDims := [1]
  insertedWindowDims := [0]
  scatterDimsToOperandDims := [0]
  indexVectorDim := 1
  wf := scatter_S100000x7_S3300000x1_S3300000x7_1_0_0_1_wf

abbrev win0_0 : Pipeline.Window sig grid0 :=
  Pipeline.Window.ofSpec (Memref.whole main_arg0) S5000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S10000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S10000x16.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S5000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S16x7.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S5000x7.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S10000x7.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x7.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S10000x7.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x7 : Shape := ⟨2, ![16, 7]⟩
abbrev S7 : Shape := ⟨1, ![7]⟩
abbrev S100000x16 : Shape := ⟨2, ![100000, 16]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S3300000x16 : Shape := ⟨2, ![3300000, 16]⟩
abbrev S1x16 : Shape := ⟨2, ![1, 16]⟩
abbrev S100000x7 : Shape := ⟨2, ![100000, 7]⟩
abbrev S3300000x7 : Shape := ⟨2, ![3300000, 7]⟩
abbrev S1x7 : Shape := ⟨2, ![1, 7]⟩
abbrev S100000x1 : Shape := ⟨2, ![100000, 1]⟩

abbrev nBuf : Space → Nat
  | .hbm => 144
  | .vmem => 0
  | .smem => 0
  | _ => 0

abbrev hbmTy0_0 (i : Nat) : BufTy := match i % 128 with
  | 0 => ⟨S100000x512, .f32⟩
  | 1 => ⟨S2x3200000, .i32⟩
  | 2 => ⟨S512x16, .f32⟩
  | 3 => ⟨S16, .f32⟩
  | 4 => ⟨S16x7, .f32⟩
  | 5 => ⟨S7, .f32⟩
  | 6 => ⟨S100000x16, .f32⟩
  | 7 => ⟨S100000, .i32⟩
  | 8 => ⟨S1x3200000, .i32⟩
  | 9 => ⟨S3200000, .i32⟩
  | 10 => ⟨S3300000, .i32⟩
  | 11 => ⟨S1x3200000, .i32⟩
  | 12 => ⟨S3200000, .i32⟩
  | 13 => ⟨S3300000, .i32⟩
  | 14 => ⟨S_, .f32⟩
  | 15 => ⟨S3300000, .f32⟩
  | 16 => ⟨S_, .f32⟩
  | 17 => ⟨S100000, .f32⟩
  | 18 => ⟨S3300000x1, .i32⟩
  | 19 => ⟨S100000, .f32⟩
  | 20 => ⟨S_, .f32⟩
  | 21 => ⟨S100000, .f32⟩
  | 22 => ⟨S100000, .i1⟩
  | 23 => ⟨S100000, .f32⟩
  | 24 => ⟨S_, .f32⟩
  | 25 => ⟨S_, .f32⟩
  | 26 => ⟨S100000, .f32⟩
  | 27 => ⟨S100000, .f32⟩
  | 28 => ⟨S_, .i32⟩
  | 29 => ⟨S3300000, .i32⟩
  | 30 => ⟨S3300000, .i1⟩
  | 31 => ⟨S_, .i32⟩
  | 32 => ⟨S3300000, .i32⟩
  | 33 => ⟨S3300000, .i32⟩
  | 34 => ⟨S3300000, .i32⟩
  | 35 => ⟨S3300000x1, .i32⟩
  | 36 => ⟨S3300000, .f32⟩
  | 37 => ⟨S_, .i32⟩
  | 38 => ⟨S3300000, .i32⟩
  | 39 => ⟨S3300000, .i1⟩
  | 40 => ⟨S_, .i32⟩
  | 41 => ⟨S3300000, .i32⟩
  | 42 => ⟨S3300000, .i32⟩
  | 43 => ⟨S3300000, .i32⟩
  | 44 => ⟨S3300000x1, .i32⟩
  | 45 => ⟨S3300000, .f32⟩
  | 46 => ⟨S3300000, .f32⟩
  | 47 => ⟨S_, .i32⟩
  | 48 => ⟨S3300000, .i32⟩
  | 49 => ⟨S3300000, .i1⟩
  | 50 => ⟨S_, .i32⟩
  | 51 => ⟨S3300000, .i32⟩
  | 52 => ⟨S3300000, .i32⟩
  | 53 => ⟨S3300000, .i32⟩
  | 54 => ⟨S3300000x1, .i32⟩
  | 55 => ⟨S3300000x16, .f32⟩
  | 56 => ⟨S3300000x1, .f32⟩
  | 57 => ⟨S3300000x16, .f32⟩
  | 58 => ⟨S3300000x16, .f32⟩
  | 59 => ⟨S_, .f32⟩
  | 60 => ⟨S100000x16, .f32⟩
  | 61 => ⟨S3300000x1, .i32⟩
  | 62 => ⟨S100000x16, .f32⟩
  | 63 => ⟨S1x16, .f32⟩
  | 64 => ⟨S100000x16, .f32⟩
  | 65 => ⟨S100000x16, .f32⟩
  | 66 => ⟨S_, .f32⟩
  | 67 => ⟨S100000x16, .f32⟩
  | 68 => ⟨S100000x16, .f32⟩
  | 69 => ⟨S100000x7, .f32⟩
  | 70 => ⟨S100000, .i32⟩
  | 71 => ⟨S1x3200000, .i32⟩
  | 72 => ⟨S3200000, .i32⟩
  | 73 => ⟨S3300000, .i32⟩
  | 74 => ⟨S1x3200000, .i32⟩
  | 75 => ⟨S3200000, .i32⟩
  | 76 => ⟨S3300000, .i32⟩
  | 77 => ⟨S_, .f32⟩
  | 78 => ⟨S3300000, .f32⟩
  | 79 => ⟨S_, .f32⟩
  | 80 => ⟨S100000, .f32⟩
  | 81 => ⟨S3300000x1, .i32⟩
  | 82 => ⟨S100000, .f32⟩
  | 83 => ⟨S_, .f32⟩
  | 84 => ⟨S100000, .f32⟩
  | 85 => ⟨S100000, .i1⟩
  | 86 => ⟨S100000, .f32⟩
  | 87 => ⟨S_, .f32⟩
  | 88 => ⟨S_, .f32⟩
  | 89 => ⟨S100000, .f32⟩
  | 90 => ⟨S100000, .f32⟩
  | 91 => ⟨S_, .i32⟩
  | 92 => ⟨S3300000, .i32⟩
  | 93 => ⟨S3300000, .i1⟩
  | 94 => ⟨S_, .i32⟩
  | 95 => ⟨S3300000, .i32⟩
  | 96 => ⟨S3300000, .i32⟩
  | 97 => ⟨S3300000, .i32⟩
  | 98 => ⟨S3300000x1, .i32⟩
  | 99 => ⟨S3300000, .f32⟩
  | 100 => ⟨S_, .i32⟩
  | 101 => ⟨S3300000, .i32⟩
  | 102 => ⟨S3300000, .i1⟩
  | 103 => ⟨S_, .i32⟩
  | 104 => ⟨S3300000, .i32⟩
  | 105 => ⟨S3300000, .i32⟩
  | 106 => ⟨S3300000, .i32⟩
  | 107 => ⟨S3300000x1, .i32⟩
  | 108 => ⟨S3300000, .f32⟩
  | 109 => ⟨S3300000, .f32⟩
  | 110 => ⟨S_, .i32⟩
  | 111 => ⟨S3300000, .i32⟩
  | 112 => ⟨S3300000, .i1⟩
  | 113 => ⟨S_, .i32⟩
  | 114 => ⟨S3300000, .i32⟩
  | 115 => ⟨S3300000, .i32⟩
  | 116 => ⟨S3300000, .i32⟩
  | 117 => ⟨S3300000x1, .i32⟩
  | 118 => ⟨S3300000x7, .f32⟩
  | 119 => ⟨S3300000x1, .f32⟩
  | 120 => ⟨S3300000x7, .f32⟩
  | 121 => ⟨S3300000x7, .f32⟩
  | 122 => ⟨S_, .f32⟩
  | 123 => ⟨S100000x7, .f32⟩
  | 124 => ⟨S3300000x1, .i32⟩
  | 125 => ⟨S100000x7, .f32⟩
  | 126 => ⟨S1x7, .f32⟩
  | 127 => ⟨S100000x7, .f32⟩
  | _ => ⟨S100000x512, .f32⟩

abbrev hbmTy0_1 (i : Nat) : BufTy := match i % 128 with
  | 0 => ⟨S100000x7, .f32⟩
  | 1 => ⟨S_, .f32⟩
  | 2 => ⟨S100000, .f32⟩
  | 3 => ⟨S_, .f32⟩
  | 4 => ⟨S100000, .f32⟩
  | 5 => ⟨S100000, .f32⟩
  | 6 => ⟨S100000x1, .f32⟩
  | 7 => ⟨S100000x7, .f32⟩
  | 8 => ⟨S100000x7, .f32⟩
  | 9 => ⟨S100000x7, .f32⟩
  | 10 => ⟨S_, .f32⟩
  | 11 => ⟨S100000, .f32⟩
  | 12 => ⟨S100000x1, .f32⟩
  | 13 => ⟨S100000x1, .f32⟩
  | 14 => ⟨S100000x7, .f32⟩
  | 15 => ⟨S100000x7, .f32⟩
  | _ => ⟨S100000x512, .f32⟩

abbrev hbmTy (i : Nat) : BufTy := match i / 128 with
  | 0 => hbmTy0_0 i
  | 1 => hbmTy0_1 i
  | _ => ⟨S100000x512, .f32⟩

abbrev bufTy : (tb : Table) → Fin (tcTables nBuf tb) → BufTy
  | .hbm, ⟨i, _⟩ => hbmTy i
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_9 : Ref sig .tc := ⟨.hbm, 77, rfl⟩
abbrev main_v56 : Ref sig .tc := ⟨.hbm, 78, rfl⟩
abbrev main_cst_10 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_11 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_cst_12 : Ref sig .tc := ⟨.hbm, 87, rfl⟩
abbrev main_call2_v0 : Ref sig .tc := ⟨.hbm, 88, rfl⟩
abbrev main_call2_v1 : Ref sig .tc := ⟨.hbm, 89, rfl⟩
abbrev main_v63 : Ref sig .tc := ⟨.hbm, 90, rfl⟩
abbrev main_c_13 : Ref sig .tc := ⟨.hbm, 91, rfl⟩
abbrev main_v64 : Ref sig .tc := ⟨.hbm, 92, rfl⟩
abbrev main_v65 : Ref sig .tc := ⟨.hbm, 93, rfl⟩
abbrev main_c_14 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_c_15 : Ref sig .tc := ⟨.hbm, 100, rfl⟩
abbrev main_v71 : Ref sig .tc := ⟨.hbm, 101, rfl⟩
abbrev main_v72 : Ref sig .tc := ⟨.hbm, 102, rfl⟩
abbrev main_c_16 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_c_17 : Ref sig .tc := ⟨.hbm, 110, rfl⟩
abbrev main_v79 : Ref sig .tc := ⟨.hbm, 111, rfl⟩
abbrev main_v80 : Ref sig .tc := ⟨.hbm, 112, rfl⟩
abbrev main_c_18 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_cst_19 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_call3_cst : Ref sig .tc := ⟨.hbm, 129, rfl⟩
abbrev main_call3_v0 : Ref sig .tc := ⟨.hbm, 130, rfl⟩
abbrev main_call3_cst_0 : Ref sig .tc := ⟨.hbm, 131, rfl⟩
abbrev main_call3_v1 : Ref sig .tc := ⟨.hbm, 132, rfl⟩
abbrev main_call3_v2 : Ref sig .tc := ⟨.hbm, 133, rfl⟩
abbrev main_call3_v3 : Ref sig .tc := ⟨.hbm, 134, rfl⟩
abbrev main_call3_v4 : Ref sig .tc := ⟨.hbm, 135, rfl⟩
abbrev main_call3_v5 : Ref sig .tc := ⟨.hbm, 136, rfl⟩
abbrev main_call3_v6 : Ref sig .tc := ⟨.hbm, 137, rfl⟩
abbrev main_call3_cst_1 : Ref sig .tc := ⟨.hbm, 138, rfl⟩
abbrev main_call3_v7 : Ref sig .tc := ⟨.hbm, 139, rfl⟩
abbrev main_call3_v8 : Ref sig .tc := ⟨.hbm, 140, rfl⟩
abbrev main_call3_v9 : Ref sig .tc := ⟨.hbm, 141, rfl⟩
abbrev main_call3_v10 : Ref sig .tc := ⟨.hbm, 142, rfl⟩
abbrev main_v95 : Ref sig .tc := ⟨.hbm, 143, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S3300000x1_S3300000x7_0_1 : S3300000x1.BroadcastsInDim S3300000x7 (![0, 1] : Fin 2 → Fin S3300000x7.rank)
  bcast_S_S100000x7 : S_.BroadcastsInDim S100000x7 (![] : Fin 0 → Fin S100000x7.rank)
  bcast_S7_S1x7_1 : S7.BroadcastsInDim S1x7 (![1] : Fin 1 → Fin S1x7.rank)
  bcast_S1x7_S100000x7_0_1 : S1x7.BroadcastsInDim S100000x7 (![0, 1] : Fin 2 → Fin S100000x7.rank)
  reducesTo_S100000x7_S100000_d1 : S100000x7.ReducesTo [1] S100000
  h_S_ : 0 < S_.numel
  bcast_S100000_S100000x1_0 : S100000.BroadcastsInDim S100000x1 (![0] : Fin 1 → Fin S100000x1.rank)
  bcast_S100000x1_S100000x7_0_1 : S100000x1.BroadcastsInDim S100000x7 (![0, 1] : Fin 2 → Fin S100000x7.rank)
  dot_S100000x512_S512x16_S100000x16_1_0_0_1_n_n_wf : DotDims.WF S100000x512 S512x16 S100000x16 [1] [0] [0] [1] [] []
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x7_S100000x7_1_0_0_1_n_n_wf : DotDims.WF S100000x16 S16x7 S100000x7 [1] [0] [0] [1] [] []
  gather_S100000x7_S3300000x1_S3300000x7_1_0_n_n_0_1_17_wf : GatherDims.WF S100000x7 S3300000x1 S3300000x7 [1] [0] [] [0] [] 1 ![1, 7]
  scatter_S100000x7_S3300000x1_S3300000x7_1_0_0_1_wf : ScatterDims.WF S100000x7 S3300000x1 S3300000x7 [1] [0] [0] 1

variable [Facts₀]

def dot_S100000x512_S512x16_S100000x16_1_0_0_1_n_n : DotDims S100000x512 S512x16 S100000x16 where
  lhsContracting := [1]
  rhsContracting := [0]
  lhsNonContracting := [0]
  rhsNonContracting := [1]
  lhsBatch := []
  rhsBatch := []
  wf := dot_S100000x512_S512x16_S100000x16_1_0_0_1_n_n_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x7_S100000x7_1_0_0_1_n_n : DotDims S100000x16 S16x7 S100000x7 where
  lhsContracting := [1]
  rhsContracting := [0]
  lhsNonContracting := [0]
  rhsNonContracting := [1]
  lhsBatch := []
  rhsBatch := []
  wf := dot_S100000x16_S16x7_S100000x7_1_0_0_1_n_n_wf
def gather_S100000x7_S3300000x1_S3300000x7_1_0_n_n_0_1_17 : GatherDims S100000x7 S3300000x1 S3300000x7 where
  offsetDims := [1]
  collapsedSliceDims := [0]
  operandBatchingDims := []
  startIndicesBatchingDims := []
  startIndexMap := [0]
  indexVectorDim := 1
  sliceSizes := ![1, 7]
  wf := gather_S100000x7_S3300000x1_S3300000x7_1_0_n_n_0_1_17_wf
def scatter_S100000x7_S3300000x1_S3300000x7_1_0_0_1 : ScatterDims S100000x7 S3300000x1 S3300000x7 where
  updateWindowDims := [1]
  insertedWindowDims := [0]
  scatterDimsToOperandDims := [0]
  indexVectorDim := 1
  wf := scatter_S100000x7_S3300000x1_S3300000x7_1_0_0_1_wf

class Facts : Prop extends Facts₀ where

variable [Facts]
-- ==== Proof.KRun.lean ====
/-
  The kernel program's run with its RESULT read: every weakly fair execution of @main terminates, nothing
  faulting, the argument arrays end as launched, and the result buffer ends at the contents the last region's
  exit leaves in it — the fold of the program's segments (three stretches of host operations, the first matrix
  product, the first aggregation, the bias-and-positive-part region, the second matrix product, the second
  aggregation, the log-softmax region) from the launch memory, `Gen.W9`.
  The frame of this program is the library's launch theorem for a list of segments applied to the generated
  segments; its final reading picks the argument buffers out of "every unscoped buffer holds the last boundary's
  contents". Here the same reading also picks the result buffer.
-/
import proofs.«162333_j76862734730017_1_alg».proof.Proof.Gen.KernelIdeal.Frame

set_option maxRecDepth 16384

noncomputable section

namespace Cert.KernelIdeal.ValueRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution terminates with the result buffer at the last boundary's contents and the
    arguments as launched. -/
theorem run_result : θ_run defs (onTc (τ := τ) (main (F := F))) ⟨m, fun _ => 0, ρ⟩ (fun r => ∀ c : Dev nD,
      r.2.mem ((c.tc : Thread nD τ).loc main_v61) = W9 m ρ c (Proc.devRef .tc main_v61)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v61 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c)⟩)

end Cert.KernelIdeal.ValueRun

end
-- ==== Proof.GcnSpec.lean ====
/-
  The mathematics of the four dense stages of a two-layer graph convolution, as whole-array functions over the
  extended reals, index by index.

  * `mm x w`: the matrix product, entry (r, c) the sum over l of x(r, l) · w(l, c).
  * `biasRelu a b`: entry (r, c) is max (a(r, c) + b(0, c)) 0 — a row vector added to every row, then the
    positive part.
  * `biasLogSoftmax a b`: with z(r, ·) = a(r, ·) + b(0, ·) and M(r) the maximum of row r of z (a fold of `max`
    from -∞), entry (r, c) is (z(r, c) - M(r)) - log (Σ_j exp (z(r, j) - M(r))).

  Nothing here depends on a program: the kernel's blocks and the reference's host operations are each shown to
  compute these functions.
-/
import Idealize.ShloMosaic.PureOps.Ideal
import Idealize.ShloMosaic.Lib.ValueIdx

noncomputable section

namespace Cert.GcnSpec

open Idealize.ShloMosaic Idealize.ShloMosaic.ValueIdx

/-- A rank-2 array of extended reals of literal extents. -/
abbrev Mat (n k : Nat) : Type := FVec Ideal (⟨2, ![n, k]⟩ : Shape) .f32

/-- The matrix product: entry (r, c) is Σ_l x(r, l) · w(l, c). -/
def mm {n k p : Nat} (x : Mat n k) (w : Mat k p) : Mat n p :=
  fun i => ∑ l : Fin k, x (ix2 (i 0) l) * w (ix2 l (i 1))

/-- A row vector added to every row, then the positive part. -/
def biasRelu {n p : Nat} (a : Mat n p) (b : Mat 1 p) : Mat n p :=
  fun i => max (a i + b (ix2 0 (i 1))) (Ideal.ofBits .f32 0x00000000#32)

/-- Row r of a + b, as a function of the column. -/
def biasRow {n p : Nat} (a : Mat n p) (b : Mat 1 p) (r : Fin n) : Fin p → EReal :=
  fun j => a (ix2 r j) + b (ix2 0 j)

/-- The maximum of a row: the fold of `max` from -∞ over the columns. -/
def rowMax {p : Nat} (z : Fin p → EReal) : EReal :=
  (Finset.univ : Finset (Fin p)).fold max (Ideal.ofBits .f32 0xFF800000#32) z

/-- Row-wise log-softmax of a + b (the maximum subtracted first). -/
def biasLogSoftmax {n p : Nat} (a : Mat n p) (b : Mat 1 p) : Mat n p :=
  fun i => (biasRow a b (i 0) (i 1) - rowMax (biasRow a b (i 0)))
    - Ideal.log (∑ j : Fin p, Ideal.exp (biasRow a b (i 0) j - rowMax (biasRow a b (i 0))))

end Cert.GcnSpec

end
-- ==== Proof.Glue.lean ====
/-
  The sparse half of a two-layer graph convolution, as the program's own host operations composed into functions
  of the edge list `e : i32[2, E]` (row 0 the sources, row 1 the destinations), and the whole network as one
  function of its six arguments.

  * `srcIdx e`, `dstIdx e`: the edges' sources / destinations followed by one self-loop per node (0 … n-1).
  * `wrapIdx v`: a negative index counted from the end (v + n where v < 0).
  * `deg e`: the number of edges arriving at each node (a scatter-add of ones along `dstIdx`);
    `dinv e`: deg^(-1/2) where deg > 0, else 0;  `norm e`: per edge, dinv(source) · dinv(destination).
  * `agg e h`: for each node the sum over its incoming edges of norm · (the source's row of h): a gather of rows,
    a product with the edge weights spread along the row, a scatter-add along `dstIdx`. (Two copies, for rows of
    16 and of 7 entries.)
  * `network`: log-softmax (agg (relu (agg (x·W1) + b1) · W2) + b2), the dense stages being `Cert.GcnSpec`'s.
  The sparse operations are never opened: both programs apply these very operations, and only the dense stages
  between them are computed differently.
-/
import proofs.«162333_j76862734730017_1_alg».proof.KernelIdeal
import proofs.«162333_j76862734730017_1_alg».proof.Proof.GcnSpec

noncomputable section

namespace Cert.KernelIdeal.Glue

open Cert.KernelIdeal Idealize.ShloMosaic
open Cert.KernelIdeal.Facts₀ Cert.KernelIdeal.Facts

variable {F : FTy → Type} [FloatOps F] [Cert.KernelIdeal.Facts]

/-- The destinations: row 1 of the edge list, then every node once. -/
def dstIdx (e : (⟨S2x3200000, .i32⟩ : BufTy).Contents (Elt F)) : (⟨S3300000, .i32⟩ : BufTy).Contents (Elt F) :=
  concatenate S3300000 0 [⟨S3200000, (shapeCast _ (extractStridedSlice S1x3200000 ![1, 0] e slices_S2x3200000_S1x3200000_1_0) shapeCasts_S1x3200000_S3200000)⟩, ⟨S100000, (iotaInDim S100000 32 0)⟩] concatenates_S3200000_S100000_S3300000_d0

/-- The sources: row 0 of the edge list, then every node once. -/
def srcIdx (e : (⟨S2x3200000, .i32⟩ : BufTy).Contents (Elt F)) : (⟨S3300000, .i32⟩ : BufTy).Contents (Elt F) :=
  concatenate S3300000 0 [⟨S3200000, (shapeCast _ (extractStridedSlice S1x3200000 ![0, 0] e slices_S2x3200000_S1x3200000_0_0) shapeCasts_S1x3200000_S3200000)⟩, ⟨S100000, (iotaInDim S100000 32 0)⟩] concatenates_S3200000_S100000_S3300000_d0

/-- A negative index counts from the end. -/
def wrapIdx (v : (⟨S3300000, .i32⟩ : BufTy).Contents (Elt F)) : (⟨S3300000, .i32⟩ : BufTy).Contents (Elt F) :=
  select (cmpi .slt v (broadcastInDim S3300000 ![] bcast_S_S3300000 (constantI S_ 32 0#32))) (addi v (broadcastInDim S3300000 ![] bcast_S_S3300000 (constantI S_ 32 100000#32))) v

/-- The in-degree of each node, self-loop included. -/
def deg (e : (⟨S2x3200000, .i32⟩ : BufTy).Contents (Elt F)) : (⟨S100000, .f32⟩ : BufTy).Contents (Elt F) :=
  Host.scatterAdd scatter_S100000_S3300000x1_S3300000_n_0_0_1 (broadcastInDim S100000 ![] bcast_S_S100000 (constant S_ .f32 0x00000000#32)) (broadcastInDim S3300000x1 ![0] bcast_S3300000_S3300000x1_0 (dstIdx e)) (broadcastInDim S3300000 ![] bcast_S_S3300000 (constant S_ .f32 0x3F800000#32))

/-- deg^(-1/2) where the degree is positive, zero elsewhere. -/
def dinv (e : (⟨S2x3200000, .i32⟩ : BufTy).Contents (Elt F)) : (⟨S100000, .f32⟩ : BufTy).Contents (Elt F) :=
  select (cmpf (F := F) .ogt (deg e) (broadcastInDim S100000 ![] bcast_S_S100000 (constant S_ .f32 0x00000000#32))) (Host.rsqrt (deg e)) (broadcastInDim S100000 ![] bcast_S_S100000 (id (constant S_ .f32 0x00000000#32)))

/-- The symmetric normalisation of each edge: dinv at its source times dinv at its destination. -/
def norm (e : (⟨S2x3200000, .i32⟩ : BufTy).Contents (Elt F)) : (⟨S3300000, .f32⟩ : BufTy).Contents (Elt F) :=
  mulf (Host.gather gather_S100000_S3300000x1_S3300000_n_0_n_n_0_1_1 (dinv e) (broadcastInDim S3300000x1 ![0] bcast_S3300000_S3300000x1_0 (wrapIdx (srcIdx e)))) (Host.gather gather_S100000_S3300000x1_S3300000_n_0_n_n_0_1_1 (dinv e) (broadcastInDim S3300000x1 ![0] bcast_S3300000_S3300000x1_0 (wrapIdx (dstIdx e))))

/-- Aggregation of 16-entry rows over incoming edges. -/
def agg16 (e : (⟨S2x3200000, .i32⟩ : BufTy).Contents (Elt F)) (h : (⟨S100000x16, .f32⟩ : BufTy).Contents (Elt F)) : (⟨S100000x16, .f32⟩ : BufTy).Contents (Elt F) :=
  Host.scatterAdd scatter_S100000x16_S3300000x1_S3300000x16_1_0_0_1 (broadcastInDim S100000x16 ![] bcast_S_S100000x16 (constant S_ .f32 0x00000000#32)) (broadcastInDim S3300000x1 ![0] bcast_S3300000_S3300000x1_0 (dstIdx e)) (mulf (Host.gather gather_S100000x16_S3300000x1_S3300000x16_1_0_n_n_0_1_116 h (broadcastInDim S3300000x1 ![0] bcast_S3300000_S3300000x1_0 (wrapIdx (srcIdx e)))) (broadcastInDim S3300000x16 ![0, 1] bcast_S3300000x1_S3300000x16_0_1 (broadcastInDim S3300000x1 ![0] bcast_S3300000_S3300000x1_0 (norm e))))

/-- Aggregation of 7-entry rows over incoming edges. -/
def agg7 (e : (⟨S2x3200000, .i32⟩ : BufTy).Contents (Elt F)) (h : (⟨S100000x7, .f32⟩ : BufTy).Contents (Elt F)) : (⟨S100000x7, .f32⟩ : BufTy).Contents (Elt F) :=
  Host.scatterAdd scatter_S100000x7_S3300000x1_S3300000x7_1_0_0_1 (broadcastInDim S100000x7 ![] bcast_S_S100000x7 (constant S_ .f32 0x00000000#32)) (broadcastInDim S3300000x1 ![0] bcast_S3300000_S3300000x1_0 (dstIdx e)) (mulf (Host.gather gather_S100000x7_S3300000x1_S3300000x7_1_0_n_n_0_1_17 h (broadcastInDim S3300000x1 ![0] bcast_S3300000_S3300000x1_0 (wrapIdx (srcIdx e)))) (broadcastInDim S3300000x7 ![0, 1] bcast_S3300000x1_S3300000x7_0_1 (broadcastInDim S3300000x1 ![0] bcast_S3300000_S3300000x1_0 (norm e))))

end Cert.KernelIdeal.Glue

namespace Cert.KernelIdeal.Glue

open Cert.KernelIdeal Idealize.ShloMosaic
open Cert.KernelIdeal.Facts₀ Cert.KernelIdeal.Facts

variable [Cert.KernelIdeal.Facts]

/-- The whole network at the extended reals: two rounds of (dense product, aggregation, row-wise stage). -/
def network (x : (⟨S100000x512, .f32⟩ : BufTy).Contents (Elt Ideal)) (e : (⟨S2x3200000, .i32⟩ : BufTy).Contents (Elt Ideal))
    (w1 : (⟨S512x16, .f32⟩ : BufTy).Contents (Elt Ideal)) (b1 : (⟨S16, .f32⟩ : BufTy).Contents (Elt Ideal))
    (w2 : (⟨S16x7, .f32⟩ : BufTy).Contents (Elt Ideal)) (b2 : (⟨S7, .f32⟩ : BufTy).Contents (Elt Ideal)) :
    (⟨S100000x7, .f32⟩ : BufTy).Contents (Elt Ideal) :=
  Cert.GcnSpec.biasLogSoftmax
    (agg7 (F := Ideal) e (Cert.GcnSpec.mm (Cert.GcnSpec.biasRelu (agg16 (F := Ideal) e (Cert.GcnSpec.mm x w1)) (shapeCast S1x16 b1 shapeCasts_S16_S1x16)) w2))
    (shapeCast S1x7 b2 shapeCasts_S7_S1x7)

end Cert.KernelIdeal.Glue

end
-- ==== Proof.KGlue.lean ====
/-
  The kernel program's result buffer as ONE function of its six arguments: the fold of the program's segments
  read stage by stage. Each stretch of host operations leaves in a buffer its operations' composed term of the
  buffers it read (the sparse operations of `Glue`: index lists, degrees, edge weights, the two aggregations, the
  two bias reshapes); each kernel region leaves in its output array the whole-array function its blocks tile
  (`GcnSpec`: the two matrix products, bias-and-positive-part, row-wise log-softmax — taken here as hypotheses about
  a region entered at ANY contents, proved region by region elsewhere); a buffer that a stage does not write keeps
  its contents. Composed: the result is `Glue.network` of the launch contents of the arguments.
-/
import proofs.«162333_j76862734730017_1_alg».proof.Proof.Gen.KernelIdeal.Frame
import proofs.«162333_j76862734730017_1_alg».proof.Proof.Glue
import Idealize.ShloMosaic.Lib.StableHlo.Run

set_option maxRecDepth 16384

noncomputable section

namespace Cert.KernelIdeal.Chain

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-! ## Up to the first region: the index lists, the degrees and the edge weights -/

theorem W1_main_v3 (c : Dev nD) : W1 m ρ c (Proc.devRef .tc main_v3) = Glue.srcIdx (F := Ideal) (m ((c : Thread nD τ).loc main_arg1)) := by
  dsimp only [W1, W0, hostOps0]
  after_results_simp
  rfl

theorem W1_main_v6 (c : Dev nD) : W1 m ρ c (Proc.devRef .tc main_v6) = Glue.dstIdx (F := Ideal) (m ((c : Thread nD τ).loc main_arg1)) := by
  dsimp only [W1, W0, hostOps0]
  after_results_simp
  rfl

theorem W1_main_v10 (c : Dev nD) : W1 m ρ c (Proc.devRef .tc main_v10) = Glue.deg (F := Ideal) (m ((c : Thread nD τ).loc main_arg1)) := by
  dsimp only [W1, W0, hostOps0]
  after_results_simp
  unfold Glue.deg Glue.dstIdx
  rfl

theorem W1_main_v12 (c : Dev nD) : W1 m ρ c (Proc.devRef .tc main_v12)
    = cmpf (F := Ideal) .ogt (Glue.deg (F := Ideal) (m ((c : Thread nD τ).loc main_arg1))) (broadcastInDim S100000 ![] Facts₀.bcast_S_S100000 (constant (F := Ideal) S_ .f32 0x00000000#32)) := by
  dsimp only [W1, W0, hostOps0]
  after_results_simp
  unfold Glue.deg Glue.dstIdx
  rfl

theorem W1_main_v13 (c : Dev nD) : W1 m ρ c (Proc.devRef .tc main_v13)
    = (Host.rsqrt (Glue.deg (F := Ideal) (m ((c : Thread nD τ).loc main_arg1)) : FVec Ideal S100000 .f32) : FVec Ideal S100000 .f32) := by
  dsimp only [W1, W0, hostOps0]
  after_results_simp
  unfold Glue.deg Glue.dstIdx
  rfl

theorem W1_main_cst_2 (c : Dev nD) : W1 m ρ c (Proc.devRef .tc main_cst_2) = constant (F := Ideal) S_ .f32 0x00000000#32 := by
  dsimp only [W1, W0, hostOps0]
  after_results_simp

theorem W2_main_v3 (c : Dev nD) : W2 m ρ c (Proc.devRef .tc main_v3) = Glue.srcIdx (F := Ideal) (m ((c : Thread nD τ).loc main_arg1)) := by
  refine Eq.trans ?_ (W1_main_v3 m ρ c)
  dsimp only [W2, hostOps0_1]
  generalize W1 m ρ c = V
  after_results_simp

theorem W2_main_v6 (c : Dev nD) : W2 m ρ c (Proc.devRef .tc main_v6) = Glue.dstIdx (F := Ideal) (m ((c : Thread nD τ).loc main_arg1)) := by
  refine Eq.trans ?_ (W1_main_v6 m ρ c)
  dsimp only [W2, hostOps0_1]
  generalize W1 m ρ c = V
  after_results_simp

theorem W2_main_v14 (c : Dev nD) : W2 m ρ c (Proc.devRef .tc main_v14) = Glue.dinv (F := Ideal) (m ((c : Thread nD τ).loc main_arg1)) := by
  have h12 := W1_main_v12 m ρ c
  have h13 := W1_main_v13 m ρ c
  have hc2 := W1_main_cst_2 m ρ c
  dsimp only [W2, hostOps0_1]
  generalize W1 m ρ c = V at h12 h13 hc2 ⊢
  after_results_simp
  refine Eq.trans (b := select (V (Proc.devRef .tc main_v12)) (V (Proc.devRef .tc main_v13))
    (broadcastInDim S100000 ![] Facts₀.bcast_S_S100000 (id (V (Proc.devRef .tc main_cst_2))))) rfl ?_
  rw [h12, h13, hc2]
  unfold Glue.dinv
  rfl

theorem W3_main_v3 (c : Dev nD) : W3 m ρ c (Proc.devRef .tc main_v3) = Glue.srcIdx (F := Ideal) (m ((c : Thread nD τ).loc main_arg1)) := by
  refine Eq.trans ?_ (W2_main_v3 m ρ c)
  dsimp only [W3, hostOps0_2]
  generalize W2 m ρ c = V
  after_results_simp

theorem W3_main_v6 (c : Dev nD) : W3 m ρ c (Proc.devRef .tc main_v6) = Glue.dstIdx (F := Ideal) (m ((c : Thread nD τ).loc main_arg1)) := by
  refine Eq.trans ?_ (W2_main_v6 m ρ c)
  dsimp only [W3, hostOps0_2]
  generalize W2 m ρ c = V
  after_results_simp

theorem W3_main_v29 (c : Dev nD) : W3 m ρ c (Proc.devRef .tc main_v29) = Glue.norm (F := Ideal) (m ((c : Thread nD τ).loc main_arg1)) := by
  have h14 := W2_main_v14 m ρ c
  have h3 := W2_main_v3 m ρ c
  have h6 := W2_main_v6 m ρ c
  dsimp only [W3, hostOps0_2]
  generalize W2 m ρ c = V at h14 h3 h6 ⊢
  after_results_simp
  rw [h14, h3, h6]
  rfl

theorem W3_main_arg0 (c : Dev nD) : W3 m ρ c (Proc.devRef .tc main_arg0) = m ((c : Thread nD τ).loc main_arg0) := by
  dsimp only [W3, W2, W1, W0, hostOps0, hostOps0_1, hostOps0_2]
  after_results_simp

theorem W3_main_arg2 (c : Dev nD) : W3 m ρ c (Proc.devRef .tc main_arg2) = m ((c : Thread nD τ).loc main_arg2) := by
  dsimp only [W3, W2, W1, W0, hostOps0, hostOps0_1, hostOps0_2]
  after_results_simp

theorem W3_main_arg3 (c : Dev nD) : W3 m ρ c (Proc.devRef .tc main_arg3) = m ((c : Thread nD τ).loc main_arg3) := by
  dsimp only [W3, W2, W1, W0, hostOps0, hostOps0_1, hostOps0_2]
  after_results_simp

theorem W3_main_arg4 (c : Dev nD) : W3 m ρ c (Proc.devRef .tc main_arg4) = m ((c : Thread nD τ).loc main_arg4) := by
  dsimp only [W3, W2, W1, W0, hostOps0, hostOps0_1, hostOps0_2]
  after_results_simp

theorem W3_main_arg5 (c : Dev nD) : W3 m ρ c (Proc.devRef .tc main_arg5) = m ((c : Thread nD τ).loc main_arg5) := by
  dsimp only [W3, W2, W1, W0, hostOps0, hostOps0_1, hostOps0_2]
  after_results_simp

section
variable
  (H0 : ∀ (V : (c : Dev nD) → (b : Ref sig .tc) → Buf (Elt Ideal) ((c : Thread nD τ).loc b)) (c : Dev nD),
    (dat0 (F := Ideal) V c).arrAt 2 cfg0.N = Cert.GcnSpec.mm (V c main_arg0) (V c main_arg2))
  (H1 : ∀ (V : (c : Dev nD) → (b : Ref sig .tc) → Buf (Elt Ideal) ((c : Thread nD τ).loc b)) (c : Dev nD),
    (dat1 (F := Ideal) V c).arrAt 2 cfg1.N = Cert.GcnSpec.biasRelu (V c main_v43) (V c main_v44))
  (H2 : ∀ (V : (c : Dev nD) → (b : Ref sig .tc) → Buf (Elt Ideal) ((c : Thread nD τ).loc b)) (c : Dev nD),
    (dat2 (F := Ideal) V c).arrAt 2 cfg2.N = Cert.GcnSpec.mm (V c main_v45) (V c main_arg4))
  (H3 : ∀ (V : (c : Dev nD) → (b : Ref sig .tc) → Buf (Elt Ideal) ((c : Thread nD τ).loc b)) (c : Dev nD),
    (dat3 (F := Ideal) V c).arrAt 2 cfg3.N = Cert.GcnSpec.biasLogSoftmax (V c main_v59) (V c main_v60))

/-! ## After the first matrix product -/
theorem W4_main_v3 (c : Dev nD) : W4 m ρ c (Proc.devRef .tc main_v3) = Glue.srcIdx (F := Ideal) (m ((c : Thread nD τ).loc main_arg1)) :=
  (W4_of_ne m ρ c main_v3 (by decide)).trans (W3_main_v3 m ρ c)
theorem W4_main_v6 (c : Dev nD) : W4 m ρ c (Proc.devRef .tc main_v6) = Glue.dstIdx (F := Ideal) (m ((c : Thread nD τ).loc main_arg1)) :=
  (W4_of_ne m ρ c main_v6 (by decide)).trans (W3_main_v6 m ρ c)
theorem W4_main_v29 (c : Dev nD) : W4 m ρ c (Proc.devRef .tc main_v29) = Glue.norm (F := Ideal) (m ((c : Thread nD τ).loc main_arg1)) :=
  (W4_of_ne m ρ c main_v29 (by decide)).trans (W3_main_v29 m ρ c)
theorem W4_main_arg3 (c : Dev nD) : W4 m ρ c (Proc.devRef .tc main_arg3) = m ((c : Thread nD τ).loc main_arg3) :=
  (W4_of_ne m ρ c main_arg3 (by decide)).trans (W3_main_arg3 m ρ c)
theorem W4_main_arg4 (c : Dev nD) : W4 m ρ c (Proc.devRef .tc main_arg4) = m ((c : Thread nD τ).loc main_arg4) :=
  (W4_of_ne m ρ c main_arg4 (by decide)).trans (W3_main_arg4 m ρ c)
theorem W4_main_arg5 (c : Dev nD) : W4 m ρ c (Proc.devRef .tc main_arg5) = m ((c : Thread nD τ).loc main_arg5) :=
  (W4_of_ne m ρ c main_arg5 (by decide)).trans (W3_main_arg5 m ρ c)

include H0 in
theorem W4_main_v30 (c : Dev nD) : W4 m ρ c (Proc.devRef .tc main_v30)
    = Cert.GcnSpec.mm (m ((c : Thread nD τ).loc main_arg0)) (m ((c : Thread nD τ).loc main_arg2)) := by
  refine (W4_arr m ρ c 2).trans ((H0 (V3 m ρ) c).trans ?_)
  show Cert.GcnSpec.mm (W3 m ρ c (Proc.devRef .tc main_arg0)) (W3 m ρ c (Proc.devRef .tc main_arg2)) = _
  rw [W3_main_arg0, W3_main_arg2]

/-! ## After the first aggregation -/
theorem W5_main_v3 (c : Dev nD) : W5 m ρ c (Proc.devRef .tc main_v3) = Glue.srcIdx (F := Ideal) (m ((c : Thread nD τ).loc main_arg1)) := by
  refine Eq.trans ?_ (W4_main_v3 m ρ c)
  dsimp only [W5, hostOps1]
  after_results_simp
theorem W5_main_v6 (c : Dev nD) : W5 m ρ c (Proc.devRef .tc main_v6) = Glue.dstIdx (F := Ideal) (m ((c : Thread nD τ).loc main_arg1)) := by
  refine Eq.trans ?_ (W4_main_v6 m ρ c)
  dsimp only [W5, hostOps1]
  after_results_simp
theorem W5_main_v29 (c : Dev nD) : W5 m ρ c (Proc.devRef .tc main_v29) = Glue.norm (F := Ideal) (m ((c : Thread nD τ).loc main_arg1)) := by
  refine Eq.trans ?_ (W4_main_v29 m ρ c)
  dsimp only [W5, hostOps1]
  after_results_simp
theorem W5_main_arg4 (c : Dev nD) : W5 m ρ c (Proc.devRef .tc main_arg4) = m ((c : Thread nD τ).loc main_arg4) := by
  refine Eq.trans ?_ (W4_main_arg4 m ρ c)
  dsimp only [W5, hostOps1]
  after_results_simp
theorem W5_main_arg5 (c : Dev nD) : W5 m ρ c (Proc.devRef .tc main_arg5) = m ((c : Thread nD τ).loc main_arg5) := by
  refine Eq.trans ?_ (W4_main_arg5 m ρ c)
  dsimp only [W5, hostOps1]
  after_results_simp

include H0 in
theorem W5_main_v43 (c : Dev nD) : W5 m ρ c (Proc.devRef .tc main_v43)
    = Glue.agg16 (F := Ideal) (m ((c : Thread nD τ).loc main_arg1))
        (Cert.GcnSpec.mm (m ((c : Thread nD τ).loc main_arg0)) (m ((c : Thread nD τ).loc main_arg2))) := by
  dsimp only [W5, hostOps1]
  after_results_simp
  rw [W4_main_v30 m ρ H0 c, W4_main_v3, W4_main_v6, W4_main_v29]
  rfl

theorem W5_main_v44 (c : Dev nD) : W5 m ρ c (Proc.devRef .tc main_v44)
    = shapeCast S1x16 (m ((c : Thread nD τ).loc main_arg3)) Facts₀.shapeCasts_S16_S1x16 := by
  dsimp only [W5, hostOps1]
  after_results_simp
  rw [W4_main_arg3]
  rfl

/-! ## After bias-and-positive-part -/
theorem W6_main_v3 (c : Dev nD) : W6 m ρ c (Proc.devRef .tc main_v3) = Glue.srcIdx (F := Ideal) (m ((c : Thread nD τ).loc main_arg1)) :=
  (W6_of_ne m ρ c main_v3 (by decide)).trans (W5_main_v3 m ρ c)
theorem W6_main_v6 (c : Dev nD) : W6 m ρ c (Proc.devRef .tc main_v6) = Glue.dstIdx (F := Ideal) (m ((c : Thread nD τ).loc main_arg1)) :=
  (W6_of_ne m ρ c main_v6 (by decide)).trans (W5_main_v6 m ρ c)
theorem W6_main_v29 (c : Dev nD) : W6 m ρ c (Proc.devRef .tc main_v29) = Glue.norm (F := Ideal) (m ((c : Thread nD τ).loc main_arg1)) :=
  (W6_of_ne m ρ c main_v29 (by decide)).trans (W5_main_v29 m ρ c)
theorem W6_main_arg4 (c : Dev nD) : W6 m ρ c (Proc.devRef .tc main_arg4) = m ((c : Thread nD τ).loc main_arg4) :=
  (W6_of_ne m ρ c main_arg4 (by decide)).trans (W5_main_arg4 m ρ c)
theorem W6_main_arg5 (c : Dev nD) : W6 m ρ c (Proc.devRef .tc main_arg5) = m ((c : Thread nD τ).loc main_arg5) :=
  (W6_of_ne m ρ c main_arg5 (by decide)).trans (W5_main_arg5 m ρ c)

include H0 H1 in
theorem W6_main_v45 (c : Dev nD) : W6 m ρ c (Proc.devRef .tc main_v45)
    = Cert.GcnSpec.biasRelu (Glue.agg16 (F := Ideal) (m ((c : Thread nD τ).loc main_arg1))
        (Cert.GcnSpec.mm (m ((c : Thread nD τ).loc main_arg0)) (m ((c : Thread nD τ).loc main_arg2))))
      (shapeCast S1x16 (m ((c : Thread nD τ).loc main_arg3)) Facts₀.shapeCasts_S16_S1x16) := by
  refine (W6_arr m ρ c 2).trans ((H1 (V5 m ρ) c).trans ?_)
  show Cert.GcnSpec.biasRelu (W5 m ρ c (Proc.devRef .tc main_v43)) (W5 m ρ c (Proc.devRef .tc main_v44)) = _
  rw [W5_main_v43 m ρ H0 c, W5_main_v44]

/-! ## After the second matrix product -/
theorem W7_main_v3 (c : Dev nD) : W7 m ρ c (Proc.devRef .tc main_v3) = Glue.srcIdx (F := Ideal) (m ((c : Thread nD τ).loc main_arg1)) :=
  (W7_of_ne m ρ c main_v3 (by decide)).trans (W6_main_v3 m ρ c)
theorem W7_main_v6 (c : Dev nD) : W7 m ρ c (Proc.devRef .tc main_v6) = Glue.dstIdx (F := Ideal) (m ((c : Thread nD τ).loc main_arg1)) :=
  (W7_of_ne m ρ c main_v6 (by decide)).trans (W6_main_v6 m ρ c)
theorem W7_main_v29 (c : Dev nD) : W7 m ρ c (Proc.devRef .tc main_v29) = Glue.norm (F := Ideal) (m ((c : Thread nD τ).loc main_arg1)) :=
  (W7_of_ne m ρ c main_v29 (by decide)).trans (W6_main_v29 m ρ c)
theorem W7_main_arg5 (c : Dev nD) : W7 m ρ c (Proc.devRef .tc main_arg5) = m ((c : Thread nD τ).loc main_arg5) :=
  (W7_of_ne m ρ c main_arg5 (by decide)).trans (W6_main_arg5 m ρ c)

include H0 H1 H2 in
theorem W7_main_v46 (c : Dev nD) : W7 m ρ c (Proc.devRef .tc main_v46)
    = Cert.GcnSpec.mm (Cert.GcnSpec.biasRelu (Glue.agg16 (F := Ideal) (m ((c : Thread nD τ).loc main_arg1))
        (Cert.GcnSpec.mm (m ((c : Thread nD τ).loc main_arg0)) (m ((c : Thread nD τ).loc main_arg2))))
      (shapeCast S1x16 (m ((c : Thread nD τ).loc main_arg3)) Facts₀.shapeCasts_S16_S1x16)) (m ((c : Thread nD τ).loc main_arg4)) := by
  refine (W7_arr m ρ c 2).trans ((H2 (V6 m ρ) c).trans ?_)
  show Cert.GcnSpec.mm (W6 m ρ c (Proc.devRef .tc main_v45)) (W6 m ρ c (Proc.devRef .tc main_arg4)) = _
  rw [W6_main_v45 m ρ H0 H1 c, W6_main_arg4]

/-! ## After the second aggregation -/

include H0 H1 H2 in
theorem W8_main_v59 (c : Dev nD) : W8 m ρ c (Proc.devRef .tc main_v59)
    = Glue.agg7 (F := Ideal) (m ((c : Thread nD τ).loc main_arg1)) (Cert.GcnSpec.mm (Cert.GcnSpec.biasRelu (Glue.agg16 (F := Ideal) (m ((c : Thread nD τ).loc main_arg1))
        (Cert.GcnSpec.mm (m ((c : Thread nD τ).loc main_arg0)) (m ((c : Thread nD τ).loc main_arg2))))
      (shapeCast S1x16 (m ((c : Thread nD τ).loc main_arg3)) Facts₀.shapeCasts_S16_S1x16)) (m ((c : Thread nD τ).loc main_arg4))) := by
  dsimp only [W8, hostOps3]
  after_results_simp
  rw [W7_main_v46 m ρ H0 H1 H2 c, W7_main_v3, W7_main_v6, W7_main_v29]
  rfl

theorem W8_main_v60 (c : Dev nD) : W8 m ρ c (Proc.devRef .tc main_v60)
    = shapeCast S1x7 (m ((c : Thread nD τ).loc main_arg5)) Facts₀.shapeCasts_S7_S1x7 := by
  dsimp only [W8, hostOps3]
  after_results_simp
  rw [W7_main_arg5]
  rfl

/-! ## The result -/

include H0 H1 H2 H3 in
/-- The result buffer at the last boundary is the network of the launch contents of the arguments. -/
theorem W9_main_v61 (c : Dev nD) : W9 m ρ c (Proc.devRef .tc main_v61)
    = Glue.network (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (W9_arr m ρ c 2).trans ((H3 (V8 m ρ) c).trans ?_)
  show Cert.GcnSpec.biasLogSoftmax (W8 m ρ c (Proc.devRef .tc main_v59)) (W8 m ρ c (Proc.devRef .tc main_v60)) = _
  rw [W8_main_v59 m ρ H0 H1 H2 c, W8_main_v60]
  rfl

end

end Cert.KernelIdeal.Chain

end
-- ==== Proof.KMatmul.lean ====
/-
  The two matrix-product stages, each as one whole-array function.

  A stage's grid walks the row blocks of its left operand; at each point it multiplies one block of rows by the
  whole right operand into a zero accumulator and writes the product back to the same rows of the result. Entry
  (r, c) of a block's product is the sum over l of x(r, l) · w(l, c), where r is the row inside the block; the
  block's rows are rows 5000·t … 5000·t + 4999 of the array, and the blocks together cover every row. So the
  result array is the matrix product of the two whole operands, index by index.
-/
import proofs.«162333_j76862734730017_1_alg».proof.Proof.Gen.KernelIdeal.Frame
import proofs.«162333_j76862734730017_1_alg».proof.Proof.GcnSpec
import Idealize.ShloMosaic.PureOps.Ideal.Laws
import Idealize.ShloMosaic.Lib.ValueIdx
import Idealize.ShloMosaic.Lib.Pipeline.Value

set_option maxRecDepth 16384

noncomputable section

namespace Cert.KernelIdeal.RegionValue

open Cert.KernelIdeal Cert.KernelIdeal.Gen Idealize.ShloMosaic Idealize.ShloMosaic.ValueIdx Idealize.ShloMosaic.TcCoe Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-! ## The first product: [100000, 512] by [512, 16], in 20 blocks of 5000 rows -/

/-- Entry (p, q) of a block's product: the sum over l of x(p, l) · w(l, q). -/
theorem pay0_apply (x0 : Vec Ideal S5000x512 .f32) (x1 : Vec Ideal S512x16 .f32) (p : Fin 5000) (q : Fin 16) :
    k0_pay1 x0 x1 (ix2 p q) = ∑ l : Fin 512, x0 (ix2 p l) * x1 (ix2 l q) := by
  unfold k0_pay1
  refine (Ideal.matmul_constant_zero_apply dot_S5000x512_S512x16_S5000x16_1_0_0_1_n_n none _ _ (ix2 p q)).trans ?_
  rw [← Equiv.sum_comp (contrEquiv1 dot_S5000x512_S512x16_S5000x16_1_0_0_1_n_n 512 rfl rfl).symm]
  refine Finset.sum_congr rfl fun l _ => ?_
  rw [truncf_apply, truncf_apply]
  congr 2
  · funext a; apply Fin.ext
    match a with
    | ⟨0, _⟩ => rfl
    | ⟨1, _⟩ => exact (DotDims.lhsIdx_val_of_single _ rfl _ _).trans (contrEquiv1_symm_val _ 512 rfl rfl l)
  · funext a; apply Fin.ext
    match a with
    | ⟨0, _⟩ => exact (DotDims.rhsIdx_val_of_single _ rfl _ _).trans (contrEquiv1_symm_val _ 512 rfl rfl l)
    | ⟨1, _⟩ => rfl

/-- One entry of a block's product is an entry of the whole product, once the block's row p is row r of the left
    operand and the right operand's block is the whole of it. -/
theorem point0 (X : Cert.GcnSpec.Mat 100000 512) (W : Cert.GcnSpec.Mat 512 16)
    (x0 : Vec Ideal S5000x512 .f32) (x1 : Vec Ideal S512x16 .f32) (p : Fin 5000) (q : Fin 16) (r : Fin 100000) (s : Fin 16)
    (h0 : ∀ l : Fin 512, x0 (ix2 p l) = X (ix2 r l)) (h1 : ∀ l : Fin 512, x1 (ix2 l q) = W (ix2 l s)) :
    k0_pay1 x0 x1 (ix2 p q) = Cert.GcnSpec.mm X W (ix2 r s) := by
  rw [pay0_apply]
  show _ = ∑ l : Fin 512, X (ix2 r l) * W (ix2 l s)
  exact Finset.sum_congr rfl fun l _ => by rw [h0, h1]

/-- The block index of each window at each grid point: the left operand's and the result's row block is the point's
    number, every column block is 0, and the right operand is one block. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the whole product. -/
theorem flushed0_eq (c : Dev nD) (t : Fin cfg0.N) :
    (dat0 (F := Ideal) V c).flushed 2 t
      = ((cfg0.win 2).blk t).view.read (Elt Ideal) (Cert.GcnSpec.mm (V c main_arg0) (V c main_arg2)) := by
  show (cfg0.win 2).cut (grid0.coords t) ((dat0 V c).after 2 t) = _
  rw [after0_2]
  unfold out0_2
  rw [View.canon_unit_zero hz]
  simp only [View.ld_unit_zero (S := S5000x512) hz, View.ld_unit_zero (S := S512x16) hz]
  obtain ⟨e0, e1, e2, e3, e4, e5⟩ := idx_facts0 t
  funext j
  show k0_pay1 (iblk0 V c 0 t) (iblk0 V c 1 t) j
    = Cert.GcnSpec.mm (V c main_arg0) (V c main_arg2) (((cfg0.win 2).blk t).view.emb j)
  refine (congrArg _ (eq_ix2 j)).trans ((point0 (V c main_arg0) (V c main_arg2) (iblk0 V c 0 t) (iblk0 V c 1 t)
    (j 0) (j 1) _ _ (fun l => ?_) (fun l => ?_)).trans (congrArg _ (eq_ix2 (((cfg0.win 2).blk t).view.emb j)).symm))
  · show V c main_arg0 (((cfg0.win 0).blk t).view.emb (ix2 (j 0) l))
      = V c main_arg0 (ix2 (((cfg0.win 2).blk t).view.emb j 0) l)
    congr 1
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 512 + 1 * l.val = l.val; omega
  · show V c main_arg2 (((cfg0.win 1).blk t).view.emb (ix2 l (j 1)))
      = V c main_arg2 (ix2 l (((cfg0.win 2).blk t).view.emb j 1))
    congr 1
    funext a; apply Fin.ext
    match a with
    | ⟨0, _⟩ => show win0_1.index t (0 : Fin 2) * 512 + 1 * l.val = l.val; omega
    | ⟨1, _⟩ => show win0_1.index t (1 : Fin 2) * 16 + 1 * (j 1).val = win0_2.index t (1 : Fin 2) * 16 + 1 * (j 1).val; omega

/-- An index of the result is in point t's block iff each coordinate is in the block's range on its axis. -/
theorem mem_blk0 (t : Fin cfg0.N) (i : S100000x16.Idx) :
    i ∈ ((cfg0.win 2).blk t).view.set ↔ ∀ a : Fin 2, win0_2.index t a * S5000x16.size a ≤ (i a).val
      ∧ (i a).val < win0_2.index t a * S5000x16.size a + S5000x16.size a := by
  show i ∈ ((View.whole main_v30).slice (win0_2.rect t)).set ↔ _
  rw [View.set_slice_whole, Rect.mem_set_unit]
  exact Iff.rfl

/-- Row r of the result is in the block of point r / 5000: the blocks cover the array. -/
theorem cover0 (i : S100000x16.Idx) :
    ∃ t : Fin cfg0.N, (cfg0.win 2).flush t = true ∧ i ∈ ((cfg0.win 2).blk t).view.set := by
  have hi0 : (i 0).val < 100000 := (i 0).isLt
  have hi1 : (i 1).val < 16 := (i 1).isLt
  have hN : cfg0.N = 20 := N_0
  have ht : (i 0).val / 5000 < cfg0.N := by rw [hN]; omega
  obtain ⟨e0, e1, e2, e3, e4, e5⟩ := idx_facts0 ⟨(i 0).val / 5000, ht⟩
  refine ⟨⟨(i 0).val / 5000, ht⟩, flush0_2 _, ?_⟩
  rw [mem_blk0]
  intro a
  match a with
  | ⟨0, _⟩ =>
    show win0_2.index ⟨(i 0).val / 5000, ht⟩ (0 : Fin 2) * 5000 ≤ (i 0).val
      ∧ (i 0).val < win0_2.index ⟨(i 0).val / 5000, ht⟩ (0 : Fin 2) * 5000 + 5000
    rw [e4]
    show (i 0).val / 5000 * 5000 ≤ (i 0).val ∧ (i 0).val < (i 0).val / 5000 * 5000 + 5000
    omega
  | ⟨1, _⟩ =>
    show win0_2.index ⟨(i 0).val / 5000, ht⟩ (1 : Fin 2) * 16 ≤ (i 1).val
      ∧ (i 1).val < win0_2.index ⟨(i 0).val / 5000, ht⟩ (1 : Fin 2) * 16 + 16
    rw [e5]
    omega

/-- The result array after the stage is the product of the two whole operands. -/
theorem final0 (c : Dev nD) :
    (dat0 (F := Ideal) V c).arrAt 2 cfg0.N = Cert.GcnSpec.mm (V c main_arg0) (V c main_arg2) :=
  (dat0 V c).arrAt_eq_of_cover 2 (Cert.GcnSpec.mm (V c main_arg0) (V c main_arg2))
    (fun t _ => flushed0_eq V c t) cover0

/-! ## The second product: [100000, 16] by [16, 7], in 20 blocks of 5000 rows -/

/-- Entry (p, q) of a block's product: the sum over l of x(p, l) · w(l, q). -/
theorem pay2_apply (x0 : Vec Ideal S5000x16 .f32) (x1 : Vec Ideal S16x7 .f32) (p : Fin 5000) (q : Fin 7) :
    k2_pay1 x0 x1 (ix2 p q) = ∑ l : Fin 16, x0 (ix2 p l) * x1 (ix2 l q) := by
  unfold k2_pay1
  refine (Ideal.matmul_constant_zero_apply dot_S5000x16_S16x7_S5000x7_1_0_0_1_n_n none _ _ (ix2 p q)).trans ?_
  rw [← Equiv.sum_comp (contrEquiv1 dot_S5000x16_S16x7_S5000x7_1_0_0_1_n_n 16 rfl rfl).symm]
  refine Finset.sum_congr rfl fun l _ => ?_
  rw [truncf_apply, truncf_apply, shapeCast_self]
  congr 2
  · funext a; apply Fin.ext
    match a with
    | ⟨0, _⟩ => rfl
    | ⟨1, _⟩ => exact (DotDims.lhsIdx_val_of_single _ rfl _ _).trans (contrEquiv1_symm_val _ 16 rfl rfl l)
  · funext a; apply Fin.ext
    match a with
    | ⟨0, _⟩ => exact (DotDims.rhsIdx_val_of_single _ rfl _ _).trans (contrEquiv1_symm_val _ 16 rfl rfl l)
    | ⟨1, _⟩ => rfl

/-- One entry of a block's product is an entry of the whole product, once the block's row p is row r of the left
    operand and the right operand's block is the whole of it. -/
theorem point2 (X : Cert.GcnSpec.Mat 100000 16) (W : Cert.GcnSpec.Mat 16 7)
    (x0 : Vec Ideal S5000x16 .f32) (x1 : Vec Ideal S16x7 .f32) (p : Fin 5000) (q : Fin 7) (r : Fin 100000) (s : Fin 7)
    (h0 : ∀ l : Fin 16, x0 (ix2 p l) = X (ix2 r l)) (h1 : ∀ l : Fin 16, x1 (ix2 l q) = W (ix2 l s)) :
    k2_pay1 x0 x1 (ix2 p q) = Cert.GcnSpec.mm X W (ix2 r s) := by
  rw [pay2_apply]
  show _ = ∑ l : Fin 16, X (ix2 r l) * W (ix2 l s)
  exact Finset.sum_congr rfl fun l _ => by rw [h0, h1]

/-- The block index of each window at each grid point: the left operand's and the result's row block is the point's
    number, every column block is 0, and the right operand is one block. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point t writes back is block t of the whole product. -/
theorem flushed2_eq (c : Dev nD) (t : Fin cfg2.N) :
    (dat2 (F := Ideal) V c).flushed 2 t
      = ((cfg2.win 2).blk t).view.read (Elt Ideal) (Cert.GcnSpec.mm (V c main_v45) (V c main_arg4)) := by
  show (cfg2.win 2).cut (grid2.coords t) ((dat2 V c).after 2 t) = _
  rw [after2_2]
  unfold out2_2
  rw [View.canon_unit_zero hz]
  simp only [View.ld_unit_zero (S := S5000x16) hz, View.ld_unit_zero (S := S16x7) hz]
  obtain ⟨e0, e1, e2, e3, e4, e5⟩ := idx_facts2 t
  funext j
  show k2_pay1 (iblk2 V c 0 t) (iblk2 V c 1 t) j
    = Cert.GcnSpec.mm (V c main_v45) (V c main_arg4) (((cfg2.win 2).blk t).view.emb j)
  refine (congrArg _ (eq_ix2 j)).trans ((point2 (V c main_v45) (V c main_arg4) (iblk2 V c 0 t) (iblk2 V c 1 t)
    (j 0) (j 1) _ _ (fun l => ?_) (fun l => ?_)).trans (congrArg _ (eq_ix2 (((cfg2.win 2).blk t).view.emb j)).symm))
  · show V c main_v45 (((cfg2.win 0).blk t).view.emb (ix2 (j 0) l))
      = V c main_v45 (ix2 (((cfg2.win 2).blk t).view.emb j 0) l)
    congr 1
    funext a; apply Fin.ext
    match a with
    | ⟨0, _⟩ => show win2_0.index t (0 : Fin 2) * 5000 + 1 * (j 0).val = win2_2.index t (0 : Fin 2) * 5000 + 1 * (j 0).val; omega
    | ⟨1, _⟩ => show win2_0.index t (1 : Fin 2) * 16 + 1 * l.val = l.val; omega
  · show V c main_arg4 (((cfg2.win 1).blk t).view.emb (ix2 l (j 1)))
      = V c main_arg4 (ix2 l (((cfg2.win 2).blk t).view.emb j 1))
    congr 1
    funext a; apply Fin.ext
    match a with
    | ⟨0, _⟩ => show win2_1.index t (0 : Fin 2) * 16 + 1 * l.val = l.val; omega
    | ⟨1, _⟩ => show win2_1.index t (1 : Fin 2) * 7 + 1 * (j 1).val = win2_2.index t (1 : Fin 2) * 7 + 1 * (j 1).val; omega

/-- An index of the result is in point t's block iff each coordinate is in the block's range on its axis. -/
theorem mem_blk2 (t : Fin cfg2.N) (i : S100000x7.Idx) :
    i ∈ ((cfg2.win 2).blk t).view.set ↔ ∀ a : Fin 2, win2_2.index t a * S5000x7.size a ≤ (i a).val
      ∧ (i a).val < win2_2.index t a * S5000x7.size a + S5000x7.size a := by
  show i ∈ ((View.whole main_v46).slice (win2_2.rect t)).set ↔ _
  rw [View.set_slice_whole, Rect.mem_set_unit]
  exact Iff.rfl

/-- Row r of the result is in the block of point r / 5000: the blocks cover the array. -/
theorem cover2 (i : S100000x7.Idx) :
    ∃ t : Fin cfg2.N, (cfg2.win 2).flush t = true ∧ i ∈ ((cfg2.win 2).blk t).view.set := by
  have hi0 : (i 0).val < 100000 := (i 0).isLt
  have hi1 : (i 1).val < 7 := (i 1).isLt
  have hN : cfg2.N = 20 := N_2
  have ht : (i 0).val / 5000 < cfg2.N := by rw [hN]; omega
  obtain ⟨e0, e1, e2, e3, e4, e5⟩ := idx_facts2 ⟨(i 0).val / 5000, ht⟩
  refine ⟨⟨(i 0).val / 5000, ht⟩, flush2_2 _, ?_⟩
  rw [mem_blk2]
  intro a
  match a with
  | ⟨0, _⟩ =>
    show win2_2.index ⟨(i 0).val / 5000, ht⟩ (0 : Fin 2) * 5000 ≤ (i 0).val
      ∧ (i 0).val < win2_2.index ⟨(i 0).val / 5000, ht⟩ (0 : Fin 2) * 5000 + 5000
    rw [e4]
    show (i 0).val / 5000 * 5000 ≤ (i 0).val ∧ (i 0).val < (i 0).val / 5000 * 5000 + 5000
    omega
  | ⟨1, _⟩ =>
    show win2_2.index ⟨(i 0).val / 5000, ht⟩ (1 : Fin 2) * 7 ≤ (i 1).val
      ∧ (i 1).val < win2_2.index ⟨(i 0).val / 5000, ht⟩ (1 : Fin 2) * 7 + 7
    rw [e5]
    omega

/-- The result array after the stage is the product of the two whole operands. -/
theorem final2 (c : Dev nD) :
    (dat2 (F := Ideal) V c).arrAt 2 cfg2.N = Cert.GcnSpec.mm (V c main_v45) (V c main_arg4) :=
  (dat2 V c).arrAt_eq_of_cover 2 (Cert.GcnSpec.mm (V c main_v45) (V c main_arg4))
    (fun t _ => flushed2_eq V c t) cover2

end Cert.KernelIdeal.RegionValue

end
-- ==== Proof.KPointwise.lean ====
/-
  The two row-wise stages of the graph convolution, each as one whole-array function.

  * Stage 1 (bias, then positive part): the output array ends holding, at (r, c), max (a(r, c) + b(0, c)) 0.
  * Stage 3 (bias, then row-wise log-softmax): with z(r, ·) = a(r, ·) + b(0, ·) and M(r) the maximum of row r of z,
    the output array ends holding, at (r, c), (z(r, c) - M(r)) - log (Σ_j exp (z(r, j) - M(r))).

  Each stage runs over ten blocks of 10000 rows. A block's result at row p of the block depends only on row p of the
  input block and on the row vector b, so block t of the output is block t of the whole-array function, and the ten
  blocks cover the array.
-/
import proofs.«162333_j76862734730017_1_alg».proof.Proof.Gen.KernelIdeal.Frame
import proofs.«162333_j76862734730017_1_alg».proof.Proof.GcnSpec
import Idealize.ShloMosaic.Lib.Pipeline.Value
import Idealize.ShloMosaic.Lib.ValueLayout
import Idealize.ShloMosaic.PureOps.Ideal.Laws

set_option maxRecDepth 16384

noncomputable section

open Cert.KernelIdeal Cert.KernelIdeal.Gen Idealize.ShloMosaic Idealize.ShloMosaic.ValueIdx Idealize.ShloMosaic.TcCoe Idealize.SL.Sem

namespace Cert.KernelIdeal.RegionValue

variable (V : (c : Dev nD) → (b : Ref sig .tc) → Buf (Elt Ideal) ((c : Thread nD τ).loc b))

/-- The zero offsets of a whole-block access, however spelt. -/
theorem hz2 : (![0, 0] : Fin 2 → Nat) = fun _ => 0 := funext fun a => by fin_cases a <;> rfl

/-! ## Stage 1: bias and positive part -/

/-- The block's arithmetic at row p, column q: the input block there plus the row vector at q, then the positive part. -/
theorem pay1_apply (x0 : Vec Ideal S10000x16 .f32) (x1 : Vec Ideal S1x16 .f32) (p : Fin 10000) (q : Fin 16) :
    k1_pay1 x0 x1 (ix2 p q) = max (x0 (ix2 p q) + x1 (ix2 (0 : Fin 1) q)) (Ideal.ofBits .f32 0x00000000#32) := by
  unfold k1_pay1
  simp only [shapeCast_self]
  rw [maximumf_apply, addf_apply, broadcastTo_1b_ab_apply, broadcast_apply]
  rfl

/-- The same at any index of the block. -/
theorem pay1_at (x0 : Vec Ideal S10000x16 .f32) (x1 : Vec Ideal S1x16 .f32) (j : S10000x16.Idx) :
    k1_pay1 x0 x1 j = max (x0 j + x1 (ix2 (0 : Fin 1) (j 1))) (Ideal.ofBits .f32 0x00000000#32) :=
  (congrArg (k1_pay1 x0 x1) (eq_ix2 j)).trans ((pay1_apply x0 x1 (j 0) (j 1)).trans
    (congrArg (fun i => max (x0 i + x1 (ix2 (0 : Fin 1) (j 1))) (Ideal.ofBits .f32 0x00000000#32)) (eq_ix2 j).symm))

/-- The index maps over the ten points: the input block and the output block are the same block of rows, block t at
    point t, all sixteen columns; the row vector's window is the whole vector at every point. -/
theorem idx_facts1 : ∀ t : Fin cfg1.N, win1_0.index t (0 : Fin 2) = t.val
    ∧ win1_0.index t (1 : Fin 2) = 0
    ∧ win1_1.index t (0 : Fin 2) = 0
    ∧ win1_1.index t (1 : Fin 2) = 0
    ∧ win1_2.index t (0 : Fin 2) = t.val
    ∧ win1_2.index t (1 : Fin 2) = 0 :=
  (by decide +kernel : ∀ t : Fin grid1.N, _)

/-- The whole-array function at an index, from its two reads. -/
theorem biasRelu_of_reads {n p : Nat} (A : Cert.GcnSpec.Mat n p) (B : Cert.GcnSpec.Mat 1 p) (a b : EReal)
    (i : (⟨2, ![n, p]⟩ : Shape).Idx) (ha : a = A i) (hb : b = B (ix2 (0 : Fin 1) (i 1))) :
    max (a + b) (Ideal.ofBits .f32 0x00000000#32) = Cert.GcnSpec.biasRelu A B i := by
  subst ha hb; rfl

/-- What point t writes back is block t of the whole-array function: row p of the block is row 10000 t + p of the
    array, in the input block and the output block alike, and the row vector is read whole. -/
theorem flushed1_eq (c : Dev nD) (t : Fin cfg1.N) :
    (dat1 (F := Ideal) V c).flushed 2 t
      = ((cfg1.win 2).blk t).view.read (Elt Ideal) (Cert.GcnSpec.biasRelu (V c main_v43) (V c main_v44)) := by
  show (cfg1.win 2).cut (grid1.coords t) ((dat1 V c).after 2 t) = _
  rw [after1_2]
  unfold out1_2
  rw [View.canon_unit_zero hz2]
  simp only [View.ld_unit_zero (S := S10000x16) hz2, View.ld_unit_zero (S := S1x16) hz2]
  obtain ⟨e0, e1, e2, e3, e4, e5⟩ := idx_facts1 t
  funext j
  refine (pay1_at _ _ j).trans ?_
  refine biasRelu_of_reads (V c main_v43) (V c main_v44) _ _ (((cfg1.win 2).blk t).view.emb j) ?_ ?_
  · show V c main_v43 (((cfg1.win 0).blk t).view.emb j) = V c main_v43 (((cfg1.win 2).blk t).view.emb j)
    rfl
  · show V c main_v44 (((cfg1.win 1).blk t).view.emb (ix2 (0 : Fin 1) (j 1))) = V c main_v44 (ix2 (0 : Fin 1) ((((cfg1.win 2).blk t).view.emb j) 1))
    congr 1
    funext a; apply Fin.ext
    match a with
    | ⟨0, _⟩ => show win1_1.index t (0 : Fin 2) * 1 + 1 * 0 = 0; omega
    | ⟨1, _⟩ => show win1_1.index t (1 : Fin 2) * 16 + 1 * (j 1).val = win1_2.index t (1 : Fin 2) * 16 + 1 * (j 1).val; omega

/-- An index of the array is in point t's block iff each coordinate is in the block's range on its axis. -/
theorem mem_blk1 (t : Fin cfg1.N) (i : S100000x16.Idx) :
    i ∈ ((cfg1.win 2).blk t).view.set ↔ ∀ a : Fin 2, win1_2.index t a * S10000x16.size a ≤ (i a).val ∧ (i a).val < win1_2.index t a * S10000x16.size a + S10000x16.size a := by
  show i ∈ ((View.whole main_v45).slice (win1_2.rect t)).set ↔ _
  rw [View.set_slice_whole, Rect.mem_set_unit]
  exact Iff.rfl

/-- Every row of the array is in some point's block: row r is in block r / 10000. -/
theorem cover1 (i : S100000x16.Idx) :
    ∃ t : Fin cfg1.N, (cfg1.win 2).flush t = true ∧ i ∈ ((cfg1.win 2).blk t).view.set := by
  have hi0 : (i 0).val < 100000 := (i 0).isLt
  have hi1 : (i 1).val < 16 := (i 1).isLt
  have hN : cfg1.N = 10 := N_1
  let t : Fin cfg1.N := ⟨(i 0).val / 10000, by rw [hN]; omega⟩
  obtain ⟨e0, e1, e2, e3, e4, e5⟩ := idx_facts1 t
  have ht : t.val = (i 0).val / 10000 := rfl
  refine ⟨t, flush1_2 t, ?_⟩
  rw [mem_blk1]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 16 ≤ (i 1).val ∧ (i 1).val < win1_2.index t (1 : Fin 2) * 16 + 16; omega

/-- STAGE 1: the output array ends holding the bias-and-positive-part of the two arrays the stage reads. -/
theorem final1 (c : Dev nD) :
    (dat1 (F := Ideal) V c).arrAt 2 cfg1.N = Cert.GcnSpec.biasRelu (V c main_v43) (V c main_v44) :=
  (dat1 (F := Ideal) V c).arrAt_eq_of_cover 2 (Cert.GcnSpec.biasRelu (V c main_v43) (V c main_v44))
    (fun t _ => flushed1_eq V c t) cover1

/-! ## Stage 3: bias and row-wise log-softmax -/

/-- A vector of length a cast to a column [a, 1] reads, at (i, 0), the vector at i. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- A column [a, 1] broadcast over b columns reads, at (p, c), the column at (p, 0). -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index a reduction over the columns inserts column k at, from row p, is (p, k). -/
theorem lift_row (h : S10000x7.Reduces [1] S10000) (p : Fin 10000) (k : Fin 7) :
    h.lift (ix1 p) k = ix2 p k :=
  funext fun ax => by
    match ax with
    | ⟨0, _⟩ => exact Fin.ext rfl
    | ⟨1, _⟩ => exact Fin.ext rfl

/-- The maximum over the columns, at row r, is the row's maximum. -/
theorem rowMax_apply (z : FVec Ideal S10000x7 .f32) (r : Fin 10000) :
    multiReduction .maximumf [1] S10000 z 0xFF800000#32 reduces_S10000x7_S10000 (.inl rfl) rfl (ix1 r)
      = Cert.GcnSpec.rowMax (fun k : Fin 7 => z (ix2 r k)) := by
  refine (Ideal.multiReduction_maximumf_single z _ reduces_S10000x7_S10000 (.inl rfl) rfl (ix1 r)).trans ?_
  show (Finset.univ : Finset (Fin 7)).fold max (Ideal.ofBits .f32 0xFF800000#32) (z ∘ reduces_S10000x7_S10000.lift (ix1 r)) = _
  unfold Cert.GcnSpec.rowMax
  congr 1
  funext k
  exact congrArg z (lift_row _ r k)

/-- The sum over the columns, at row r, is the row's sum. -/
theorem rowSum_apply (e : FVec Ideal S10000x7 .f32) (r : Fin 10000) :
    multiReduction .add [1] S10000 e 0x00000000#32 reduces_S10000x7_S10000 (.inl rfl) rfl (ix1 r)
      = ∑ k : Fin 7, e (ix2 r k) := by
  refine (Ideal.multiReduction_add_single e _ reduces_S10000x7_S10000 (.inl rfl) rfl (ix1 r)).trans ?_
  show ∑ k : Fin 7, e (reduces_S10000x7_S10000.lift (ix1 r) k) = _
  refine Finset.sum_congr rfl fun k _ => ?_
  rw [lift_row]

/-- A per-row value kept as a column and spread back over the row's columns reads, at (p, q), the value of row p. -/
theorem keepdims_apply (v : FVec Ideal S10000 .f32) (p : Fin 10000) (q : Fin 7) :
    broadcastTo S10000x7 (shapeCast S10000x1 v shapeCasts_S10000_S10000x1) broadcasts_S10000x1_S10000x7 (ix2 p q)
      = v (ix1 p) := by
  rw [broadcastTo_a1_ab_apply, shapeCast_a_a1_apply]

/-- The same with the logarithm taken on the column. -/
theorem keepdims_log_apply (v : FVec Ideal S10000 .f32) (p : Fin 10000) (q : Fin 7) :
    broadcastTo S10000x7 (log (shapeCast S10000x1 v shapeCasts_S10000_S10000x1)) broadcasts_S10000x1_S10000x7 (ix2 p q)
      = Ideal.log (v (ix1 p)) := by
  rw [broadcastTo_a1_ab_apply]
  show Ideal.log (shapeCast S10000x1 v shapeCasts_S10000_S10000x1 (ix2 p (0 : Fin 1))) = _
  rw [shapeCast_a_a1_apply]

/-- The biased row: the input block's row plus the row vector. -/
theorem biased_apply (x0 : FVec Ideal S10000x7 .f32) (x1 : FVec Ideal S1x7 .f32) (r : Fin 10000) (k : Fin 7) :
    addf (shapeCast S10000x7 x0 shapeCasts_S10000x7_S10000x7)
      (broadcastTo S10000x7 (shapeCast S1x7 x1 shapeCasts_S1x7_S1x7) broadcasts_S1x7_S10000x7) (ix2 r k)
      = x0 (ix2 r k) + x1 (ix2 (0 : Fin 1) k) := by
  rw [addf_apply, broadcastTo_1b_ab_apply, shapeCast_self, shapeCast_self]

/-- The exponential of a row's entry less the row's maximum, through the kept column. -/
theorem exp_sub_max_apply (z : FVec Ideal S10000x7 .f32) (r : Fin 10000) (k : Fin 7) :
    exp (subf z (broadcastTo S10000x7 (shapeCast S10000x1
        (multiReduction .maximumf [1] S10000 z 0xFF800000#32 reduces_S10000x7_S10000 (.inl rfl) rfl)
        shapeCasts_S10000_S10000x1) broadcasts_S10000x1_S10000x7)) (ix2 r k)
      = Ideal.exp (z (ix2 r k) - Cert.GcnSpec.rowMax (fun k : Fin 7 => z (ix2 r k))) := by
  show Ideal.exp (subf z _ (ix2 r k)) = _
  rw [subf_apply, keepdims_apply, rowMax_apply]

/-- Row-wise log-softmax of one row f at column q, the maximum subtracted first. -/
def lsm {p : Nat} (f : Fin p → EReal) (q : Fin p) : EReal :=
  (f q - Cert.GcnSpec.rowMax f) - Ideal.log (∑ j : Fin p, Ideal.exp (f j - Cert.GcnSpec.rowMax f))

/-- The block's arithmetic at row p, column q: the log-softmax, at q, of the input block's row p plus the row vector. -/
theorem pay3_apply (x0 : Vec Ideal S10000x7 .f32) (x1 : Vec Ideal S1x7 .f32) (p : Fin 10000) (q : Fin 7) :
    k3_pay1 x0 x1 (ix2 p q) = lsm (fun k : Fin 7 => x0 (ix2 p k) + x1 (ix2 (0 : Fin 1) k)) q := by
  unfold k3_pay1
  dsimp only
  rw [subf_apply, keepdims_log_apply, rowSum_apply, subf_apply, keepdims_apply, rowMax_apply]
  unfold lsm
  simp only [biased_apply]
  refine congrArg (fun S => _ - Ideal.log S) (Finset.sum_congr rfl fun k _ => ?_)
  rw [exp_sub_max_apply]
  simp only [biased_apply]

/-- The same at any index of the block. -/
theorem pay3_at (x0 : Vec Ideal S10000x7 .f32) (x1 : Vec Ideal S1x7 .f32) (j : S10000x7.Idx) :
    k3_pay1 x0 x1 j = lsm (fun k : Fin 7 => x0 (ix2 (j 0) k) + x1 (ix2 (0 : Fin 1) k)) (j 1) :=
  (congrArg (k3_pay1 x0 x1) (eq_ix2 j)).trans (pay3_apply x0 x1 (j 0) (j 1))

/-- The whole-array function at an index i, from the reads of a block's row: the row of the block is row (i 0) of
    the array, the row vector is the array's, and the column is i's. -/
theorem biasLogSoftmax_of_reads {n m p : Nat} (A : Cert.GcnSpec.Mat n p) (B : Cert.GcnSpec.Mat 1 p)
    (x0 : FVec Ideal (⟨2, ![m, p]⟩ : Shape) .f32) (x1 : FVec Ideal (⟨2, ![1, p]⟩ : Shape) .f32)
    (r : Fin m) (q : Fin p) (i : (⟨2, ![n, p]⟩ : Shape).Idx)
    (h0 : ∀ k : Fin p, x0 (ix2 r k) = A (ix2 (i 0) k)) (h1 : ∀ k : Fin p, x1 (ix2 (0 : Fin 1) k) = B (ix2 (0 : Fin 1) k))
    (hq : q.val = (i 1).val) :
    lsm (fun k : Fin p => x0 (ix2 r k) + x1 (ix2 (0 : Fin 1) k)) q = Cert.GcnSpec.biasLogSoftmax A B i := by
  have hf : (fun k : Fin p => x0 (ix2 r k) + x1 (ix2 (0 : Fin 1) k)) = Cert.GcnSpec.biasRow A B (i 0) :=
    funext fun k => by rw [h0, h1]; rfl
  have hq' : q = i 1 := Fin.ext hq
  rw [hf, hq']
  rfl

/-- The index maps over the ten points: the input block and the output block are the same block of rows, block t at
    point t, all seven columns; the row vector's window is the whole vector at every point. -/
theorem idx_facts3 : ∀ t : Fin cfg3.N, win3_0.index t (0 : Fin 2) = t.val
    ∧ win3_0.index t (1 : Fin 2) = 0
    ∧ win3_1.index t (0 : Fin 2) = 0
    ∧ win3_1.index t (1 : Fin 2) = 0
    ∧ win3_2.index t (0 : Fin 2) = t.val
    ∧ win3_2.index t (1 : Fin 2) = 0 :=
  (by decide +kernel : ∀ t : Fin grid3.N, _)

/-- What point t writes back is block t of the whole-array function: row p of the block is row 10000 t + p of the
    array, in the input block and the output block alike, the whole row is in the block, and the row vector is read
    whole. -/
theorem flushed3_eq (c : Dev nD) (t : Fin cfg3.N) :
    (dat3 (F := Ideal) V c).flushed 2 t
      = ((cfg3.win 2).blk t).view.read (Elt Ideal) (Cert.GcnSpec.biasLogSoftmax (V c main_v59) (V c main_v60)) := by
  show (cfg3.win 2).cut (grid3.coords t) ((dat3 V c).after 2 t) = _
  rw [after3_2]
  unfold out3_2
  rw [View.canon_unit_zero hz2]
  simp only [View.ld_unit_zero (S := S10000x7) hz2, View.ld_unit_zero (S := S1x7) hz2]
  obtain ⟨e0, e1, e2, e3, e4, e5⟩ := idx_facts3 t
  funext j
  refine (pay3_at _ _ j).trans ?_
  refine biasLogSoftmax_of_reads (n := 100000) (m := 10000) (p := 7) (V c main_v59) (V c main_v60)
    (iblk3 V c 0 t) (iblk3 V c 1 t) (j 0) (j 1) (((cfg3.win 2).blk t).view.emb j) (fun k => ?_) (fun k => ?_) ?_
  · show V c main_v59 (((cfg3.win 0).blk t).view.emb (ix2 (j 0) k)) = V c main_v59 (ix2 ((((cfg3.win 2).blk t).view.emb j) 0) k)
    congr 1
    funext a; apply Fin.ext
    match a with
    | ⟨0, _⟩ => show win3_0.index t (0 : Fin 2) * 10000 + 1 * (j 0).val = win3_2.index t (0 : Fin 2) * 10000 + 1 * (j 0).val; omega
    | ⟨1, _⟩ => show win3_0.index t (1 : Fin 2) * 7 + 1 * k.val = k.val; omega
  · show V c main_v60 (((cfg3.win 1).blk t).view.emb (ix2 (0 : Fin 1) k)) = V c main_v60 (ix2 (0 : Fin 1) k)
    congr 1
    funext a; apply Fin.ext
    match a with
    | ⟨0, _⟩ => show win3_1.index t (0 : Fin 2) * 1 + 1 * 0 = 0; omega
    | ⟨1, _⟩ => show win3_1.index t (1 : Fin 2) * 7 + 1 * k.val = k.val; omega
  · show (j 1).val = win3_2.index t (1 : Fin 2) * 7 + 1 * (j 1).val
    omega

/-- An index of the array is in point t's block iff each coordinate is in the block's range on its axis. -/
theorem mem_blk3 (t : Fin cfg3.N) (i : S100000x7.Idx) :
    i ∈ ((cfg3.win 2).blk t).view.set ↔ ∀ a : Fin 2, win3_2.index t a * S10000x7.size a ≤ (i a).val ∧ (i a).val < win3_2.index t a * S10000x7.size a + S10000x7.size a := by
  show i ∈ ((View.whole main_v61).slice (win3_2.rect t)).set ↔ _
  rw [View.set_slice_whole, Rect.mem_set_unit]
  exact Iff.rfl

/-- Every row of the array is in some point's block: row r is in block r / 10000. -/
theorem cover3 (i : S100000x7.Idx) :
    ∃ t : Fin cfg3.N, (cfg3.win 2).flush t = true ∧ i ∈ ((cfg3.win 2).blk t).view.set := by
  have hi0 : (i 0).val < 100000 := (i 0).isLt
  have hi1 : (i 1).val < 7 := (i 1).isLt
  have hN : cfg3.N = 10 := N_3
  let t : Fin cfg3.N := ⟨(i 0).val / 10000, by rw [hN]; omega⟩
  obtain ⟨e0, e1, e2, e3, e4, e5⟩ := idx_facts3 t
  have ht : t.val = (i 0).val / 10000 := rfl
  refine ⟨t, flush3_2 t, ?_⟩
  rw [mem_blk3]
  intro a
  match a with
  | ⟨0, _⟩ => show win3_2.index t (0 : Fin 2) * 10000 ≤ (i 0).val ∧ (i 0).val < win3_2.index t (0 : Fin 2) * 10000 + 10000; omega
  | ⟨1, _⟩ => show win3_2.index t (1 : Fin 2) * 7 ≤ (i 1).val ∧ (i 1).val < win3_2.index t (1 : Fin 2) * 7 + 7; omega

/-- STAGE 3: the output array ends holding the bias-and-log-softmax of the two arrays the stage reads. -/
theorem final3 (c : Dev nD) :
    (dat3 (F := Ideal) V c).arrAt 2 cfg3.N = Cert.GcnSpec.biasLogSoftmax (V c main_v59) (V c main_v60) :=
  (dat3 (F := Ideal) V c).arrAt_eq_of_cover 2 (Cert.GcnSpec.biasLogSoftmax (V c main_v59) (V c main_v60))
    (fun t _ => flushed3_eq V c t) cover3

end Cert.KernelIdeal.RegionValue

end
-- ==== Proof.RefStages.lean ====
/-
  The reference program's four dense stages, as whole-array equations over the extended reals.

  Each host operation of a stage is read index by index: a dot_general with one contracted axis is the sum over
  that axis of products; a broadcast_in_dim reads its operand at the named coordinates; a one-axis reduce is a
  fold (max) or a sum (add) over that axis. Put together, each stage is one of the functions of GcnSpec.
-/
import proofs.«162333_j76862734730017_1_alg».proof.ReferenceIdeal
import proofs.«162333_j76862734730017_1_alg».proof.Proof.GcnSpec
import Idealize.ShloMosaic.PureOps.Ideal.Laws
import Idealize.ShloMosaic.Lib.ValueIdx
import Idealize.ShloMosaic.Lib.ValueLayout

noncomputable section

namespace Cert.ReferenceIdeal.Stages

open Cert.ReferenceIdeal Idealize.ShloMosaic Idealize.ShloMosaic.ValueIdx

variable [Cert.ReferenceIdeal.Facts]
open Cert.ReferenceIdeal.Facts₀ Cert.ReferenceIdeal.Facts

/-- The first dense product: a dot_general contracting the 512-axis is the matrix product. -/
theorem dot1_eq (x : FVec Ideal S100000x512 .f32) (w : FVec Ideal S512x16 .f32) :
    Host.dotGeneral (F := Ideal) dot_S100000x512_S512x16_S100000x16_1_0_0_1_n_n none x w = Cert.GcnSpec.mm x w := by
  funext i
  simp only [Host.dotGeneral]
  rw [Ideal.dotGeneral_apply]
  unfold Cert.GcnSpec.mm
  rw [← Equiv.sum_comp (contrEquiv1 dot_S100000x512_S512x16_S100000x16_1_0_0_1_n_n 512 rfl rfl).symm]
  refine Finset.sum_congr rfl fun l _ => ?_
  have hl : dot_S100000x512_S512x16_S100000x16_1_0_0_1_n_n.lhsIdx i
      ((contrEquiv1 dot_S100000x512_S512x16_S100000x16_1_0_0_1_n_n 512 rfl rfl).symm l) = ix2 (i 0) l := by
    funext a
    match a with
    | ⟨0, _⟩ => exact Fin.ext rfl
    | ⟨1, _⟩ =>
      refine Fin.ext ?_
      exact (DotDims.lhsIdx_val_of_single _ rfl i _).trans (contrEquiv1_symm_val _ 512 rfl rfl l)
  have hr : dot_S100000x512_S512x16_S100000x16_1_0_0_1_n_n.rhsIdx i
      ((contrEquiv1 dot_S100000x512_S512x16_S100000x16_1_0_0_1_n_n 512 rfl rfl).symm l) = ix2 l (i 1) := by
    funext a
    match a with
    | ⟨0, _⟩ =>
      refine Fin.ext ?_
      exact (DotDims.rhsIdx_val_of_single _ rfl i _).trans (contrEquiv1_symm_val _ 512 rfl rfl l)
    | ⟨1, _⟩ => exact Fin.ext rfl
  exact congrArg₂ (· * ·) (congrArg x hl) (congrArg w hr)

/-- The second dense product: a dot_general contracting the 16-axis is the matrix product. -/
theorem dot2_eq (x : FVec Ideal S100000x16 .f32) (w : FVec Ideal S16x7 .f32) :
    Host.dotGeneral (F := Ideal) dot_S100000x16_S16x7_S100000x7_1_0_0_1_n_n none x w = Cert.GcnSpec.mm x w := by
  funext i
  simp only [Host.dotGeneral]
  rw [Ideal.dotGeneral_apply]
  unfold Cert.GcnSpec.mm
  rw [← Equiv.sum_comp (contrEquiv1 dot_S100000x16_S16x7_S100000x7_1_0_0_1_n_n 16 rfl rfl).symm]
  refine Finset.sum_congr rfl fun l _ => ?_
  have hl : dot_S100000x16_S16x7_S100000x7_1_0_0_1_n_n.lhsIdx i
      ((contrEquiv1 dot_S100000x16_S16x7_S100000x7_1_0_0_1_n_n 16 rfl rfl).symm l) = ix2 (i 0) l := by
    funext a
    match a with
    | ⟨0, _⟩ => exact Fin.ext rfl
    | ⟨1, _⟩ =>
      refine Fin.ext ?_
      exact (DotDims.lhsIdx_val_of_single _ rfl i _).trans (contrEquiv1_symm_val _ 16 rfl rfl l)
  have hr : dot_S100000x16_S16x7_S100000x7_1_0_0_1_n_n.rhsIdx i
      ((contrEquiv1 dot_S100000x16_S16x7_S100000x7_1_0_0_1_n_n 16 rfl rfl).symm l) = ix2 l (i 1) := by
    funext a
    match a with
    | ⟨0, _⟩ =>
      refine Fin.ext ?_
      exact (DotDims.rhsIdx_val_of_single _ rfl i _).trans (contrEquiv1_symm_val _ 16 rfl rfl l)
    | ⟨1, _⟩ => exact Fin.ext rfl
  exact congrArg₂ (· * ·) (congrArg x hl) (congrArg w hr)

/-- A row vector broadcast to every row — first to one row, then to all of them — reads, at (r, q), the vector at q;
    so does its reshape to one row, read at (0, q). -/
private theorem bias_apply {n p : Nat} (hp : p ≠ 1)
    (h1 : (⟨2, ![1, p]⟩ : Shape).BroadcastsInDim ⟨2, ![n, p]⟩ ![0, 1])
    (h2 : (⟨1, ![p]⟩ : Shape).BroadcastsInDim ⟨2, ![1, p]⟩ ![1])
    (hc : (⟨1, ![p]⟩ : Shape).ShapeCasts ⟨2, ![1, p]⟩)
    (b : (⟨1, ![p]⟩ : Shape).Idx → EReal) (r : Fin n) (q : Fin p) :
    broadcastInDim ⟨2, ![n, p]⟩ ![0, 1] h1 (broadcastInDim ⟨2, ![1, p]⟩ ![1] h2 b) (ix2 r q)
      = shapeCast ⟨2, ![1, p]⟩ b hc (ix2 0 q) := by
  rw [shapeCast_a_1a_apply]
  rw [broadcastInDim_apply _ h1 _ _ (ix2 0 q) (by
    intro a
    match a with
    | ⟨0, _⟩ => rfl
    | ⟨1, _⟩ => exact (if_neg hp).symm)]
  rw [broadcastInDim_apply _ h2 _ _ (ix1 q) (by
    intro a
    match a with
    | ⟨0, _⟩ => exact (if_neg hp).symm)]

/-- A scalar broadcast to every entry reads the scalar. -/
private theorem splat_apply {t : Shape} (h : S_.BroadcastsInDim t ![]) (c : S_.Idx → EReal) (j : t.Idx) :
    broadcastInDim t ![] h c j = c ix0 :=
  broadcastInDim_apply _ h _ _ ix0 (fun a => a.elim0)

/-- The first layer's bias and positive part. -/
theorem relu_eq (a : FVec Ideal S100000x16 .f32) (b : FVec Ideal S16 .f32) (hc : S16.ShapeCasts S1x16) :
    maximumf (addf a (broadcastInDim S100000x16 ![0, 1] bcast_S1x16_S100000x16_0_1 (broadcastInDim S1x16 ![1] bcast_S16_S1x16_1 b)))
        (broadcastInDim S100000x16 ![] bcast_S_S100000x16 (constant (F := Ideal) S_ .f32 0x00000000#32))
      = Cert.GcnSpec.biasRelu a (shapeCast S1x16 b hc) := by
  funext i
  obtain ⟨r, q, rfl⟩ : ∃ (r : Fin 100000) (q : Fin 16), i = ix2 r q := ⟨i 0, i 1, eq_ix2 i⟩
  unfold Cert.GcnSpec.biasRelu
  rw [maximumf_apply, addf_apply, splat_apply, constant_apply]
  rw [bias_apply (by decide) _ _ hc]

/-- A column vector broadcast to every column reads, at (r, q), the vector at (r, 0). -/
private theorem col1_apply {n p : Nat} (hn : n ≠ 1)
    (h1 : (⟨2, ![n, 1]⟩ : Shape).BroadcastsInDim ⟨2, ![n, p]⟩ ![0, 1])
    (w : (⟨2, ![n, 1]⟩ : Shape).Idx → EReal) (r : Fin n) (q : Fin p) :
    broadcastInDim ⟨2, ![n, p]⟩ ![0, 1] h1 w (ix2 r q) = w (ix2 r 0) :=
  broadcastInDim_apply _ h1 _ _ (ix2 r 0) (by
    intro a
    match a with
    | ⟨0, _⟩ => exact (if_neg hn).symm
    | ⟨1, _⟩ => rfl)

/-- A vector made a column reads, at (r, u), the vector at r. -/
private theorem col0_apply {n : Nat} (hn : n ≠ 1)
    (h2 : (⟨1, ![n]⟩ : Shape).BroadcastsInDim ⟨2, ![n, 1]⟩ ![0])
    (v : (⟨1, ![n]⟩ : Shape).Idx → EReal) (r : Fin n) (u : Fin 1) :
    broadcastInDim ⟨2, ![n, 1]⟩ ![0] h2 v (ix2 r u) = v (ix1 r) :=
  broadcastInDim_apply _ h2 _ _ (ix1 r) (by
    intro a
    match a with
    | ⟨0, _⟩ => exact (if_neg hn).symm)

/-- The reduced index r with the column k put back is (r, k). -/
private theorem lift_ix2 {n p : Nat} (h : (⟨2, ![n, p]⟩ : Shape).Reduces [1] (⟨1, ![n]⟩ : Shape)) (r : Fin n)
    (k : Fin ((⟨2, ![n, p]⟩ : Shape).size 1)) : h.lift (ix1 r) k = ix2 r (⟨k.val, k.isLt⟩ : Fin p) := by
  funext c; apply Fin.ext
  fin_cases c <;> rfl

theorem hostExp_apply {s : Shape} (x : FVec Ideal s .f32) (i : s.Idx) : Host.exp x i = Ideal.exp (x i) := rfl
theorem hostLog_apply {s : Shape} (x : FVec Ideal s .f32) (i : s.Idx) : Host.log x i = Ideal.log (x i) := rfl

/-- The row maximum as the reference takes it: -∞ against the max-reduce over the columns started from -∞. -/
private theorem rowMax_apply (Z : FVec Ideal S100000x7 .f32) (r : Fin 100000) :
    maximumf (broadcastInDim S100000 ![] bcast_S_S100000 (constant (F := Ideal) S_ .f32 0xFF800000#32))
        (Host.reduce FloatOps.maximumf Z (constant (F := Ideal) S_ .f32 0xFF800000#32) reducesTo_S100000x7_S100000_d1 h_S_) (ix1 r)
      = Cert.GcnSpec.rowMax (fun k : Fin 7 => Z (ix2 r k)) := by
  have hred : S100000x7.Reduces [1] S100000 := by decide
  rw [maximumf_apply, splat_apply, constant_apply]
  rw [Host.reduce_eq_fold_single FloatOps.maximumf Z _ reducesTo_S100000x7_S100000_d1 hred h_S_]
  rw [constant_apply]
  unfold Cert.GcnSpec.rowMax
  have hf : (Z ∘ hred.lift (ix1 r)) = fun k : Fin 7 => Z (ix2 r k) :=
    funext fun k => congrArg Z (lift_ix2 hred r k)
  show max (Ideal.ofBits .f32 0xFF800000#32)
      ((Finset.univ : Finset (Fin 7)).fold max (Ideal.ofBits .f32 0xFF800000#32) (Z ∘ hred.lift (ix1 r))) = _
  rw [hf]
  exact max_eq_right ((Finset.le_fold_max _).mpr (Or.inl le_rfl))

/-- The row sum of exponentials as the reference takes it: the add-reduce over the columns started from 0. -/
private theorem rowSum_apply (E : FVec Ideal S100000x7 .f32) (r : Fin 100000) :
    Host.reduceAdd E (constant (F := Ideal) S_ .f32 0x00000000#32) reducesTo_S100000x7_S100000_d1 h_S_ (ix1 r)
      = ∑ k : Fin 7, E (ix2 r k) := by
  have hred : S100000x7.Reduces [1] S100000 := by decide
  unfold Host.reduceAdd
  rw [Ideal.hostReduceAdd_def, Ideal.hostReduceAdd_single reducesTo_S100000x7_S100000_d1 hred, constant_apply,
    Ideal.ofBits_zero_f32, zero_add]
  exact Finset.sum_congr rfl fun k _ => congrArg E (lift_ix2 hred r k)

/-- The second layer's bias and row-wise log-softmax. -/
theorem logSoftmax_eq (a : FVec Ideal S100000x7 .f32) (b : FVec Ideal S7 .f32) (hc : S7.ShapeCasts S1x7) :
    subf (subf (addf a (broadcastInDim S100000x7 ![0, 1] bcast_S1x7_S100000x7_0_1 (broadcastInDim S1x7 ![1] bcast_S7_S1x7_1 b)))
          (broadcastInDim S100000x7 ![0, 1] bcast_S100000x1_S100000x7_0_1 (broadcastInDim S100000x1 ![0] bcast_S100000_S100000x1_0
            (maximumf (broadcastInDim S100000 ![] bcast_S_S100000 (constant (F := Ideal) S_ .f32 0xFF800000#32))
              (Host.reduce FloatOps.maximumf (addf a (broadcastInDim S100000x7 ![0, 1] bcast_S1x7_S100000x7_0_1 (broadcastInDim S1x7 ![1] bcast_S7_S1x7_1 b))) (constant (F := Ideal) S_ .f32 0xFF800000#32) reducesTo_S100000x7_S100000_d1 h_S_)))))
        (broadcastInDim S100000x7 ![0, 1] bcast_S100000x1_S100000x7_0_1 (Host.log (broadcastInDim S100000x1 ![0] bcast_S100000_S100000x1_0
          (Host.reduceAdd (Host.exp (subf (addf a (broadcastInDim S100000x7 ![0, 1] bcast_S1x7_S100000x7_0_1 (broadcastInDim S1x7 ![1] bcast_S7_S1x7_1 b)))
            (broadcastInDim S100000x7 ![0, 1] bcast_S100000x1_S100000x7_0_1 (broadcastInDim S100000x1 ![0] bcast_S100000_S100000x1_0
              (maximumf (broadcastInDim S100000 ![] bcast_S_S100000 (constant (F := Ideal) S_ .f32 0xFF800000#32))
                (Host.reduce FloatOps.maximumf (addf a (broadcastInDim S100000x7 ![0, 1] bcast_S1x7_S100000x7_0_1 (broadcastInDim S1x7 ![1] bcast_S7_S1x7_1 b))) (constant (F := Ideal) S_ .f32 0xFF800000#32) reducesTo_S100000x7_S100000_d1 h_S_))))))
            (constant (F := Ideal) S_ .f32 0x00000000#32) reducesTo_S100000x7_S100000_d1 h_S_))))
      = Cert.GcnSpec.biasLogSoftmax a (shapeCast S1x7 b hc) := by
  -- z = a + b on every row; M r its row maximum; both named, then read index by index
  have hz : ∀ (r : Fin 100000) (k : Fin 7),
      addf a (broadcastInDim S100000x7 ![0, 1] bcast_S1x7_S100000x7_0_1 (broadcastInDim S1x7 ![1] bcast_S7_S1x7_1 b)) (ix2 r k)
        = Cert.GcnSpec.biasRow a (shapeCast S1x7 b hc) r k := by
    intro r k
    rw [addf_apply, bias_apply (by decide) _ _ hc]
    rfl
  generalize addf a (broadcastInDim S100000x7 ![0, 1] bcast_S1x7_S100000x7_0_1 (broadcastInDim S1x7 ![1] bcast_S7_S1x7_1 b)) = Z at hz ⊢
  have hm : ∀ r : Fin 100000,
      maximumf (broadcastInDim S100000 ![] bcast_S_S100000 (constant (F := Ideal) S_ .f32 0xFF800000#32))
          (Host.reduce FloatOps.maximumf Z (constant (F := Ideal) S_ .f32 0xFF800000#32) reducesTo_S100000x7_S100000_d1 h_S_) (ix1 r)
        = Cert.GcnSpec.rowMax (Cert.GcnSpec.biasRow a (shapeCast S1x7 b hc) r) := by
    intro r
    rw [rowMax_apply]
    exact congrArg Cert.GcnSpec.rowMax (funext fun k => hz r k)
  generalize maximumf (broadcastInDim S100000 ![] bcast_S_S100000 (constant (F := Ideal) S_ .f32 0xFF800000#32))
      (Host.reduce FloatOps.maximumf Z (constant (F := Ideal) S_ .f32 0xFF800000#32) reducesTo_S100000x7_S100000_d1 h_S_) = M at hm ⊢
  funext i
  obtain ⟨r, q, rfl⟩ : ∃ (r : Fin 100000) (q : Fin 7), i = ix2 r q := ⟨i 0, i 1, eq_ix2 i⟩
  unfold Cert.GcnSpec.biasLogSoftmax
  rw [subf_apply, subf_apply, col1_apply (by decide), col0_apply (by decide), hz, hm]
  rw [col1_apply (by decide), hostLog_apply, col0_apply (by decide), rowSum_apply]
  have hs : ∀ k : Fin 7,
      Host.exp (subf Z (broadcastInDim S100000x7 ![0, 1] bcast_S100000x1_S100000x7_0_1
          (broadcastInDim S100000x1 ![0] bcast_S100000_S100000x1_0 M))) (ix2 r k)
        = Ideal.exp (Cert.GcnSpec.biasRow a (shapeCast S1x7 b hc) r k
            - Cert.GcnSpec.rowMax (Cert.GcnSpec.biasRow a (shapeCast S1x7 b hc) r)) := by
    intro k
    rw [hostExp_apply, subf_apply, col1_apply (by decide), col0_apply (by decide), hz, hm]
  refine congrArg (fun s => Cert.GcnSpec.biasRow a (shapeCast S1x7 b hc) r q
      - Cert.GcnSpec.rowMax (Cert.GcnSpec.biasRow a (shapeCast S1x7 b hc) r) - Ideal.log s) ?_
  exact Finset.sum_congr rfl fun k _ => hs k

end Cert.ReferenceIdeal.Stages

end
-- ==== Proof.RefValue.lean ====
/-
  The reference program's result as one function of its arguments.

  The run leaves the result buffer at the fold of the 138 host operations' results over the launch contents. The
  fold is read in stages: the operation list is cut into twelve consecutive pieces, the buffer contents after each piece
  are named, and for each piece the few buffers a later piece reads are shown to hold the network's intermediate
  values: the edge lists, the degrees and the normalisation, each layer's aggregation, and the two dense row stages.
-/
import proofs.«162333_j76862734730017_1_alg».proof.Proof.RefRun
import proofs.«162333_j76862734730017_1_alg».proof.Proof.RefStages
import proofs.«162333_j76862734730017_1_alg».proof.Proof.Glue

set_option maxRecDepth 32768

noncomputable section

namespace Cert.ReferenceIdeal.RunP

open Cert.ReferenceIdeal Cert.ReferenceIdeal.Gen Idealize.ShloMosaic Idealize.ShloMosaic.TcCoe Idealize.SL.Sem Idealize.ShloMosaic.StableHlo

/-- The fold over a concatenation is the fold over the second list from the fold over the first. -/
theorem after_append {τ : Topo} {sig : RefSig} {Val : EltTy → Type} (xs ys : List (HloOp τ sig Val))
    (V : Valuation τ sig Val) : after (xs ++ ys) V = after ys (after xs V) := by
  induction xs generalizing V with
  | nil => rfl
  | cons x xs ih => exact ih _

section Pieces
variable {F : FTy → Type} [FloatOps F]

/-- Operations 1 to 8 of @main. -/
abbrev Piece1 : List (HloOp τ sig (Elt F)) :=
  [ binary main_arg0 main_arg2 main_v0 ((fun l r => Host.dotGeneral dot_S100000x512_S512x16_S100000x16_1_0_0_1_n_n none l r) : (⟨S100000x512, .f32⟩ : BufTy).Contents (Elt F) → (⟨S512x16, .f32⟩ : BufTy).Contents (Elt F) → (⟨S100000x16, .f32⟩ : BufTy).Contents (Elt F)),
    nullary main_v1 (iotaInDim S100000 32 0),
    unary main_arg1 main_v2 ((extractStridedSlice S1x3200000 ![0, 0] · slices_S2x3200000_S1x3200000_0_0) : (⟨S2x3200000, .i32⟩ : BufTy).Contents (Elt F) → (⟨S1x3200000, .i32⟩ : BufTy).Contents (Elt F)),
    reshape main_v2 main_v3 rfl shapeCasts_S1x3200000_S3200000,
    binary main_v3 main_v1 main_v4 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    unary main_arg1 main_v5 ((extractStridedSlice S1x3200000 ![1, 0] · slices_S2x3200000_S1x3200000_1_0) : (⟨S2x3200000, .i32⟩ : BufTy).Contents (Elt F) → (⟨S1x3200000, .i32⟩ : BufTy).Contents (Elt F)),
    reshape main_v5 main_v6 rfl shapeCasts_S1x3200000_S3200000,
    binary main_v6 main_v1 main_v7 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)) ]

/-- Operations 9 to 18 of @main. -/
abbrev Piece2 : List (HloOp τ sig (Elt F)) :=
  [ nullary main_cst (constant S_ .f32 0x3F800000#32),
    unary main_cst main_v8 (broadcastInDim S3300000 ![] bcast_S_S3300000 : (⟨S_, .f32⟩ : BufTy).Contents (Elt F) → (⟨S3300000, .f32⟩ : BufTy).Contents (Elt F)),
    nullary main_cst_0 (constant S_ .f32 0x00000000#32),
    unary main_cst_0 main_v9 (broadcastInDim S100000 ![] bcast_S_S100000 : (⟨S_, .f32⟩ : BufTy).Contents (Elt F) → (⟨S100000, .f32⟩ : BufTy).Contents (Elt F)),
    unary main_v7 main_v10 (broadcastInDim S3300000x1 ![0] bcast_S3300000_S3300000x1_0 : (⟨S3300000, .i32⟩ : BufTy).Contents (Elt F) → (⟨S3300000x1, .i32⟩ : BufTy).Contents (Elt F)),
    ternary main_v9 main_v10 main_v8 main_v11 ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)),
    nullary main_cst_1 (constant S_ .f32 0x00000000#32),
    unary main_cst_1 main_v12 (broadcastInDim S100000 ![] bcast_S_S100000 : (⟨S_, .f32⟩ : BufTy).Contents (Elt F) → (⟨S100000, .f32⟩ : BufTy).Contents (Elt F)),
    binary main_v11 main_v12 main_v13 (cmpf .ogt : (⟨S100000, .f32⟩ : BufTy).Contents (Elt F) → (⟨S100000, .f32⟩ : BufTy).Contents (Elt F) → (⟨S100000, .i1⟩ : BufTy).Contents (Elt F)),
    unary main_v11 main_v14 (Host.rsqrt : (⟨S100000, .f32⟩ : BufTy).Contents (Elt F) → (⟨S100000, .f32⟩ : BufTy).Contents (Elt F)) ]

/-- Operations 19 to 22 of @main. -/
abbrev Piece3 : List (HloOp τ sig (Elt F)) :=
  [ nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v13) (TRef.of (T := ⟨S100000, .f32⟩) main_v14) (TRef.of (T := ⟨S100000, .f32⟩) main_call0_v1) (TRef.of (T := ⟨S100000, .f32⟩) main_v15) select ]

/-- Operations 23 to 60 of @main. -/
abbrev Piece4 : List (HloOp τ sig (Elt F)) :=
  [ nullary main_c (constantI S_ 32 0#32),
    unary main_c main_v16 (broadcastInDim S3300000 ![] bcast_S_S3300000 : (⟨S_, .i32⟩ : BufTy).Contents (Elt F) → (⟨S3300000, .i32⟩ : BufTy).Contents (Elt F)),
    binary main_v4 main_v16 main_v17 (cmpi .slt : (⟨S3300000, .i32⟩ : BufTy).Contents (Elt F) → (⟨S3300000, .i32⟩ : BufTy).Contents (Elt F) → (⟨S3300000, .i1⟩ : BufTy).Contents (Elt F)),
    nullary main_c_3 (constantI S_ 32 100000#32),
    unary main_c_3 main_v18 (broadcastInDim S3300000 ![] bcast_S_S3300000 : (⟨S_, .i32⟩ : BufTy).Contents (Elt F) → (⟨S3300000, .i32⟩ : BufTy).Contents (Elt F)),
    binary main_v4 main_v18 main_v19 (addi : (⟨S3300000, .i32⟩ : BufTy).Contents (Elt F) → (⟨S3300000, .i32⟩ : BufTy).Contents (Elt F) → (⟨S3300000, .i32⟩ : BufTy).Contents (Elt F)),
    ternary main_v17 main_v19 main_v4 main_v20 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v20 main_v21 (broadcastInDim S3300000x1 ![0] bcast_S3300000_S3300000x1_0 : (⟨S3300000, .i32⟩ : BufTy).Contents (Elt F) → (⟨S3300000x1, .i32⟩ : BufTy).Contents (Elt F)),
    binary main_v15 main_v21 main_v22 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    nullary main_c_4 (constantI S_ 32 0#32),
    unary main_c_4 main_v23 (broadcastInDim S3300000 ![] bcast_S_S3300000 : (⟨S_, .i32⟩ : BufTy).Contents (Elt F) → (⟨S3300000, .i32⟩ : BufTy).Contents (Elt F)),
    binary main_v7 main_v23 main_v24 (cmpi .slt : (⟨S3300000, .i32⟩ : BufTy).Contents (Elt F) → (⟨S3300000, .i32⟩ : BufTy).Contents (Elt F) → (⟨S3300000, .i1⟩ : BufTy).Contents (Elt F)),
    nullary main_c_5 (constantI S_ 32 100000#32),
    unary main_c_5 main_v25 (broadcastInDim S3300000 ![] bcast_S_S3300000 : (⟨S_, .i32⟩ : BufTy).Contents (Elt F) → (⟨S3300000, .i32⟩ : BufTy).Contents (Elt F)),
    binary main_v7 main_v25 main_v26 (addi : (⟨S3300000, .i32⟩ : BufTy).Contents (Elt F) → (⟨S3300000, .i32⟩ : BufTy).Contents (Elt F) → (⟨S3300000, .i32⟩ : BufTy).Contents (Elt F)),
    ternary main_v24 main_v26 main_v7 main_v27 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v27 main_v28 (broadcastInDim S3300000x1 ![0] bcast_S3300000_S3300000x1_0 : (⟨S3300000, .i32⟩ : BufTy).Contents (Elt F) → (⟨S3300000x1, .i32⟩ : BufTy).Contents (Elt F)),
    binary main_v15 main_v28 main_v29 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v22 main_v29 main_v30 (mulf : (⟨S3300000, .f32⟩ : BufTy).Contents (Elt F) → (⟨S3300000, .f32⟩ : BufTy).Contents (Elt F) → (⟨S3300000, .f32⟩ : BufTy).Contents (Elt F)),
    nullary main_c_6 (constantI S_ 32 0#32),
    unary main_c_6 main_v31 (broadcastInDim S3300000 ![] bcast_S_S3300000 : (⟨S_, .i32⟩ : BufTy).Contents (Elt F) → (⟨S3300000, .i32⟩ : BufTy).Contents (Elt F)),
    binary main_v4 main_v31 main_v32 (cmpi .slt : (⟨S3300000, .i32⟩ : BufTy).Contents (Elt F) → (⟨S3300000, .i32⟩ : BufTy).Contents (Elt F) → (⟨S3300000, .i1⟩ : BufTy).Contents (Elt F)),
    nullary main_c_7 (constantI S_ 32 100000#32),
    unary main_c_7 main_v33 (broadcastInDim S3300000 ![] bcast_S_S3300000 : (⟨S_, .i32⟩ : BufTy).Contents (Elt F) → (⟨S3300000, .i32⟩ : BufTy).Contents (Elt F)),
    binary main_v4 main_v33 main_v34 (addi : (⟨S3300000, .i32⟩ : BufTy).Contents (Elt F) → (⟨S3300000, .i32⟩ : BufTy).Contents (Elt F) → (⟨S3300000, .i32⟩ : BufTy).Contents (Elt F)),
    ternary main_v32 main_v34 main_v4 main_v35 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v35 main_v36 (broadcastInDim S3300000x1 ![0] bcast_S3300000_S3300000x1_0 : (⟨S3300000, .i32⟩ : BufTy).Contents (Elt F) → (⟨S3300000x1, .i32⟩ : BufTy).Contents (Elt F)),
    binary main_v0 main_v36 main_v37 ((fun x i => Host.gather gather_S100000x16_S3300000x1_S3300000x16_1_0_n_n_0_1_116 x i) : (⟨S100000x16, .f32⟩ : BufTy).Contents (Elt F) → (⟨S3300000x1, .i32⟩ : BufTy).Contents (Elt F) → (⟨S3300000x16, .f32⟩ : BufTy).Contents (Elt F)),
    unary main_v30 main_v38 (broadcastInDim S3300000x1 ![0] bcast_S3300000_S3300000x1_0 : (⟨S3300000, .f32⟩ : BufTy).Contents (Elt F) → (⟨S3300000x1, .f32⟩ : BufTy).Contents (Elt F)),
    unary main_v38 main_v39 (broadcastInDim S3300000x16 ![0, 1] bcast_S3300000x1_S3300000x16_0_1 : (⟨S3300000x1, .f32⟩ : BufTy).Contents (Elt F) → (⟨S3300000x16, .f32⟩ : BufTy).Contents (Elt F)),
    binary main_v37 main_v39 main_v40 (mulf : (⟨S3300000x16, .f32⟩ : BufTy).Contents (Elt F) → (⟨S3300000x16, .f32⟩ : BufTy).Contents (Elt F) → (⟨S3300000x16, .f32⟩ : BufTy).Contents (Elt F)),
    nullary main_cst_8 (constant S_ .f32 0x00000000#32),
    unary main_cst_8 main_v41 (broadcastInDim S100000x16 ![] bcast_S_S100000x16 : (⟨S_, .f32⟩ : BufTy).Contents (Elt F) → (⟨S100000x16, .f32⟩ : BufTy).Contents (Elt F)),
    unary main_v7 main_v42 (broadcastInDim S3300000x1 ![0] bcast_S3300000_S3300000x1_0 : (⟨S3300000, .i32⟩ : BufTy).Contents (Elt F) → (⟨S3300000x1, .i32⟩ : BufTy).Contents (Elt F)),
    ternary main_v41 main_v42 main_v40 main_v43 ((fun x i u => Host.scatterAdd scatter_S100000x16_S3300000x1_S3300000x16_1_0_0_1 x i u) : (⟨S100000x16, .f32⟩ : BufTy).Contents (Elt F) → (⟨S3300000x1, .i32⟩ : BufTy).Contents (Elt F) → (⟨S3300000x16, .f32⟩ : BufTy).Contents (Elt F) → (⟨S100000x16, .f32⟩ : BufTy).Contents (Elt F)),
    unary main_arg3 main_v44 (broadcastInDim S1x16 ![1] bcast_S16_S1x16_1 : (⟨S16, .f32⟩ : BufTy).Contents (Elt F) → (⟨S1x16, .f32⟩ : BufTy).Contents (Elt F)),
    unary main_v44 main_v45 (broadcastInDim S100000x16 ![0, 1] bcast_S1x16_S100000x16_0_1 : (⟨S1x16, .f32⟩ : BufTy).Contents (Elt F) → (⟨S100000x16, .f32⟩ : BufTy).Contents (Elt F)),
    binary main_v43 main_v45 main_v46 (addf : (⟨S100000x16, .f32⟩ : BufTy).Contents (Elt F) → (⟨S100000x16, .f32⟩ : BufTy).Contents (Elt F) → (⟨S100000x16, .f32⟩ : BufTy).Contents (Elt F)) ]

/-- Operations 61 to 63 of @main. -/
abbrev Piece5 : List (HloOp τ sig (Elt F)) :=
  [ TRef.nullary (TRef.of (T := ⟨S_, .f32⟩) main_call1_cst) (constant S_ .f32 0x00000000#32),
    TRef.unary (TRef.of (T := ⟨S_, .f32⟩) main_call1_cst) (TRef.of (T := ⟨S100000x16, .f32⟩) main_call1_v0) (broadcastInDim S100000x16 ![] bcast_S_S100000x16),
    TRef.binary (TRef.of (T := ⟨S100000x16, .f32⟩) main_v46) (TRef.of (T := ⟨S100000x16, .f32⟩) main_call1_v0) (TRef.of (T := ⟨S100000x16, .f32⟩) main_v47) maximumf ]

/-- Operations 64 to 71 of @main. -/
abbrev Piece6 : List (HloOp τ sig (Elt F)) :=
  [ binary main_v47 main_arg4 main_v48 ((fun l r => Host.dotGeneral dot_S100000x16_S16x7_S100000x7_1_0_0_1_n_n none l r) : (⟨S100000x16, .f32⟩ : BufTy).Contents (Elt F) → (⟨S16x7, .f32⟩ : BufTy).Contents (Elt F) → (⟨S100000x7, .f32⟩ : BufTy).Contents (Elt F)),
    nullary main_v49 (iotaInDim S100000 32 0),
    unary main_arg1 main_v50 ((extractStridedSlice S1x3200000 ![0, 0] · slices_S2x3200000_S1x3200000_0_0) : (⟨S2x3200000, .i32⟩ : BufTy).Contents (Elt F) → (⟨S1x3200000, .i32⟩ : BufTy).Contents (Elt F)),
    reshape main_v50 main_v51 rfl shapeCasts_S1x3200000_S3200000,
    binary main_v51 main_v49 main_v52 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    unary main_arg1 main_v53 ((extractStridedSlice S1x3200000 ![1, 0] · slices_S2x3200000_S1x3200000_1_0) : (⟨S2x3200000, .i32⟩ : BufTy).Contents (Elt F) → (⟨S1x3200000, .i32⟩ : BufTy).Contents (Elt F)),
    reshape main_v53 main_v54 rfl shapeCasts_S1x3200000_S3200000,
    binary main_v54 main_v49 main_v55 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)) ]

/-- Operations 72 to 81 of @main. -/
abbrev Piece7 : List (HloOp τ sig (Elt F)) :=
  [ nullary main_cst_9 (constant S_ .f32 0x3F800000#32),
    unary main_cst_9 main_v56 (broadcastInDim S3300000 ![] bcast_S_S3300000 : (⟨S_, .f32⟩ : BufTy).Contents (Elt F) → (⟨S3300000, .f32⟩ : BufTy).Contents (Elt F)),
    nullary main_cst_10 (constant S_ .f32 0x00000000#32),
    unary main_cst_10 main_v57 (broadcastInDim S100000 ![] bcast_S_S100000 : (⟨S_, .f32⟩ : BufTy).Contents (Elt F) → (⟨S100000, .f32⟩ : BufTy).Contents (Elt F)),
    unary main_v55 main_v58 (broadcastInDim S3300000x1 ![0] bcast_S3300000_S3300000x1_0 : (⟨S3300000, .i32⟩ : BufTy).Contents (Elt F) → (⟨S3300000x1, .i32⟩ : BufTy).Contents (Elt F)),
    ternary main_v57 main_v58 main_v56 main_v59 ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)),
    nullary main_cst_11 (constant S_ .f32 0x00000000#32),
    unary main_cst_11 main_v60 (broadcastInDim S100000 ![] bcast_S_S100000 : (⟨S_, .f32⟩ : BufTy).Contents (Elt F) → (⟨S100000, .f32⟩ : BufTy).Contents (Elt F)),
    binary main_v59 main_v60 main_v61 (cmpf .ogt : (⟨S100000, .f32⟩ : BufTy).Contents (Elt F) → (⟨S100000, .f32⟩ : BufTy).Contents (Elt F) → (⟨S100000, .i1⟩ : BufTy).Contents (Elt F)),
    unary main_v59 main_v62 (Host.rsqrt : (⟨S100000, .f32⟩ : BufTy).Contents (Elt F) → (⟨S100000, .f32⟩ : BufTy).Contents (Elt F)) ]

/-- Operations 82 to 85 of @main. -/
abbrev Piece8 : List (HloOp τ sig (Elt F)) :=
  [ nullary main_cst_12 (constant S_ .f32 0x00000000#32),
    TRef.unary (TRef.of (T := ⟨S_, .f32⟩) main_cst_12) (TRef.of (T := ⟨S_, .f32⟩) main_call2_v0) id,
    TRef.unary (TRef.of (T := ⟨S_, .f32⟩) main_call2_v0) (TRef.of (T := ⟨S100000, .f32⟩) main_call2_v1) (broadcastInDim S100000 ![] bcast_S_S100000),
    TRef.ternary (TRef.of (T := ⟨S100000, .i1⟩) main_v61) (TRef.of (T := ⟨S100000, .f32⟩) main_v62) (TRef.of (T := ⟨S100000, .f32⟩) main_call2_v1) (TRef.of (T := ⟨S100000, .f32⟩) main_v63) select ]

/-- Operations 86 to 123 of @main. -/
abbrev Piece9 : List (HloOp τ sig (Elt F)) :=
  [ nullary main_c_13 (constantI S_ 32 0#32),
    unary main_c_13 main_v64 (broadcastInDim S3300000 ![] bcast_S_S3300000 : (⟨S_, .i32⟩ : BufTy).Contents (Elt F) → (⟨S3300000, .i32⟩ : BufTy).Contents (Elt F)),
    binary main_v52 main_v64 main_v65 (cmpi .slt : (⟨S3300000, .i32⟩ : BufTy).Contents (Elt F) → (⟨S3300000, .i32⟩ : BufTy).Contents (Elt F) → (⟨S3300000, .i1⟩ : BufTy).Contents (Elt F)),
    nullary main_c_14 (constantI S_ 32 100000#32),
    unary main_c_14 main_v66 (broadcastInDim S3300000 ![] bcast_S_S3300000 : (⟨S_, .i32⟩ : BufTy).Contents (Elt F) → (⟨S3300000, .i32⟩ : BufTy).Contents (Elt F)),
    binary main_v52 main_v66 main_v67 (addi : (⟨S3300000, .i32⟩ : BufTy).Contents (Elt F) → (⟨S3300000, .i32⟩ : BufTy).Contents (Elt F) → (⟨S3300000, .i32⟩ : BufTy).Contents (Elt F)),
    ternary main_v65 main_v67 main_v52 main_v68 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v68 main_v69 (broadcastInDim S3300000x1 ![0] bcast_S3300000_S3300000x1_0 : (⟨S3300000, .i32⟩ : BufTy).Contents (Elt F) → (⟨S3300000x1, .i32⟩ : BufTy).Contents (Elt F)),
    binary main_v63 main_v69 main_v70 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    nullary main_c_15 (constantI S_ 32 0#32),
    unary main_c_15 main_v71 (broadcastInDim S3300000 ![] bcast_S_S3300000 : (⟨S_, .i32⟩ : BufTy).Contents (Elt F) → (⟨S3300000, .i32⟩ : BufTy).Contents (Elt F)),
    binary main_v55 main_v71 main_v72 (cmpi .slt : (⟨S3300000, .i32⟩ : BufTy).Contents (Elt F) → (⟨S3300000, .i32⟩ : BufTy).Contents (Elt F) → (⟨S3300000, .i1⟩ : BufTy).Contents (Elt F)),
    nullary main_c_16 (constantI S_ 32 100000#32),
    unary main_c_16 main_v73 (broadcastInDim S3300000 ![] bcast_S_S3300000 : (⟨S_, .i32⟩ : BufTy).Contents (Elt F) → (⟨S3300000, .i32⟩ : BufTy).Contents (Elt F)),
    binary main_v55 main_v73 main_v74 (addi : (⟨S3300000, .i32⟩ : BufTy).Contents (Elt F) → (⟨S3300000, .i32⟩ : BufTy).Contents (Elt F) → (⟨S3300000, .i32⟩ : BufTy).Contents (Elt F)),
    ternary main_v72 main_v74 main_v55 main_v75 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v75 main_v76 (broadcastInDim S3300000x1 ![0] bcast_S3300000_S3300000x1_0 : (⟨S3300000, .i32⟩ : BufTy).Contents (Elt F) → (⟨S3300000x1, .i32⟩ : BufTy).Contents (Elt F)),
    binary main_v63 main_v76 main_v77 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v70 main_v77 main_v78 (mulf : (⟨S3300000, .f32⟩ : BufTy).Contents (Elt F) → (⟨S3300000, .f32⟩ : BufTy).Contents (Elt F) → (⟨S3300000, .f32⟩ : BufTy).Contents (Elt F)),
    nullary main_c_17 (constantI S_ 32 0#32),
    unary main_c_17 main_v79 (broadcastInDim S3300000 ![] bcast_S_S3300000 : (⟨S_, .i32⟩ : BufTy).Contents (Elt F) → (⟨S3300000, .i32⟩ : BufTy).Contents (Elt F)),
    binary main_v52 main_v79 main_v80 (cmpi .slt : (⟨S3300000, .i32⟩ : BufTy).Contents (Elt F) → (⟨S3300000, .i32⟩ : BufTy).Contents (Elt F) → (⟨S3300000, .i1⟩ : BufTy).Contents (Elt F)),
    nullary main_c_18 (constantI S_ 32 100000#32),
    unary main_c_18 main_v81 (broadcastInDim S3300000 ![] bcast_S_S3300000 : (⟨S_, .i32⟩ : BufTy).Contents (Elt F) → (⟨S3300000, .i32⟩ : BufTy).Contents (Elt F)),
    binary main_v52 main_v81 main_v82 (addi : (⟨S3300000, .i32⟩ : BufTy).Contents (Elt F) → (⟨S3300000, .i32⟩ : BufTy).Contents (Elt F) → (⟨S3300000, .i32⟩ : BufTy).Contents (Elt F)),
    ternary main_v80 main_v82 main_v52 main_v83 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v83 main_v84 (broadcastInDim S3300000x1 ![0] bcast_S3300000_S3300000x1_0 : (⟨S3300000, .i32⟩ : BufTy).Contents (Elt F) → (⟨S3300000x1, .i32⟩ : BufTy).Contents (Elt F)),
    binary main_v48 main_v84 main_v85 ((fun x i => Host.gather gather_S100000x7_S3300000x1_S3300000x7_1_0_n_n_0_1_17 x i) : (⟨S100000x7, .f32⟩ : BufTy).Contents (Elt F) → (⟨S3300000x1, .i32⟩ : BufTy).Contents (Elt F) → (⟨S3300000x7, .f32⟩ : BufTy).Contents (Elt F)),
    unary main_v78 main_v86 (broadcastInDim S3300000x1 ![0] bcast_S3300000_S3300000x1_0 : (⟨S3300000, .f32⟩ : BufTy).Contents (Elt F) → (⟨S3300000x1, .f32⟩ : BufTy).Contents (Elt F)),
    unary main_v86 main_v87 (broadcastInDim S3300000x7 ![0, 1] bcast_S3300000x1_S3300000x7_0_1 : (⟨S3300000x1, .f32⟩ : BufTy).Contents (Elt F) → (⟨S3300000x7, .f32⟩ : BufTy).Contents (Elt F)),
    binary main_v85 main_v87 main_v88 (mulf : (⟨S3300000x7, .f32⟩ : BufTy).Contents (Elt F) → (⟨S3300000x7, .f32⟩ : BufTy).Contents (Elt F) → (⟨S3300000x7, .f32⟩ : BufTy).Contents (Elt F)),
    nullary main_cst_19 (constant S_ .f32 0x00000000#32),
    unary main_cst_19 main_v89 (broadcastInDim S100000x7 ![] bcast_S_S100000x7 : (⟨S_, .f32⟩ : BufTy).Contents (Elt F) → (⟨S100000x7, .f32⟩ : BufTy).Contents (Elt F)),
    unary main_v55 main_v90 (broadcastInDim S3300000x1 ![0] bcast_S3300000_S3300000x1_0 : (⟨S3300000, .i32⟩ : BufTy).Contents (Elt F) → (⟨S3300000x1, .i32⟩ : BufTy).Contents (Elt F)),
    ternary main_v89 main_v90 main_v88 main_v91 ((fun x i u => Host.scatterAdd scatter_S100000x7_S3300000x1_S3300000x7_1_0_0_1 x i u) : (⟨S100000x7, .f32⟩ : BufTy).Contents (Elt F) → (⟨S3300000x1, .i32⟩ : BufTy).Contents (Elt F) → (⟨S3300000x7, .f32⟩ : BufTy).Contents (Elt F) → (⟨S100000x7, .f32⟩ : BufTy).Contents (Elt F)),
    unary main_arg5 main_v92 (broadcastInDim S1x7 ![1] bcast_S7_S1x7_1 : (⟨S7, .f32⟩ : BufTy).Contents (Elt F) → (⟨S1x7, .f32⟩ : BufTy).Contents (Elt F)),
    unary main_v92 main_v93 (broadcastInDim S100000x7 ![0, 1] bcast_S1x7_S100000x7_0_1 : (⟨S1x7, .f32⟩ : BufTy).Contents (Elt F) → (⟨S100000x7, .f32⟩ : BufTy).Contents (Elt F)),
    binary main_v91 main_v93 main_v94 (addf : (⟨S100000x7, .f32⟩ : BufTy).Contents (Elt F) → (⟨S100000x7, .f32⟩ : BufTy).Contents (Elt F) → (⟨S100000x7, .f32⟩ : BufTy).Contents (Elt F)) ]

/-- Operations 124 to 128 of @main. -/
abbrev Piece10 : List (HloOp τ sig (Elt F)) :=
  [ TRef.nullary (TRef.of (T := ⟨S_, .f32⟩) main_call3_cst) (constant S_ .f32 0xFF800000#32),
    TRef.binary (TRef.of (T := ⟨S100000x7, .f32⟩) main_v94) (TRef.of (T := ⟨S_, .f32⟩) main_call3_cst) (TRef.of (T := ⟨S100000, .f32⟩) main_call3_v0) (fun x v => Host.reduce FloatOps.maximumf x v reducesTo_S100000x7_S100000_d1 h_S_),
    TRef.nullary (TRef.of (T := ⟨S_, .f32⟩) main_call3_cst_0) (constant S_ .f32 0xFF800000#32),
    TRef.unary (TRef.of (T := ⟨S_, .f32⟩) main_call3_cst_0) (TRef.of (T := ⟨S100000, .f32⟩) main_call3_v1) (broadcastInDim S100000 ![] bcast_S_S100000),
    TRef.binary (TRef.of (T := ⟨S100000, .f32⟩) main_call3_v1) (TRef.of (T := ⟨S100000, .f32⟩) main_call3_v0) (TRef.of (T := ⟨S100000, .f32⟩) main_call3_v2) maximumf ]

/-- Operations 129 to 132 of @main. -/
abbrev Piece11 : List (HloOp τ sig (Elt F)) :=
  [ TRef.unary (TRef.of (T := ⟨S100000, .f32⟩) main_call3_v2) (TRef.of (T := ⟨S100000x1, .f32⟩) main_call3_v3) (broadcastInDim S100000x1 ![0] bcast_S100000_S100000x1_0),
    TRef.unary (TRef.of (T := ⟨S100000x1, .f32⟩) main_call3_v3) (TRef.of (T := ⟨S100000x7, .f32⟩) main_call3_v4) (broadcastInDim S100000x7 ![0, 1] bcast_S100000x1_S100000x7_0_1),
    TRef.binary (TRef.of (T := ⟨S100000x7, .f32⟩) main_v94) (TRef.of (T := ⟨S100000x7, .f32⟩) main_call3_v4) (TRef.of (T := ⟨S100000x7, .f32⟩) main_call3_v5) subf,
    TRef.unary (TRef.of (T := ⟨S100000x7, .f32⟩) main_call3_v5) (TRef.of (T := ⟨S100000x7, .f32⟩) main_call3_v6) Host.exp ]

/-- Operations 133 to 138 of @main. -/
abbrev Piece12 : List (HloOp τ sig (Elt F)) :=
  [ TRef.nullary (TRef.of (T := ⟨S_, .f32⟩) main_call3_cst_1) (constant S_ .f32 0x00000000#32),
    TRef.binary (TRef.of (T := ⟨S100000x7, .f32⟩) main_call3_v6) (TRef.of (T := ⟨S_, .f32⟩) main_call3_cst_1) (TRef.of (T := ⟨S100000, .f32⟩) main_call3_v7) (fun x v => Host.reduceAdd x v reducesTo_S100000x7_S100000_d1 h_S_),
    TRef.unary (TRef.of (T := ⟨S100000, .f32⟩) main_call3_v7) (TRef.of (T := ⟨S100000x1, .f32⟩) main_call3_v8) (broadcastInDim S100000x1 ![0] bcast_S100000_S100000x1_0),
    TRef.unary (TRef.of (T := ⟨S100000x1, .f32⟩) main_call3_v8) (TRef.of (T := ⟨S100000x1, .f32⟩) main_call3_v9) Host.log,
    TRef.unary (TRef.of (T := ⟨S100000x1, .f32⟩) main_call3_v9) (TRef.of (T := ⟨S100000x7, .f32⟩) main_call3_v10) (broadcastInDim S100000x7 ![0, 1] bcast_S100000x1_S100000x7_0_1),
    TRef.binary (TRef.of (T := ⟨S100000x7, .f32⟩) main_call3_v5) (TRef.of (T := ⟨S100000x7, .f32⟩) main_call3_v10) (TRef.of (T := ⟨S100000x7, .f32⟩) main_v95) subf ]

set_option maxRecDepth 16384 in
/-- The twelve pieces, in order, are @main's operation list. -/
theorem ops_eq : (ops : List (HloOp τ sig (Elt F)))
    = Piece1 ++ (Piece2 ++ (Piece3 ++ (Piece4 ++ (Piece5 ++ (Piece6 ++ (Piece7 ++ (Piece8 ++ (Piece9 ++ (Piece10 ++ (Piece11 ++ Piece12)))))))))) := rfl

end Pieces

section Reading

variable [Cert.KernelIdeal.Facts]
variable (m : (ℓ : Loc nD τ sig) → Buf (Elt Ideal) ℓ) (c : Dev nD)

/-- The six arguments' launch contents on device c. -/
abbrev aX : (⟨S100000x512, .f32⟩ : BufTy).Contents (Elt Ideal) := m ((c.tc : Thread nD τ).loc main_arg0)
abbrev aE : (⟨S2x3200000, .i32⟩ : BufTy).Contents (Elt Ideal) := m ((c.tc : Thread nD τ).loc main_arg1)
abbrev aW1 : (⟨S512x16, .f32⟩ : BufTy).Contents (Elt Ideal) := m ((c.tc : Thread nD τ).loc main_arg2)
abbrev aB1 : (⟨S16, .f32⟩ : BufTy).Contents (Elt Ideal) := m ((c.tc : Thread nD τ).loc main_arg3)
abbrev aW2 : (⟨S16x7, .f32⟩ : BufTy).Contents (Elt Ideal) := m ((c.tc : Thread nD τ).loc main_arg4)
abbrev aB2 : (⟨S7, .f32⟩ : BufTy).Contents (Elt Ideal) := m ((c.tc : Thread nD τ).loc main_arg5)

/-- The buffer contents after each piece. -/
def V1 : Valuation τ sig (Elt Ideal) := after Piece1 (launchContents m c)
def V2 : Valuation τ sig (Elt Ideal) := after Piece2 (V1 m c)
def V3 : Valuation τ sig (Elt Ideal) := after Piece3 (V2 m c)
def V4 : Valuation τ sig (Elt Ideal) := after Piece4 (V3 m c)
def V5 : Valuation τ sig (Elt Ideal) := after Piece5 (V4 m c)
def V6 : Valuation τ sig (Elt Ideal) := after Piece6 (V5 m c)
def V7 : Valuation τ sig (Elt Ideal) := after Piece7 (V6 m c)
def V8 : Valuation τ sig (Elt Ideal) := after Piece8 (V7 m c)
def V9 : Valuation τ sig (Elt Ideal) := after Piece9 (V8 m c)
def V10 : Valuation τ sig (Elt Ideal) := after Piece10 (V9 m c)
def V11 : Valuation τ sig (Elt Ideal) := after Piece11 (V10 m c)
def V12 : Valuation τ sig (Elt Ideal) := after Piece12 (V11 m c)

theorem after_ops : after ops (launchContents m c) = V12 m c := by
  rw [ops_eq]
  simp only [after_append]
  rfl

/-! ## Piece 1: the first dense product and the edge lists -/

theorem V1_v0 : V1 m c (Proc.devRef .tc main_v0) = Cert.GcnSpec.mm (aX m c) (aW1 m c) := by
  unfold V1; after_results_simp
  exact Stages.dot1_eq _ _
theorem V1_v4 : V1 m c (Proc.devRef .tc main_v4) = Cert.KernelIdeal.Glue.srcIdx (F := Ideal) (aE m c) := by
  unfold V1; after_results_simp; rfl
theorem V1_v7 : V1 m c (Proc.devRef .tc main_v7) = Cert.KernelIdeal.Glue.dstIdx (F := Ideal) (aE m c) := by
  unfold V1; after_results_simp; rfl
theorem V1_arg1 : V1 m c (Proc.devRef .tc main_arg1) = aE m c := by
  unfold V1; after_results_simp
theorem V1_arg3 : V1 m c (Proc.devRef .tc main_arg3) = aB1 m c := by
  unfold V1; after_results_simp
theorem V1_arg4 : V1 m c (Proc.devRef .tc main_arg4) = aW2 m c := by
  unfold V1; after_results_simp
theorem V1_arg5 : V1 m c (Proc.devRef .tc main_arg5) = aB2 m c := by
  unfold V1; after_results_simp

/-! ## Piece 2: the degrees, compared with zero and under the inverse square root -/

theorem V2_v13 : V2 m c (Proc.devRef .tc main_v13)
    = cmpf (F := Ideal) .ogt (Cert.KernelIdeal.Glue.deg (F := Ideal) (aE m c)) (broadcastInDim S100000 ![] bcast_S_S100000 (constant S_ .f32 0x00000000#32)) := by
  unfold V2; after_results_simp; rw [V1_v7]; rfl
theorem V2_v14 : V2 m c (Proc.devRef .tc main_v14) = Host.rsqrt (F := Ideal) (s := S100000) (φ := .f32) (Cert.KernelIdeal.Glue.deg (F := Ideal) (aE m c)) := by
  unfold V2; after_results_simp; rw [V1_v7]; rfl
theorem V2_v0 : V2 m c (Proc.devRef .tc main_v0) = Cert.GcnSpec.mm (aX m c) (aW1 m c) := by
  unfold V2; after_results_simp; exact V1_v0 m c
theorem V2_v4 : V2 m c (Proc.devRef .tc main_v4) = Cert.KernelIdeal.Glue.srcIdx (F := Ideal) (aE m c) := by
  unfold V2; after_results_simp; exact V1_v4 m c
theorem V2_v7 : V2 m c (Proc.devRef .tc main_v7) = Cert.KernelIdeal.Glue.dstIdx (F := Ideal) (aE m c) := by
  unfold V2; after_results_simp; exact V1_v7 m c
theorem V2_arg1 : V2 m c (Proc.devRef .tc main_arg1) = aE m c := by
  unfold V2; after_results_simp; exact V1_arg1 m c
theorem V2_arg3 : V2 m c (Proc.devRef .tc main_arg3) = aB1 m c := by
  unfold V2; after_results_simp; exact V1_arg3 m c
theorem V2_arg4 : V2 m c (Proc.devRef .tc main_arg4) = aW2 m c := by
  unfold V2; after_results_simp; exact V1_arg4 m c
theorem V2_arg5 : V2 m c (Proc.devRef .tc main_arg5) = aB2 m c := by
  unfold V2; after_results_simp; exact V1_arg5 m c

/-! ## Piece 3: the inverse square roots of the positive degrees -/

theorem V3_v15 : V3 m c (Proc.devRef .tc main_v15) = Cert.KernelIdeal.Glue.dinv (F := Ideal) (aE m c) := by
  have hc := V2_v13 m c
  have hr := V2_v14 m c
  unfold V3
  generalize V2 m c = W at hc hr ⊢
  after_results_simp
  refine Eq.trans (b := select (s := S100000) (W (Proc.devRef .tc main_v13)) (W (Proc.devRef .tc main_v14))
    (broadcastInDim S100000 ![] bcast_S_S100000 (id (constant (F := Ideal) S_ .f32 0x00000000#32)))) rfl ?_
  rw [hc, hr]; unfold Cert.KernelIdeal.Glue.dinv; rfl
theorem V3_v0 : V3 m c (Proc.devRef .tc main_v0) = Cert.GcnSpec.mm (aX m c) (aW1 m c) := by
  unfold V3; after_results_simp; exact V2_v0 m c
theorem V3_v4 : V3 m c (Proc.devRef .tc main_v4) = Cert.KernelIdeal.Glue.srcIdx (F := Ideal) (aE m c) := by
  unfold V3; after_results_simp; exact V2_v4 m c
theorem V3_v7 : V3 m c (Proc.devRef .tc main_v7) = Cert.KernelIdeal.Glue.dstIdx (F := Ideal) (aE m c) := by
  unfold V3; after_results_simp; exact V2_v7 m c
theorem V3_arg1 : V3 m c (Proc.devRef .tc main_arg1) = aE m c := by
  unfold V3; after_results_simp; exact V2_arg1 m c
theorem V3_arg3 : V3 m c (Proc.devRef .tc main_arg3) = aB1 m c := by
  unfold V3; after_results_simp; exact V2_arg3 m c
theorem V3_arg4 : V3 m c (Proc.devRef .tc main_arg4) = aW2 m c := by
  unfold V3; after_results_simp; exact V2_arg4 m c
theorem V3_arg5 : V3 m c (Proc.devRef .tc main_arg5) = aB2 m c := by
  unfold V3; after_results_simp; exact V2_arg5 m c

/-! ## Piece 4: the first aggregation, with the bias added -/

theorem V4_v46 : V4 m c (Proc.devRef .tc main_v46)
    = addf (F := Ideal) (s := S100000x16) (φ := .f32) (Cert.KernelIdeal.Glue.agg16 (F := Ideal) (aE m c) (Cert.GcnSpec.mm (aX m c) (aW1 m c)))
        (broadcastInDim S100000x16 ![0, 1] bcast_S1x16_S100000x16_0_1 (broadcastInDim S1x16 ![1] bcast_S16_S1x16_1 (aB1 m c))) := by
  unfold V4; after_results_simp; rw [V3_v4, V3_v7, V3_v15, V3_v0, V3_arg3]
  unfold Cert.KernelIdeal.Glue.agg16 Cert.KernelIdeal.Glue.norm Cert.KernelIdeal.Glue.wrapIdx; rfl
theorem V4_arg1 : V4 m c (Proc.devRef .tc main_arg1) = aE m c := by
  unfold V4; after_results_simp; exact V3_arg1 m c
theorem V4_arg4 : V4 m c (Proc.devRef .tc main_arg4) = aW2 m c := by
  unfold V4; after_results_simp; exact V3_arg4 m c
theorem V4_arg5 : V4 m c (Proc.devRef .tc main_arg5) = aB2 m c := by
  unfold V4; after_results_simp; exact V3_arg5 m c

/-! ## Piece 5: the positive part -/

theorem V5_v47 : V5 m c (Proc.devRef .tc main_v47) = Cert.GcnSpec.biasRelu (Cert.KernelIdeal.Glue.agg16 (F := Ideal) (aE m c) (Cert.GcnSpec.mm (aX m c) (aW1 m c))) (shapeCast Cert.KernelIdeal.S1x16 (aB1 m c) Cert.KernelIdeal.Facts₀.shapeCasts_S16_S1x16) := by
  have h46 := V4_v46 m c
  unfold V5
  generalize V4 m c = W at h46 ⊢
  after_results_simp
  refine Eq.trans (b := maximumf (F := Ideal) (s := S100000x16) (φ := .f32) (W (Proc.devRef .tc main_v46))
    (broadcastInDim S100000x16 ![] bcast_S_S100000x16 (constant (F := Ideal) S_ .f32 0x00000000#32))) rfl ?_
  rw [h46]
  exact Stages.relu_eq _ _ _
theorem V5_arg1 : V5 m c (Proc.devRef .tc main_arg1) = aE m c := by
  unfold V5; after_results_simp; exact V4_arg1 m c
theorem V5_arg4 : V5 m c (Proc.devRef .tc main_arg4) = aW2 m c := by
  unfold V5; after_results_simp; exact V4_arg4 m c
theorem V5_arg5 : V5 m c (Proc.devRef .tc main_arg5) = aB2 m c := by
  unfold V5; after_results_simp; exact V4_arg5 m c

/-! ## Piece 6: the second dense product and the edge lists again -/

theorem V6_v48 : V6 m c (Proc.devRef .tc main_v48) = Cert.GcnSpec.mm (Cert.GcnSpec.biasRelu (Cert.KernelIdeal.Glue.agg16 (F := Ideal) (aE m c) (Cert.GcnSpec.mm (aX m c) (aW1 m c))) (shapeCast Cert.KernelIdeal.S1x16 (aB1 m c) Cert.KernelIdeal.Facts₀.shapeCasts_S16_S1x16)) (aW2 m c) := by
  unfold V6; after_results_simp; rw [V5_v47, V5_arg4]
  exact Stages.dot2_eq _ _
/-- From any contents, piece 6 leaves the sources (row 0 of the edge list, then every node) in its fifth buffer. -/
theorem piece6_v52 (W : Valuation τ sig (Elt Ideal)) : after Piece6 W (Proc.devRef .tc main_v52)
    = Cert.KernelIdeal.Glue.srcIdx (F := Ideal) (W (Proc.devRef .tc main_arg1)) := by
  after_results_simp; rfl
/-- From any contents, piece 6 leaves the destinations (row 1 of the edge list, then every node) in its last buffer. -/
theorem piece6_v55 (W : Valuation τ sig (Elt Ideal)) : after Piece6 W (Proc.devRef .tc main_v55)
    = Cert.KernelIdeal.Glue.dstIdx (F := Ideal) (W (Proc.devRef .tc main_arg1)) := by
  after_results_simp; rfl
theorem V6_v52 : V6 m c (Proc.devRef .tc main_v52) = Cert.KernelIdeal.Glue.srcIdx (F := Ideal) (aE m c) := by
  unfold V6; rw [piece6_v52, V5_arg1]
theorem V6_v55 : V6 m c (Proc.devRef .tc main_v55) = Cert.KernelIdeal.Glue.dstIdx (F := Ideal) (aE m c) := by
  unfold V6; rw [piece6_v55, V5_arg1]
theorem V6_arg5 : V6 m c (Proc.devRef .tc main_arg5) = aB2 m c := by
  unfold V6; after_results_simp; exact V5_arg5 m c

/-! ## Piece 7: the degrees again -/

theorem V7_v61 : V7 m c (Proc.devRef .tc main_v61)
    = cmpf (F := Ideal) .ogt (Cert.KernelIdeal.Glue.deg (F := Ideal) (aE m c)) (broadcastInDim S100000 ![] bcast_S_S100000 (constant S_ .f32 0x00000000#32)) := by
  unfold V7; after_results_simp; rw [V6_v55]; rfl
theorem V7_v62 : V7 m c (Proc.devRef .tc main_v62) = Host.rsqrt (F := Ideal) (s := S100000) (φ := .f32) (Cert.KernelIdeal.Glue.deg (F := Ideal) (aE m c)) := by
  unfold V7; after_results_simp; rw [V6_v55]; rfl
theorem V7_v48 : V7 m c (Proc.devRef .tc main_v48) = Cert.GcnSpec.mm (Cert.GcnSpec.biasRelu (Cert.KernelIdeal.Glue.agg16 (F := Ideal) (aE m c) (Cert.GcnSpec.mm (aX m c) (aW1 m c))) (shapeCast Cert.KernelIdeal.S1x16 (aB1 m c) Cert.KernelIdeal.Facts₀.shapeCasts_S16_S1x16)) (aW2 m c) := by
  unfold V7; after_results_simp; exact V6_v48 m c
theorem V7_v52 : V7 m c (Proc.devRef .tc main_v52) = Cert.KernelIdeal.Glue.srcIdx (F := Ideal) (aE m c) := by
  unfold V7; after_results_simp; exact V6_v52 m c
theorem V7_v55 : V7 m c (Proc.devRef .tc main_v55) = Cert.KernelIdeal.Glue.dstIdx (F := Ideal) (aE m c) := by
  unfold V7; after_results_simp; exact V6_v55 m c
theorem V7_arg5 : V7 m c (Proc.devRef .tc main_arg5) = aB2 m c := by
  unfold V7; after_results_simp; exact V6_arg5 m c

/-! ## Piece 8: the inverse square roots again -/

theorem V8_v63 : V8 m c (Proc.devRef .tc main_v63) = Cert.KernelIdeal.Glue.dinv (F := Ideal) (aE m c) := by
  have hc := V7_v61 m c
  have hr := V7_v62 m c
  unfold V8
  generalize V7 m c = W at hc hr ⊢
  after_results_simp
  refine Eq.trans (b := select (s := S100000) (W (Proc.devRef .tc main_v61)) (W (Proc.devRef .tc main_v62))
    (broadcastInDim S100000 ![] bcast_S_S100000 (id (constant (F := Ideal) S_ .f32 0x00000000#32)))) rfl ?_
  rw [hc, hr]; unfold Cert.KernelIdeal.Glue.dinv; rfl
theorem V8_v48 : V8 m c (Proc.devRef .tc main_v48) = Cert.GcnSpec.mm (Cert.GcnSpec.biasRelu (Cert.KernelIdeal.Glue.agg16 (F := Ideal) (aE m c) (Cert.GcnSpec.mm (aX m c) (aW1 m c))) (shapeCast Cert.KernelIdeal.S1x16 (aB1 m c) Cert.KernelIdeal.Facts₀.shapeCasts_S16_S1x16)) (aW2 m c) := by
  unfold V8; after_results_simp; exact V7_v48 m c
theorem V8_v52 : V8 m c (Proc.devRef .tc main_v52) = Cert.KernelIdeal.Glue.srcIdx (F := Ideal) (aE m c) := by
  unfold V8; after_results_simp; exact V7_v52 m c
theorem V8_v55 : V8 m c (Proc.devRef .tc main_v55) = Cert.KernelIdeal.Glue.dstIdx (F := Ideal) (aE m c) := by
  unfold V8; after_results_simp; exact V7_v55 m c
theorem V8_arg5 : V8 m c (Proc.devRef .tc main_arg5) = aB2 m c := by
  unfold V8; after_results_simp; exact V7_arg5 m c

/-! ## Piece 9: the second aggregation, with the bias added -/

theorem V9_v94 : V9 m c (Proc.devRef .tc main_v94)
    = addf (F := Ideal) (s := S100000x7) (φ := .f32) (Cert.KernelIdeal.Glue.agg7 (F := Ideal) (aE m c) (Cert.GcnSpec.mm (Cert.GcnSpec.biasRelu (Cert.KernelIdeal.Glue.agg16 (F := Ideal) (aE m c) (Cert.GcnSpec.mm (aX m c) (aW1 m c))) (shapeCast Cert.KernelIdeal.S1x16 (aB1 m c) Cert.KernelIdeal.Facts₀.shapeCasts_S16_S1x16)) (aW2 m c)))
        (broadcastInDim S100000x7 ![0, 1] bcast_S1x7_S100000x7_0_1 (broadcastInDim S1x7 ![1] bcast_S7_S1x7_1 (aB2 m c))) := by
  unfold V9; after_results_simp; rw [V8_v52, V8_v55, V8_v63, V8_v48, V8_arg5]
  unfold Cert.KernelIdeal.Glue.agg7 Cert.KernelIdeal.Glue.norm Cert.KernelIdeal.Glue.wrapIdx; rfl

/-! ## Pieces 10 to 12: the row-wise log-softmax — the row maxima, the shifted rows and their exponentials, the result -/

/-- Contents carried to a buffer's type and back are the contents. -/
theorem ofBuf_toBuf {T : BufTy} (x : TRef sig T) (v : T.Contents (Elt Ideal)) : x.ofBuf (x.toBuf v) = v := by
  obtain ⟨r, h, hd, hu⟩ := x; subst h; rfl
/-- Contents carried to a buffer's type are what, carried back, they came from. -/
theorem toBuf_eq_of {T : BufTy} (x : TRef sig T) (v : T.Contents (Elt Ideal)) (w : x.ref.ty.Contents (Elt Ideal))
    (h : v = x.ofBuf w) : x.toBuf v = w := by
  obtain ⟨r, h', hd, hu⟩ := x; subst h'; exact h

theorem V10_c2 : V10 m c (Proc.devRef .tc main_call3_v2) = (maximumf (F := Ideal) (s := S100000) (φ := .f32) (broadcastInDim S100000 ![] bcast_S_S100000 (constant (F := Ideal) S_ .f32 0xFF800000#32)) (Host.reduce FloatOps.maximumf (addf (F := Ideal) (s := S100000x7) (φ := .f32) (Cert.KernelIdeal.Glue.agg7 (F := Ideal) (aE m c) (Cert.GcnSpec.mm (Cert.GcnSpec.biasRelu (Cert.KernelIdeal.Glue.agg16 (F := Ideal) (aE m c) (Cert.GcnSpec.mm (aX m c) (aW1 m c))) (shapeCast Cert.KernelIdeal.S1x16 (aB1 m c) Cert.KernelIdeal.Facts₀.shapeCasts_S16_S1x16)) (aW2 m c)))
        (broadcastInDim S100000x7 ![0, 1] bcast_S1x7_S100000x7_0_1 (broadcastInDim S1x7 ![1] bcast_S7_S1x7_1 (aB2 m c)))) (constant (F := Ideal) S_ .f32 0xFF800000#32) reducesTo_S100000x7_S100000_d1 h_S_)) := by
  have h94 := V9_v94 m c
  unfold V10
  generalize V9 m c = W at h94 ⊢
  after_results_simp
  simp only [ofBuf_toBuf]
  apply toBuf_eq_of
  rw [h94]
  rw [show ((TRef.of (sig := sig) (T := ⟨S100000x7, .f32⟩) main_v94).ofBuf (Val := Elt Ideal) (addf (F := Ideal) (s := S100000x7) (φ := .f32) (Cert.KernelIdeal.Glue.agg7 (F := Ideal) (aE m c) (Cert.GcnSpec.mm (Cert.GcnSpec.biasRelu (Cert.KernelIdeal.Glue.agg16 (F := Ideal) (aE m c) (Cert.GcnSpec.mm (aX m c) (aW1 m c))) (shapeCast Cert.KernelIdeal.S1x16 (aB1 m c) Cert.KernelIdeal.Facts₀.shapeCasts_S16_S1x16)) (aW2 m c)))
        (broadcastInDim S100000x7 ![0, 1] bcast_S1x7_S100000x7_0_1 (broadcastInDim S1x7 ![1] bcast_S7_S1x7_1 (aB2 m c)))) : (⟨S100000x7, .f32⟩ : BufTy).Contents (Elt Ideal)) = (addf (F := Ideal) (s := S100000x7) (φ := .f32) (Cert.KernelIdeal.Glue.agg7 (F := Ideal) (aE m c) (Cert.GcnSpec.mm (Cert.GcnSpec.biasRelu (Cert.KernelIdeal.Glue.agg16 (F := Ideal) (aE m c) (Cert.GcnSpec.mm (aX m c) (aW1 m c))) (shapeCast Cert.KernelIdeal.S1x16 (aB1 m c) Cert.KernelIdeal.Facts₀.shapeCasts_S16_S1x16)) (aW2 m c)))
        (broadcastInDim S100000x7 ![0, 1] bcast_S1x7_S100000x7_0_1 (broadcastInDim S1x7 ![1] bcast_S7_S1x7_1 (aB2 m c)))) from rfl]
  rw [show ((TRef.of (sig := sig) (T := ⟨S100000, .f32⟩) main_call3_v2).ofBuf (Val := Elt Ideal) (maximumf (F := Ideal) (s := S100000) (φ := .f32) (broadcastInDim S100000 ![] bcast_S_S100000 (constant (F := Ideal) S_ .f32 0xFF800000#32)) (Host.reduce FloatOps.maximumf (addf (F := Ideal) (s := S100000x7) (φ := .f32) (Cert.KernelIdeal.Glue.agg7 (F := Ideal) (aE m c) (Cert.GcnSpec.mm (Cert.GcnSpec.biasRelu (Cert.KernelIdeal.Glue.agg16 (F := Ideal) (aE m c) (Cert.GcnSpec.mm (aX m c) (aW1 m c))) (shapeCast Cert.KernelIdeal.S1x16 (aB1 m c) Cert.KernelIdeal.Facts₀.shapeCasts_S16_S1x16)) (aW2 m c)))
        (broadcastInDim S100000x7 ![0, 1] bcast_S1x7_S100000x7_0_1 (broadcastInDim S1x7 ![1] bcast_S7_S1x7_1 (aB2 m c)))) (constant (F := Ideal) S_ .f32 0xFF800000#32) reducesTo_S100000x7_S100000_d1 h_S_)) : (⟨S100000, .f32⟩ : BufTy).Contents (Elt Ideal)) = (maximumf (F := Ideal) (s := S100000) (φ := .f32) (broadcastInDim S100000 ![] bcast_S_S100000 (constant (F := Ideal) S_ .f32 0xFF800000#32)) (Host.reduce FloatOps.maximumf (addf (F := Ideal) (s := S100000x7) (φ := .f32) (Cert.KernelIdeal.Glue.agg7 (F := Ideal) (aE m c) (Cert.GcnSpec.mm (Cert.GcnSpec.biasRelu (Cert.KernelIdeal.Glue.agg16 (F := Ideal) (aE m c) (Cert.GcnSpec.mm (aX m c) (aW1 m c))) (shapeCast Cert.KernelIdeal.S1x16 (aB1 m c) Cert.KernelIdeal.Facts₀.shapeCasts_S16_S1x16)) (aW2 m c)))
        (broadcastInDim S100000x7 ![0, 1] bcast_S1x7_S100000x7_0_1 (broadcastInDim S1x7 ![1] bcast_S7_S1x7_1 (aB2 m c)))) (constant (F := Ideal) S_ .f32 0xFF800000#32) reducesTo_S100000x7_S100000_d1 h_S_)) from rfl]
theorem V10_v94 : V10 m c (Proc.devRef .tc main_v94) = (addf (F := Ideal) (s := S100000x7) (φ := .f32) (Cert.KernelIdeal.Glue.agg7 (F := Ideal) (aE m c) (Cert.GcnSpec.mm (Cert.GcnSpec.biasRelu (Cert.KernelIdeal.Glue.agg16 (F := Ideal) (aE m c) (Cert.GcnSpec.mm (aX m c) (aW1 m c))) (shapeCast Cert.KernelIdeal.S1x16 (aB1 m c) Cert.KernelIdeal.Facts₀.shapeCasts_S16_S1x16)) (aW2 m c)))
        (broadcastInDim S100000x7 ![0, 1] bcast_S1x7_S100000x7_0_1 (broadcastInDim S1x7 ![1] bcast_S7_S1x7_1 (aB2 m c)))) := by
  unfold V10; after_results_simp; exact V9_v94 m c

theorem V11_c5 : V11 m c (Proc.devRef .tc main_call3_v5) = (subf (F := Ideal) (s := S100000x7) (φ := .f32) (addf (F := Ideal) (s := S100000x7) (φ := .f32) (Cert.KernelIdeal.Glue.agg7 (F := Ideal) (aE m c) (Cert.GcnSpec.mm (Cert.GcnSpec.biasRelu (Cert.KernelIdeal.Glue.agg16 (F := Ideal) (aE m c) (Cert.GcnSpec.mm (aX m c) (aW1 m c))) (shapeCast Cert.KernelIdeal.S1x16 (aB1 m c) Cert.KernelIdeal.Facts₀.shapeCasts_S16_S1x16)) (aW2 m c)))
        (broadcastInDim S100000x7 ![0, 1] bcast_S1x7_S100000x7_0_1 (broadcastInDim S1x7 ![1] bcast_S7_S1x7_1 (aB2 m c)))) (broadcastInDim S100000x7 ![0, 1] bcast_S100000x1_S100000x7_0_1 (broadcastInDim S100000x1 ![0] bcast_S100000_S100000x1_0 (maximumf (F := Ideal) (s := S100000) (φ := .f32) (broadcastInDim S100000 ![] bcast_S_S100000 (constant (F := Ideal) S_ .f32 0xFF800000#32)) (Host.reduce FloatOps.maximumf (addf (F := Ideal) (s := S100000x7) (φ := .f32) (Cert.KernelIdeal.Glue.agg7 (F := Ideal) (aE m c) (Cert.GcnSpec.mm (Cert.GcnSpec.biasRelu (Cert.KernelIdeal.Glue.agg16 (F := Ideal) (aE m c) (Cert.GcnSpec.mm (aX m c) (aW1 m c))) (shapeCast Cert.KernelIdeal.S1x16 (aB1 m c) Cert.KernelIdeal.Facts₀.shapeCasts_S16_S1x16)) (aW2 m c)))
        (broadcastInDim S100000x7 ![0, 1] bcast_S1x7_S100000x7_0_1 (broadcastInDim S1x7 ![1] bcast_S7_S1x7_1 (aB2 m c)))) (constant (F := Ideal) S_ .f32 0xFF800000#32) reducesTo_S100000x7_S100000_d1 h_S_))))) := by
  have h94 := V10_v94 m c
  have hM := V10_c2 m c
  unfold V11
  generalize V10 m c = W at h94 hM ⊢
  after_results_simp
  simp only [ofBuf_toBuf]
  apply toBuf_eq_of
  rw [h94, hM]
  rw [show ((TRef.of (sig := sig) (T := ⟨S100000x7, .f32⟩) main_v94).ofBuf (Val := Elt Ideal) (addf (F := Ideal) (s := S100000x7) (φ := .f32) (Cert.KernelIdeal.Glue.agg7 (F := Ideal) (aE m c) (Cert.GcnSpec.mm (Cert.GcnSpec.biasRelu (Cert.KernelIdeal.Glue.agg16 (F := Ideal) (aE m c) (Cert.GcnSpec.mm (aX m c) (aW1 m c))) (shapeCast Cert.KernelIdeal.S1x16 (aB1 m c) Cert.KernelIdeal.Facts₀.shapeCasts_S16_S1x16)) (aW2 m c)))
        (broadcastInDim S100000x7 ![0, 1] bcast_S1x7_S100000x7_0_1 (broadcastInDim S1x7 ![1] bcast_S7_S1x7_1 (aB2 m c)))) : (⟨S100000x7, .f32⟩ : BufTy).Contents (Elt Ideal)) = (addf (F := Ideal) (s := S100000x7) (φ := .f32) (Cert.KernelIdeal.Glue.agg7 (F := Ideal) (aE m c) (Cert.GcnSpec.mm (Cert.GcnSpec.biasRelu (Cert.KernelIdeal.Glue.agg16 (F := Ideal) (aE m c) (Cert.GcnSpec.mm (aX m c) (aW1 m c))) (shapeCast Cert.KernelIdeal.S1x16 (aB1 m c) Cert.KernelIdeal.Facts₀.shapeCasts_S16_S1x16)) (aW2 m c)))
        (broadcastInDim S100000x7 ![0, 1] bcast_S1x7_S100000x7_0_1 (broadcastInDim S1x7 ![1] bcast_S7_S1x7_1 (aB2 m c)))) from rfl]
  rw [show ((TRef.of (sig := sig) (T := ⟨S100000, .f32⟩) main_call3_v2).ofBuf (Val := Elt Ideal) (maximumf (F := Ideal) (s := S100000) (φ := .f32) (broadcastInDim S100000 ![] bcast_S_S100000 (constant (F := Ideal) S_ .f32 0xFF800000#32)) (Host.reduce FloatOps.maximumf (addf (F := Ideal) (s := S100000x7) (φ := .f32) (Cert.KernelIdeal.Glue.agg7 (F := Ideal) (aE m c) (Cert.GcnSpec.mm (Cert.GcnSpec.biasRelu (Cert.KernelIdeal.Glue.agg16 (F := Ideal) (aE m c) (Cert.GcnSpec.mm (aX m c) (aW1 m c))) (shapeCast Cert.KernelIdeal.S1x16 (aB1 m c) Cert.KernelIdeal.Facts₀.shapeCasts_S16_S1x16)) (aW2 m c)))
        (broadcastInDim S100000x7 ![0, 1] bcast_S1x7_S100000x7_0_1 (broadcastInDim S1x7 ![1] bcast_S7_S1x7_1 (aB2 m c)))) (constant (F := Ideal) S_ .f32 0xFF800000#32) reducesTo_S100000x7_S100000_d1 h_S_)) : (⟨S100000, .f32⟩ : BufTy).Contents (Elt Ideal)) = (maximumf (F := Ideal) (s := S100000) (φ := .f32) (broadcastInDim S100000 ![] bcast_S_S100000 (constant (F := Ideal) S_ .f32 0xFF800000#32)) (Host.reduce FloatOps.maximumf (addf (F := Ideal) (s := S100000x7) (φ := .f32) (Cert.KernelIdeal.Glue.agg7 (F := Ideal) (aE m c) (Cert.GcnSpec.mm (Cert.GcnSpec.biasRelu (Cert.KernelIdeal.Glue.agg16 (F := Ideal) (aE m c) (Cert.GcnSpec.mm (aX m c) (aW1 m c))) (shapeCast Cert.KernelIdeal.S1x16 (aB1 m c) Cert.KernelIdeal.Facts₀.shapeCasts_S16_S1x16)) (aW2 m c)))
        (broadcastInDim S100000x7 ![0, 1] bcast_S1x7_S100000x7_0_1 (broadcastInDim S1x7 ![1] bcast_S7_S1x7_1 (aB2 m c)))) (constant (F := Ideal) S_ .f32 0xFF800000#32) reducesTo_S100000x7_S100000_d1 h_S_)) from rfl]
  rw [show ((TRef.of (sig := sig) (T := ⟨S100000x7, .f32⟩) main_call3_v5).ofBuf (Val := Elt Ideal) (subf (F := Ideal) (s := S100000x7) (φ := .f32) (addf (F := Ideal) (s := S100000x7) (φ := .f32) (Cert.KernelIdeal.Glue.agg7 (F := Ideal) (aE m c) (Cert.GcnSpec.mm (Cert.GcnSpec.biasRelu (Cert.KernelIdeal.Glue.agg16 (F := Ideal) (aE m c) (Cert.GcnSpec.mm (aX m c) (aW1 m c))) (shapeCast Cert.KernelIdeal.S1x16 (aB1 m c) Cert.KernelIdeal.Facts₀.shapeCasts_S16_S1x16)) (aW2 m c)))
        (broadcastInDim S100000x7 ![0, 1] bcast_S1x7_S100000x7_0_1 (broadcastInDim S1x7 ![1] bcast_S7_S1x7_1 (aB2 m c)))) (broadcastInDim S100000x7 ![0, 1] bcast_S100000x1_S100000x7_0_1 (broadcastInDim S100000x1 ![0] bcast_S100000_S100000x1_0 (maximumf (F := Ideal) (s := S100000) (φ := .f32) (broadcastInDim S100000 ![] bcast_S_S100000 (constant (F := Ideal) S_ .f32 0xFF800000#32)) (Host.reduce FloatOps.maximumf (addf (F := Ideal) (s := S100000x7) (φ := .f32) (Cert.KernelIdeal.Glue.agg7 (F := Ideal) (aE m c) (Cert.GcnSpec.mm (Cert.GcnSpec.biasRelu (Cert.KernelIdeal.Glue.agg16 (F := Ideal) (aE m c) (Cert.GcnSpec.mm (aX m c) (aW1 m c))) (shapeCast Cert.KernelIdeal.S1x16 (aB1 m c) Cert.KernelIdeal.Facts₀.shapeCasts_S16_S1x16)) (aW2 m c)))
        (broadcastInDim S100000x7 ![0, 1] bcast_S1x7_S100000x7_0_1 (broadcastInDim S1x7 ![1] bcast_S7_S1x7_1 (aB2 m c)))) (constant (F := Ideal) S_ .f32 0xFF800000#32) reducesTo_S100000x7_S100000_d1 h_S_))))) : (⟨S100000x7, .f32⟩ : BufTy).Contents (Elt Ideal)) = (subf (F := Ideal) (s := S100000x7) (φ := .f32) (addf (F := Ideal) (s := S100000x7) (φ := .f32) (Cert.KernelIdeal.Glue.agg7 (F := Ideal) (aE m c) (Cert.GcnSpec.mm (Cert.GcnSpec.biasRelu (Cert.KernelIdeal.Glue.agg16 (F := Ideal) (aE m c) (Cert.GcnSpec.mm (aX m c) (aW1 m c))) (shapeCast Cert.KernelIdeal.S1x16 (aB1 m c) Cert.KernelIdeal.Facts₀.shapeCasts_S16_S1x16)) (aW2 m c)))
        (broadcastInDim S100000x7 ![0, 1] bcast_S1x7_S100000x7_0_1 (broadcastInDim S1x7 ![1] bcast_S7_S1x7_1 (aB2 m c)))) (broadcastInDim S100000x7 ![0, 1] bcast_S100000x1_S100000x7_0_1 (broadcastInDim S100000x1 ![0] bcast_S100000_S100000x1_0 (maximumf (F := Ideal) (s := S100000) (φ := .f32) (broadcastInDim S100000 ![] bcast_S_S100000 (constant (F := Ideal) S_ .f32 0xFF800000#32)) (Host.reduce FloatOps.maximumf (addf (F := Ideal) (s := S100000x7) (φ := .f32) (Cert.KernelIdeal.Glue.agg7 (F := Ideal) (aE m c) (Cert.GcnSpec.mm (Cert.GcnSpec.biasRelu (Cert.KernelIdeal.Glue.agg16 (F := Ideal) (aE m c) (Cert.GcnSpec.mm (aX m c) (aW1 m c))) (shapeCast Cert.KernelIdeal.S1x16 (aB1 m c) Cert.KernelIdeal.Facts₀.shapeCasts_S16_S1x16)) (aW2 m c)))
        (broadcastInDim S100000x7 ![0, 1] bcast_S1x7_S100000x7_0_1 (broadcastInDim S1x7 ![1] bcast_S7_S1x7_1 (aB2 m c)))) (constant (F := Ideal) S_ .f32 0xFF800000#32) reducesTo_S100000x7_S100000_d1 h_S_))))) from rfl]
theorem V11_c6 : V11 m c (Proc.devRef .tc main_call3_v6) = (Host.exp (F := Ideal) (s := S100000x7) (φ := .f32) (subf (F := Ideal) (s := S100000x7) (φ := .f32) (addf (F := Ideal) (s := S100000x7) (φ := .f32) (Cert.KernelIdeal.Glue.agg7 (F := Ideal) (aE m c) (Cert.GcnSpec.mm (Cert.GcnSpec.biasRelu (Cert.KernelIdeal.Glue.agg16 (F := Ideal) (aE m c) (Cert.GcnSpec.mm (aX m c) (aW1 m c))) (shapeCast Cert.KernelIdeal.S1x16 (aB1 m c) Cert.KernelIdeal.Facts₀.shapeCasts_S16_S1x16)) (aW2 m c)))
        (broadcastInDim S100000x7 ![0, 1] bcast_S1x7_S100000x7_0_1 (broadcastInDim S1x7 ![1] bcast_S7_S1x7_1 (aB2 m c)))) (broadcastInDim S100000x7 ![0, 1] bcast_S100000x1_S100000x7_0_1 (broadcastInDim S100000x1 ![0] bcast_S100000_S100000x1_0 (maximumf (F := Ideal) (s := S100000) (φ := .f32) (broadcastInDim S100000 ![] bcast_S_S100000 (constant (F := Ideal) S_ .f32 0xFF800000#32)) (Host.reduce FloatOps.maximumf (addf (F := Ideal) (s := S100000x7) (φ := .f32) (Cert.KernelIdeal.Glue.agg7 (F := Ideal) (aE m c) (Cert.GcnSpec.mm (Cert.GcnSpec.biasRelu (Cert.KernelIdeal.Glue.agg16 (F := Ideal) (aE m c) (Cert.GcnSpec.mm (aX m c) (aW1 m c))) (shapeCast Cert.KernelIdeal.S1x16 (aB1 m c) Cert.KernelIdeal.Facts₀.shapeCasts_S16_S1x16)) (aW2 m c)))
        (broadcastInDim S100000x7 ![0, 1] bcast_S1x7_S100000x7_0_1 (broadcastInDim S1x7 ![1] bcast_S7_S1x7_1 (aB2 m c)))) (constant (F := Ideal) S_ .f32 0xFF800000#32) reducesTo_S100000x7_S100000_d1 h_S_)))))) := by
  have h94 := V10_v94 m c
  have hM := V10_c2 m c
  unfold V11
  generalize V10 m c = W at h94 hM ⊢
  after_results_simp
  simp only [ofBuf_toBuf]
  apply toBuf_eq_of
  rw [h94, hM]
  rw [show ((TRef.of (sig := sig) (T := ⟨S100000x7, .f32⟩) main_v94).ofBuf (Val := Elt Ideal) (addf (F := Ideal) (s := S100000x7) (φ := .f32) (Cert.KernelIdeal.Glue.agg7 (F := Ideal) (aE m c) (Cert.GcnSpec.mm (Cert.GcnSpec.biasRelu (Cert.KernelIdeal.Glue.agg16 (F := Ideal) (aE m c) (Cert.GcnSpec.mm (aX m c) (aW1 m c))) (shapeCast Cert.KernelIdeal.S1x16 (aB1 m c) Cert.KernelIdeal.Facts₀.shapeCasts_S16_S1x16)) (aW2 m c)))
        (broadcastInDim S100000x7 ![0, 1] bcast_S1x7_S100000x7_0_1 (broadcastInDim S1x7 ![1] bcast_S7_S1x7_1 (aB2 m c)))) : (⟨S100000x7, .f32⟩ : BufTy).Contents (Elt Ideal)) = (addf (F := Ideal) (s := S100000x7) (φ := .f32) (Cert.KernelIdeal.Glue.agg7 (F := Ideal) (aE m c) (Cert.GcnSpec.mm (Cert.GcnSpec.biasRelu (Cert.KernelIdeal.Glue.agg16 (F := Ideal) (aE m c) (Cert.GcnSpec.mm (aX m c) (aW1 m c))) (shapeCast Cert.KernelIdeal.S1x16 (aB1 m c) Cert.KernelIdeal.Facts₀.shapeCasts_S16_S1x16)) (aW2 m c)))
        (broadcastInDim S100000x7 ![0, 1] bcast_S1x7_S100000x7_0_1 (broadcastInDim S1x7 ![1] bcast_S7_S1x7_1 (aB2 m c)))) from rfl]
  rw [show ((TRef.of (sig := sig) (T := ⟨S100000, .f32⟩) main_call3_v2).ofBuf (Val := Elt Ideal) (maximumf (F := Ideal) (s := S100000) (φ := .f32) (broadcastInDim S100000 ![] bcast_S_S100000 (constant (F := Ideal) S_ .f32 0xFF800000#32)) (Host.reduce FloatOps.maximumf (addf (F := Ideal) (s := S100000x7) (φ := .f32) (Cert.KernelIdeal.Glue.agg7 (F := Ideal) (aE m c) (Cert.GcnSpec.mm (Cert.GcnSpec.biasRelu (Cert.KernelIdeal.Glue.agg16 (F := Ideal) (aE m c) (Cert.GcnSpec.mm (aX m c) (aW1 m c))) (shapeCast Cert.KernelIdeal.S1x16 (aB1 m c) Cert.KernelIdeal.Facts₀.shapeCasts_S16_S1x16)) (aW2 m c)))
        (broadcastInDim S100000x7 ![0, 1] bcast_S1x7_S100000x7_0_1 (broadcastInDim S1x7 ![1] bcast_S7_S1x7_1 (aB2 m c)))) (constant (F := Ideal) S_ .f32 0xFF800000#32) reducesTo_S100000x7_S100000_d1 h_S_)) : (⟨S100000, .f32⟩ : BufTy).Contents (Elt Ideal)) = (maximumf (F := Ideal) (s := S100000) (φ := .f32) (broadcastInDim S100000 ![] bcast_S_S100000 (constant (F := Ideal) S_ .f32 0xFF800000#32)) (Host.reduce FloatOps.maximumf (addf (F := Ideal) (s := S100000x7) (φ := .f32) (Cert.KernelIdeal.Glue.agg7 (F := Ideal) (aE m c) (Cert.GcnSpec.mm (Cert.GcnSpec.biasRelu (Cert.KernelIdeal.Glue.agg16 (F := Ideal) (aE m c) (Cert.GcnSpec.mm (aX m c) (aW1 m c))) (shapeCast Cert.KernelIdeal.S1x16 (aB1 m c) Cert.KernelIdeal.Facts₀.shapeCasts_S16_S1x16)) (aW2 m c)))
        (broadcastInDim S100000x7 ![0, 1] bcast_S1x7_S100000x7_0_1 (broadcastInDim S1x7 ![1] bcast_S7_S1x7_1 (aB2 m c)))) (constant (F := Ideal) S_ .f32 0xFF800000#32) reducesTo_S100000x7_S100000_d1 h_S_)) from rfl]
  rw [show ((TRef.of (sig := sig) (T := ⟨S100000x7, .f32⟩) main_call3_v6).ofBuf (Val := Elt Ideal) (Host.exp (F := Ideal) (s := S100000x7) (φ := .f32) (subf (F := Ideal) (s := S100000x7) (φ := .f32) (addf (F := Ideal) (s := S100000x7) (φ := .f32) (Cert.KernelIdeal.Glue.agg7 (F := Ideal) (aE m c) (Cert.GcnSpec.mm (Cert.GcnSpec.biasRelu (Cert.KernelIdeal.Glue.agg16 (F := Ideal) (aE m c) (Cert.GcnSpec.mm (aX m c) (aW1 m c))) (shapeCast Cert.KernelIdeal.S1x16 (aB1 m c) Cert.KernelIdeal.Facts₀.shapeCasts_S16_S1x16)) (aW2 m c)))
        (broadcastInDim S100000x7 ![0, 1] bcast_S1x7_S100000x7_0_1 (broadcastInDim S1x7 ![1] bcast_S7_S1x7_1 (aB2 m c)))) (broadcastInDim S100000x7 ![0, 1] bcast_S100000x1_S100000x7_0_1 (broadcastInDim S100000x1 ![0] bcast_S100000_S100000x1_0 (maximumf (F := Ideal) (s := S100000) (φ := .f32) (broadcastInDim S100000 ![] bcast_S_S100000 (constant (F := Ideal) S_ .f32 0xFF800000#32)) (Host.reduce FloatOps.maximumf (addf (F := Ideal) (s := S100000x7) (φ := .f32) (Cert.KernelIdeal.Glue.agg7 (F := Ideal) (aE m c) (Cert.GcnSpec.mm (Cert.GcnSpec.biasRelu (Cert.KernelIdeal.Glue.agg16 (F := Ideal) (aE m c) (Cert.GcnSpec.mm (aX m c) (aW1 m c))) (shapeCast Cert.KernelIdeal.S1x16 (aB1 m c) Cert.KernelIdeal.Facts₀.shapeCasts_S16_S1x16)) (aW2 m c)))
        (broadcastInDim S100000x7 ![0, 1] bcast_S1x7_S100000x7_0_1 (broadcastInDim S1x7 ![1] bcast_S7_S1x7_1 (aB2 m c)))) (constant (F := Ideal) S_ .f32 0xFF800000#32) reducesTo_S100000x7_S100000_d1 h_S_)))))) : (⟨S100000x7, .f32⟩ : BufTy).Contents (Elt Ideal)) = (Host.exp (F := Ideal) (s := S100000x7) (φ := .f32) (subf (F := Ideal) (s := S100000x7) (φ := .f32) (addf (F := Ideal) (s := S100000x7) (φ := .f32) (Cert.KernelIdeal.Glue.agg7 (F := Ideal) (aE m c) (Cert.GcnSpec.mm (Cert.GcnSpec.biasRelu (Cert.KernelIdeal.Glue.agg16 (F := Ideal) (aE m c) (Cert.GcnSpec.mm (aX m c) (aW1 m c))) (shapeCast Cert.KernelIdeal.S1x16 (aB1 m c) Cert.KernelIdeal.Facts₀.shapeCasts_S16_S1x16)) (aW2 m c)))
        (broadcastInDim S100000x7 ![0, 1] bcast_S1x7_S100000x7_0_1 (broadcastInDim S1x7 ![1] bcast_S7_S1x7_1 (aB2 m c)))) (broadcastInDim S100000x7 ![0, 1] bcast_S100000x1_S100000x7_0_1 (broadcastInDim S100000x1 ![0] bcast_S100000_S100000x1_0 (maximumf (F := Ideal) (s := S100000) (φ := .f32) (broadcastInDim S100000 ![] bcast_S_S100000 (constant (F := Ideal) S_ .f32 0xFF800000#32)) (Host.reduce FloatOps.maximumf (addf (F := Ideal) (s := S100000x7) (φ := .f32) (Cert.KernelIdeal.Glue.agg7 (F := Ideal) (aE m c) (Cert.GcnSpec.mm (Cert.GcnSpec.biasRelu (Cert.KernelIdeal.Glue.agg16 (F := Ideal) (aE m c) (Cert.GcnSpec.mm (aX m c) (aW1 m c))) (shapeCast Cert.KernelIdeal.S1x16 (aB1 m c) Cert.KernelIdeal.Facts₀.shapeCasts_S16_S1x16)) (aW2 m c)))
        (broadcastInDim S100000x7 ![0, 1] bcast_S1x7_S100000x7_0_1 (broadcastInDim S1x7 ![1] bcast_S7_S1x7_1 (aB2 m c)))) (constant (F := Ideal) S_ .f32 0xFF800000#32) reducesTo_S100000x7_S100000_d1 h_S_)))))) from rfl]

theorem V12_v95 : V12 m c (Proc.devRef .tc main_v95)
    = Cert.GcnSpec.biasLogSoftmax (Cert.KernelIdeal.Glue.agg7 (F := Ideal) (aE m c) (Cert.GcnSpec.mm (Cert.GcnSpec.biasRelu (Cert.KernelIdeal.Glue.agg16 (F := Ideal) (aE m c) (Cert.GcnSpec.mm (aX m c) (aW1 m c))) (shapeCast Cert.KernelIdeal.S1x16 (aB1 m c) Cert.KernelIdeal.Facts₀.shapeCasts_S16_S1x16)) (aW2 m c))) (shapeCast Cert.KernelIdeal.S1x7 (aB2 m c) Cert.KernelIdeal.Facts₀.shapeCasts_S7_S1x7) := by
  have h5 := V11_c5 m c
  have h6 := V11_c6 m c
  unfold V12
  generalize V11 m c = W at h5 h6 ⊢
  after_results_simp
  simp only [ofBuf_toBuf]
  apply toBuf_eq_of
  rw [h5, h6]
  rw [show ((TRef.of (sig := sig) (T := ⟨S100000x7, .f32⟩) main_call3_v5).ofBuf (Val := Elt Ideal) (subf (F := Ideal) (s := S100000x7) (φ := .f32) (addf (F := Ideal) (s := S100000x7) (φ := .f32) (Cert.KernelIdeal.Glue.agg7 (F := Ideal) (aE m c) (Cert.GcnSpec.mm (Cert.GcnSpec.biasRelu (Cert.KernelIdeal.Glue.agg16 (F := Ideal) (aE m c) (Cert.GcnSpec.mm (aX m c) (aW1 m c))) (shapeCast Cert.KernelIdeal.S1x16 (aB1 m c) Cert.KernelIdeal.Facts₀.shapeCasts_S16_S1x16)) (aW2 m c)))
        (broadcastInDim S100000x7 ![0, 1] bcast_S1x7_S100000x7_0_1 (broadcastInDim S1x7 ![1] bcast_S7_S1x7_1 (aB2 m c)))) (broadcastInDim S100000x7 ![0, 1] bcast_S100000x1_S100000x7_0_1 (broadcastInDim S100000x1 ![0] bcast_S100000_S100000x1_0 (maximumf (F := Ideal) (s := S100000) (φ := .f32) (broadcastInDim S100000 ![] bcast_S_S100000 (constant (F := Ideal) S_ .f32 0xFF800000#32)) (Host.reduce FloatOps.maximumf (addf (F := Ideal) (s := S100000x7) (φ := .f32) (Cert.KernelIdeal.Glue.agg7 (F := Ideal) (aE m c) (Cert.GcnSpec.mm (Cert.GcnSpec.biasRelu (Cert.KernelIdeal.Glue.agg16 (F := Ideal) (aE m c) (Cert.GcnSpec.mm (aX m c) (aW1 m c))) (shapeCast Cert.KernelIdeal.S1x16 (aB1 m c) Cert.KernelIdeal.Facts₀.shapeCasts_S16_S1x16)) (aW2 m c)))
        (broadcastInDim S100000x7 ![0, 1] bcast_S1x7_S100000x7_0_1 (broadcastInDim S1x7 ![1] bcast_S7_S1x7_1 (aB2 m c)))) (constant (F := Ideal) S_ .f32 0xFF800000#32) reducesTo_S100000x7_S100000_d1 h_S_))))) : (⟨S100000x7, .f32⟩ : BufTy).Contents (Elt Ideal)) = (subf (F := Ideal) (s := S100000x7) (φ := .f32) (addf (F := Ideal) (s := S100000x7) (φ := .f32) (Cert.KernelIdeal.Glue.agg7 (F := Ideal) (aE m c) (Cert.GcnSpec.mm (Cert.GcnSpec.biasRelu (Cert.KernelIdeal.Glue.agg16 (F := Ideal) (aE m c) (Cert.GcnSpec.mm (aX m c) (aW1 m c))) (shapeCast Cert.KernelIdeal.S1x16 (aB1 m c) Cert.KernelIdeal.Facts₀.shapeCasts_S16_S1x16)) (aW2 m c)))
        (broadcastInDim S100000x7 ![0, 1] bcast_S1x7_S100000x7_0_1 (broadcastInDim S1x7 ![1] bcast_S7_S1x7_1 (aB2 m c)))) (broadcastInDim S100000x7 ![0, 1] bcast_S100000x1_S100000x7_0_1 (broadcastInDim S100000x1 ![0] bcast_S100000_S100000x1_0 (maximumf (F := Ideal) (s := S100000) (φ := .f32) (broadcastInDim S100000 ![] bcast_S_S100000 (constant (F := Ideal) S_ .f32 0xFF800000#32)) (Host.reduce FloatOps.maximumf (addf (F := Ideal) (s := S100000x7) (φ := .f32) (Cert.KernelIdeal.Glue.agg7 (F := Ideal) (aE m c) (Cert.GcnSpec.mm (Cert.GcnSpec.biasRelu (Cert.KernelIdeal.Glue.agg16 (F := Ideal) (aE m c) (Cert.GcnSpec.mm (aX m c) (aW1 m c))) (shapeCast Cert.KernelIdeal.S1x16 (aB1 m c) Cert.KernelIdeal.Facts₀.shapeCasts_S16_S1x16)) (aW2 m c)))
        (broadcastInDim S100000x7 ![0, 1] bcast_S1x7_S100000x7_0_1 (broadcastInDim S1x7 ![1] bcast_S7_S1x7_1 (aB2 m c)))) (constant (F := Ideal) S_ .f32 0xFF800000#32) reducesTo_S100000x7_S100000_d1 h_S_))))) from rfl]
  rw [show ((TRef.of (sig := sig) (T := ⟨S100000x7, .f32⟩) main_call3_v6).ofBuf (Val := Elt Ideal) (Host.exp (F := Ideal) (s := S100000x7) (φ := .f32) (subf (F := Ideal) (s := S100000x7) (φ := .f32) (addf (F := Ideal) (s := S100000x7) (φ := .f32) (Cert.KernelIdeal.Glue.agg7 (F := Ideal) (aE m c) (Cert.GcnSpec.mm (Cert.GcnSpec.biasRelu (Cert.KernelIdeal.Glue.agg16 (F := Ideal) (aE m c) (Cert.GcnSpec.mm (aX m c) (aW1 m c))) (shapeCast Cert.KernelIdeal.S1x16 (aB1 m c) Cert.KernelIdeal.Facts₀.shapeCasts_S16_S1x16)) (aW2 m c)))
        (broadcastInDim S100000x7 ![0, 1] bcast_S1x7_S100000x7_0_1 (broadcastInDim S1x7 ![1] bcast_S7_S1x7_1 (aB2 m c)))) (broadcastInDim S100000x7 ![0, 1] bcast_S100000x1_S100000x7_0_1 (broadcastInDim S100000x1 ![0] bcast_S100000_S100000x1_0 (maximumf (F := Ideal) (s := S100000) (φ := .f32) (broadcastInDim S100000 ![] bcast_S_S100000 (constant (F := Ideal) S_ .f32 0xFF800000#32)) (Host.reduce FloatOps.maximumf (addf (F := Ideal) (s := S100000x7) (φ := .f32) (Cert.KernelIdeal.Glue.agg7 (F := Ideal) (aE m c) (Cert.GcnSpec.mm (Cert.GcnSpec.biasRelu (Cert.KernelIdeal.Glue.agg16 (F := Ideal) (aE m c) (Cert.GcnSpec.mm (aX m c) (aW1 m c))) (shapeCast Cert.KernelIdeal.S1x16 (aB1 m c) Cert.KernelIdeal.Facts₀.shapeCasts_S16_S1x16)) (aW2 m c)))
        (broadcastInDim S100000x7 ![0, 1] bcast_S1x7_S100000x7_0_1 (broadcastInDim S1x7 ![1] bcast_S7_S1x7_1 (aB2 m c)))) (constant (F := Ideal) S_ .f32 0xFF800000#32) reducesTo_S100000x7_S100000_d1 h_S_)))))) : (⟨S100000x7, .f32⟩ : BufTy).Contents (Elt Ideal)) = (Host.exp (F := Ideal) (s := S100000x7) (φ := .f32) (subf (F := Ideal) (s := S100000x7) (φ := .f32) (addf (F := Ideal) (s := S100000x7) (φ := .f32) (Cert.KernelIdeal.Glue.agg7 (F := Ideal) (aE m c) (Cert.GcnSpec.mm (Cert.GcnSpec.biasRelu (Cert.KernelIdeal.Glue.agg16 (F := Ideal) (aE m c) (Cert.GcnSpec.mm (aX m c) (aW1 m c))) (shapeCast Cert.KernelIdeal.S1x16 (aB1 m c) Cert.KernelIdeal.Facts₀.shapeCasts_S16_S1x16)) (aW2 m c)))
        (broadcastInDim S100000x7 ![0, 1] bcast_S1x7_S100000x7_0_1 (broadcastInDim S1x7 ![1] bcast_S7_S1x7_1 (aB2 m c)))) (broadcastInDim S100000x7 ![0, 1] bcast_S100000x1_S100000x7_0_1 (broadcastInDim S100000x1 ![0] bcast_S100000_S100000x1_0 (maximumf (F := Ideal) (s := S100000) (φ := .f32) (broadcastInDim S100000 ![] bcast_S_S100000 (constant (F := Ideal) S_ .f32 0xFF800000#32)) (Host.reduce FloatOps.maximumf (addf (F := Ideal) (s := S100000x7) (φ := .f32) (Cert.KernelIdeal.Glue.agg7 (F := Ideal) (aE m c) (Cert.GcnSpec.mm (Cert.GcnSpec.biasRelu (Cert.KernelIdeal.Glue.agg16 (F := Ideal) (aE m c) (Cert.GcnSpec.mm (aX m c) (aW1 m c))) (shapeCast Cert.KernelIdeal.S1x16 (aB1 m c) Cert.KernelIdeal.Facts₀.shapeCasts_S16_S1x16)) (aW2 m c)))
        (broadcastInDim S100000x7 ![0, 1] bcast_S1x7_S100000x7_0_1 (broadcastInDim S1x7 ![1] bcast_S7_S1x7_1 (aB2 m c)))) (constant (F := Ideal) S_ .f32 0xFF800000#32) reducesTo_S100000x7_S100000_d1 h_S_)))))) from rfl]
  rw [show ((TRef.of (sig := sig) (T := ⟨S100000x7, .f32⟩) main_v95).ofBuf (Val := Elt Ideal) (Cert.GcnSpec.biasLogSoftmax (Cert.KernelIdeal.Glue.agg7 (F := Ideal) (aE m c) (Cert.GcnSpec.mm (Cert.GcnSpec.biasRelu (Cert.KernelIdeal.Glue.agg16 (F := Ideal) (aE m c) (Cert.GcnSpec.mm (aX m c) (aW1 m c))) (shapeCast Cert.KernelIdeal.S1x16 (aB1 m c) Cert.KernelIdeal.Facts₀.shapeCasts_S16_S1x16)) (aW2 m c))) (shapeCast Cert.KernelIdeal.S1x7 (aB2 m c) Cert.KernelIdeal.Facts₀.shapeCasts_S7_S1x7)) : (⟨S100000x7, .f32⟩ : BufTy).Contents (Elt Ideal)) = (Cert.GcnSpec.biasLogSoftmax (Cert.KernelIdeal.Glue.agg7 (F := Ideal) (aE m c) (Cert.GcnSpec.mm (Cert.GcnSpec.biasRelu (Cert.KernelIdeal.Glue.agg16 (F := Ideal) (aE m c) (Cert.GcnSpec.mm (aX m c) (aW1 m c))) (shapeCast Cert.KernelIdeal.S1x16 (aB1 m c) Cert.KernelIdeal.Facts₀.shapeCasts_S16_S1x16)) (aW2 m c))) (shapeCast Cert.KernelIdeal.S1x7 (aB2 m c) Cert.KernelIdeal.Facts₀.shapeCasts_S7_S1x7)) from rfl]
  exact Stages.logSoftmax_eq _ _ _

/-! ## The result -/

/-- The result buffer after @main's operations holds the network of the six arguments. -/
theorem result_eq : after ops (launchContents m c) (Proc.devRef .tc main_v95)
    = Cert.KernelIdeal.Glue.network (aX m c) (aE m c) (aW1 m c) (aB1 m c) (aW2 m c) (aB2 m c) := by
  rw [after_ops, V12_v95]
  rfl

end Reading

/-- On every device, from any memory with zero counters: every weakly fair execution of @main terminates with the
    result buffer holding the network of the six arguments' launch contents, and the arguments unchanged. -/
theorem run_network [Cert.ReferenceIdeal.Facts] [Cert.KernelIdeal.Facts] (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v95)
          = Cert.KernelIdeal.Glue.network (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c).1.trans (result_eq m c), (h c).2⟩) (run (F := Ideal) m ρ)

end Cert.ReferenceIdeal.RunP

end
-- ==== Proof.lean ====
/-
  A two-layer graph convolution (100000 nodes, 3200000 edges and one self-loop per node): dense product, aggregation
  over incoming edges with symmetric degree normalisation, bias and positive part; a second dense product and
  aggregation, bias, and a row-wise log-softmax.

  The kernel program computes the two dense products, the bias-and-positive-part stage and the log-softmax stage in four
  tiled regions (blocks of 5000 or 10000 rows), with the sparse aggregation done by host operations between the regions and
  the edge weights computed once; the reference computes everything by host operations on whole arrays and recomputes
  the edge weights for the second layer. At the extended reals the two agree exactly, and the proof needs no law of
  arithmetic beyond re-indexing a finite sum:
  * each region's output array is ONE whole-array function of its input arrays, because its blocks tile the array
    and every block computes that function's restriction (a row of a matrix product, of bias-and-positive-part, of a
    log-softmax depends only on the same row of the left operand);
  * the reference's dot_general, its add-maximum pair and its inlined log-softmax are those same functions, index by
    index (a change of float format is the identity; a matrix product into a zero accumulator is the plain sum; the
    maximum of -∞ and a fold of max that starts at -∞ is that fold);
  * the sparse operations (index lists, scatter-adds, gathers) are literally the same operations in both programs, and
    are never opened;
  so both results are `Glue.network` of the arguments. The frames of the kernel programs are the generated ones; the
  reference's frame is its run with the result dropped. Nothing uses finiteness of the inputs.
-/
import proofs.«162333_j76862734730017_1_alg».proof.Defs
import proofs.«162333_j76862734730017_1_alg».proof.Proof.Gen.Kernel
import proofs.«162333_j76862734730017_1_alg».proof.Proof.Gen.Kernel.Skeleton
import proofs.«162333_j76862734730017_1_alg».proof.Proof.Gen.Kernel.Launch
import proofs.«162333_j76862734730017_1_alg».proof.Proof.Gen.Kernel.Points
import proofs.«162333_j76862734730017_1_alg».proof.Proof.Gen.Kernel.Frame
import proofs.«162333_j76862734730017_1_alg».proof.Proof.Gen.KernelIdeal
import proofs.«162333_j76862734730017_1_alg».proof.Proof.Gen.KernelIdeal.Skeleton
import proofs.«162333_j76862734730017_1_alg».proof.Proof.Gen.KernelIdeal.Launch
import proofs.«162333_j76862734730017_1_alg».proof.Proof.Gen.KernelIdeal.Points
import proofs.«162333_j76862734730017_1_alg».proof.Proof.Gen.KernelIdeal.Frame
import proofs.«162333_j76862734730017_1_alg».proof.Proof.Gen.ReferenceIdeal
import proofs.«162333_j76862734730017_1_alg».proof.Proof.Gen.Pre_finite_inputs
import proofs.«162333_j76862734730017_1_alg».proof.Proof.KRun
import proofs.«162333_j76862734730017_1_alg».proof.Proof.KGlue
import proofs.«162333_j76862734730017_1_alg».proof.Proof.KMatmul
import proofs.«162333_j76862734730017_1_alg».proof.Proof.KPointwise
import proofs.«162333_j76862734730017_1_alg».proof.Proof.RefValue
import Idealize.ShloMosaic.Adequacy
import Idealize.ShloMosaic.Init

noncomputable section

namespace Cert.Proof

open Idealize.ShloMosaic Idealize.SL.Sem

/-- The word-level kernel program runs and keeps its arguments: the generated frame. -/
theorem frame_k : Cert.frame_Kernel := fun m ρ _ => Cert.Kernel.Gen.frame m ρ

/-- The idealized kernel program runs and keeps its arguments: the generated frame. -/
theorem frame_ki : Cert.frame_KernelIdeal := fun m ρ _ => Cert.KernelIdeal.Gen.frame m ρ

/-- The idealized reference runs and keeps its arguments: its run, the result forgotten. -/
theorem frame_ri : Cert.frame_ReferenceIdeal := fun m ρ _ =>
  (θ_run Cert.ReferenceIdeal.defs _ _).mono (fun _ h c => (h c).2) (Cert.ReferenceIdeal.RunP.run_network m ρ)

/-- From memories agreeing on the arguments both programs end with the network of those arguments. -/
theorem algebraic : Cert.algebraic_KernelIdeal_ReferenceIdeal := by
  intro m ρ m' ρ' _ hagree
  refine ⟨fun c => Cert.KernelIdeal.Glue.network
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.Chain.W9_main_v61 m ρ
          Cert.KernelIdeal.RegionValue.final0 Cert.KernelIdeal.RegionValue.final1
          Cert.KernelIdeal.RegionValue.final2 Cert.KernelIdeal.RegionValue.final3 c), (h c).2⟩)
      (Cert.KernelIdeal.ValueRun.run_result (F := Ideal) m ρ)
  · refine (θ_run Cert.ReferenceIdeal.defs _ _).mono (fun _ h c => ⟨(h c).1.trans ?_, (h c).2⟩)
      (Cert.ReferenceIdeal.RunP.run_network m' ρ')
    rw [(hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
